-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096 : Shape := ⟨2, ![4, 4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) (main_arg1 : IVec S4x4096 1) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  main_v3
-- ==== Kernel.lean ====
abbrev S4x4096x1024 : Shape := ⟨3, ![4, 4096, 1024]⟩
abbrev S4x4096 : Shape := ⟨2, ![4, 4096]⟩
abbrev S4096x4 : Shape := ⟨2, ![4096, 4]⟩
abbrev S16384 : Shape := ⟨1, ![16384]⟩
abbrev S4096 : Shape := ⟨1, ![4096]⟩
abbrev S4x128 : Shape := ⟨2, ![4, 128]⟩
abbrev S128 : Shape := ⟨1, ![128]⟩
abbrev S_ : Shape := ⟨0, ![]⟩
abbrev S1x128 : Shape := ⟨2, ![1, 128]⟩
abbrev S1x16 : Shape := ⟨2, ![1, 16]⟩
abbrev S16 : Shape := ⟨1, ![16]⟩
abbrev S4x1024x1024 : Shape := ⟨3, ![4, 1024, 1024]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S2048x2x1024 : Shape := ⟨3, ![2048, 2, 1024]⟩
abbrev S2048x1x1024 : Shape := ⟨3, ![2048, 1, 1024]⟩
abbrev S2048x1024 : Shape := ⟨2, ![2048, 1024]⟩
abbrev S1024x2x1024 : Shape := ⟨3, ![1024, 2, 1024]⟩
abbrev S1024x1x1024 : Shape := ⟨3, ![1024, 1, 1024]⟩
abbrev S1024x1024 : Shape := ⟨2, ![1024, 1024]⟩
abbrev S4x1024 : Shape := ⟨2, ![4, 1024]⟩

abbrev nBuf : Table → Nat
  | .hbm => 13
  | .local .tc .vmem => 4
  | .local .scVector .vmem => 2
  | _ => 0

abbrev bufTy : (tb : Table) → Fin (nBuf tb) → BufTy
  | .hbm, ⟨0, _⟩ => ⟨S4x4096x1024, .f32⟩
  | .hbm, ⟨1, _⟩ => ⟨S4x4096, .i1⟩
  | .hbm, ⟨2, _⟩ => ⟨S4096x4, .i1⟩
  | .hbm, ⟨3, _⟩ => ⟨S4096x4, .i32⟩
  | .hbm, ⟨4, _⟩ => ⟨S4x4096, .i32⟩
  | .hbm, ⟨5, _⟩ => ⟨S16384, .i32⟩
  | .hbm, ⟨6, _⟩ => ⟨S4096, .i32⟩
  | .hbm, ⟨7, _⟩ => ⟨S4x1024x1024, .f32⟩
  | .hbm, ⟨8, _⟩ => ⟨S4x1024, .i32⟩
  | .hbm, ⟨9, _⟩ => ⟨S_, .i32⟩
  | .hbm, ⟨10, _⟩ => ⟨S4x1024, .i32⟩
  | .hbm, ⟨11, _⟩ => ⟨S4x1024, .i1⟩
  | .hbm, ⟨12, _⟩ => ⟨S4x1024, .i1⟩
  | .local .tc .vmem, ⟨0, _⟩ => ⟨S1x4096x1024, .f32⟩
  | .local .tc .vmem, ⟨1, _⟩ => ⟨S1x4096x1024, .f32⟩
  | .local .tc .vmem, ⟨2, _⟩ => ⟨S1x1024x1024, .f32⟩
  | .local .tc .vmem, ⟨3, _⟩ => ⟨S1x1024x1024, .f32⟩
  | .local .scVector .vmem, ⟨0, _⟩ => ⟨S4x128, .i32⟩
  | .local .scVector .vmem, ⟨1, _⟩ => ⟨S128, .i32⟩
  | _, _ => ⟨S4x4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v3_scv : Ref sig .scVector := ⟨.hbm, 5, rfl⟩
abbrev main_v4_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  ![v3.toNat]
def k0_off2 (c0_i32_3 : BitVec 32) : Fin 2 → Nat :=
  let c0_i32_4 : BitVec 32 := 0#32
  let v8 : Index := Scalar.indexCast c0_i32_4
  let c16_i32 : BitVec 32 := 16#32
  let v7 : BitVec 32 := Scalar.muli c0_i32_3 c16_i32
  let v9 : Index := Scalar.indexCast v7
  ![0, v9.toNat]
def k0_off3 (c0_i32_3 : BitVec 32) : Fin 2 → Nat :=
  let c1_i32_6 : BitVec 32 := 1#32
  let v13 : Index := Scalar.indexCast c1_i32_6
  let c16_i32_5 : BitVec 32 := 16#32
  let v12 : BitVec 32 := Scalar.muli c0_i32_3 c16_i32_5
  let v14 : Index := Scalar.indexCast v12
  ![1, v14.toNat]
def k0_off4 (c0_i32_3 : BitVec 32) : Fin 2 → Nat :=
  let c2_i32_8 : BitVec 32 := 2#32
  let v19 : Index := Scalar.indexCast c2_i32_8
  let c16_i32_7 : BitVec 32 := 16#32
  let v18 : BitVec 32 := Scalar.muli c0_i32_3 c16_i32_7
  let v20 : Index := Scalar.indexCast v18
  ![2, v20.toNat]
def k0_off5 (c0_i32_3 : BitVec 32) : Fin 2 → Nat :=
  let c3_i32_10 : BitVec 32 := 3#32
  let v25 : Index := Scalar.indexCast c3_i32_10
  let c16_i32_9 : BitVec 32 := 16#32
  let v24 : BitVec 32 := Scalar.muli c0_i32_3 c16_i32_9
  let v26 : Index := Scalar.indexCast v24
  ![3, v26.toNat]
def k0_off6 (c0_i32_3 : BitVec 32) : Fin 1 → Nat :=
  let c16_i32_11 : BitVec 32 := 16#32
  let v30 : BitVec 32 := Scalar.muli c0_i32_3 c16_i32_11
  let v31 : Index := Scalar.indexCast v30
  ![v31.toNat]
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev grid1 : Pipeline.Grid := ⟨2, ![4, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x4096_S4096x4 : S4x4096.ShapeCasts S4096x4
  natLt_1_32 : 1 < 32
  transposes_S4096x4_S4x4096_1_0 : S4096x4.Transposes [1, 0] S4x4096
  shapeCasts_S4x4096_S16384 : S4x4096.ShapeCasts S16384
  inb_S4x128_S1x128_0_0 : ∀ a, (![0, 0] : Fin 2 → Nat) a + S1x128.size a ≤ S4x128.size a
  squeezes_S1x128_S128 : S1x128.Squeezes S128
  inb_S4x128_S1x128_1_0 : ∀ a, (![1, 0] : Fin 2 → Nat) a + S1x128.size a ≤ S4x128.size a
  inb_S4x128_S1x128_2_0 : ∀ a, (![2, 0] : Fin 2 → Nat) a + S1x128.size a ≤ S4x128.size a
  inb_S4x128_S1x128_3_0 : ∀ a, (![3, 0] : Fin 2 → Nat) a + S1x128.size a ≤ S4x128.size a
  h_S1x16 : 0 < S1x16.numel
  shapeCasts_S1x16_S16 : S1x16.ShapeCasts S16
  h_S16 : 0 < S16.numel
  shapeCasts_S16_S16 : S16.ShapeCasts S16
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  shapeCasts_S4096x1024_S2048x2x1024 : S4096x1024.ShapeCasts S2048x2x1024
  slices_S2048x2x1024_o0_0_0_S2048x1x1024 : S2048x2x1024.Slices ![0, 0, 0] S2048x1x1024
  shapeCasts_S2048x1x1024_S2048x1024 : S2048x1x1024.ShapeCasts S2048x1024
  slices_S2048x2x1024_o0_1_0_S2048x1x1024 : S2048x2x1024.Slices ![0, 1, 0] S2048x1x1024
  shapeCasts_S2048x1024_S1024x2x1024 : S2048x1024.ShapeCasts S1024x2x1024
  slices_S1024x2x1024_o0_0_0_S1024x1x1024 : S1024x2x1024.Slices ![0, 0, 0] S1024x1x1024
  shapeCasts_S1024x1x1024_S1024x1024 : S1024x1x1024.ShapeCasts S1024x1024
  slices_S1024x2x1024_o0_1_0_S1024x1x1024 : S1024x2x1024.Slices ![0, 1, 0] S1024x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S4096_S4x1024 : S4096.ShapeCasts S4x1024
  bcast_S_S4x1024 : S_.BroadcastsInDim S4x1024 (![] : Fin 0 → Fin S4x1024.rank)
  hcc0_scoped0 : 0 + S_.numel ≤ 9
  hcc0_scoped1 : 1 + S_.numel ≤ 9
  hcc0_scoped2 : 2 + S_.numel ≤ 9
  hcc0_scoped3 : 3 + S_.numel ≤ 9
  hcc0_scoped4 : 4 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (4096 * r.val))) a + S128.size a ≤ S16384.size a
  k0_off2_inb : ∀ (r : Fin 8), ∀ a, (k0_off2 (BitVec.ofNat 32 r.val)) a + S1x16.size a ≤ S4x128.size a
  k0_off3_inb : ∀ (r : Fin 8), ∀ a, (k0_off3 (BitVec.ofNat 32 r.val)) a + S1x16.size a ≤ S4x128.size a
  k0_off4_inb : ∀ (r : Fin 8), ∀ a, (k0_off4 (BitVec.ofNat 32 r.val)) a + S1x16.size a ≤ S4x128.size a
  k0_off5_inb : ∀ (r : Fin 8), ∀ a, (k0_off5 (BitVec.ofNat 32 r.val)) a + S1x16.size a ≤ S4x128.size a
  k0_off6_inb : ∀ (r : Fin 8), ∀ a, (k0_off6 (BitVec.ofNat 32 r.val)) a + S16.size a ≤ S128.size a
  k0_off7_inb : ∀ i : grid0.Coords, ∀ a, (k0_off7 i) a + S128.size a ≤ S4096.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x1024.size a ≤ S4x4096x1024.size a
  hwx1_0 : ∀ i : grid1.Coords, EltTy.bits .f32 = 32 ∨ (Rect.block (s := S4x4096x1024) S1x4096x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x1024x1024.size a
  hwx1_1 : ∀ i : grid1.Coords, EltTy.bits .f32 = 32 ∨ (Rect.block (s := S4x1024x1024) S1x1024x1024.size (cc1_transform_1 i) (hinb1_1 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4

abbrev win1_0 : Pipeline.Window sig grid1 :=
  Pipeline.Window.ofSpec (Memref.whole main_arg0) S1x4096x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S4x4096 : Shape := ⟨2, ![4, 4096]⟩
abbrev S4x1024x4x1024 : Shape := ⟨4, ![4, 1024, 4, 1024]⟩
abbrev S4x1024x4 : Shape := ⟨3, ![4, 1024, 4]⟩
abbrev S_ : Shape := ⟨0, ![]⟩
abbrev S4x1024x1024 : Shape := ⟨3, ![4, 1024, 1024]⟩
abbrev S4x1024 : Shape := ⟨2, ![4, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i1⟩
  | .hbm, ⟨2, _⟩ => ⟨S4x1024x4x1024, .f32⟩
  | .hbm, ⟨3, _⟩ => ⟨S4x1024x4, .i1⟩
  | .hbm, ⟨4, _⟩ => ⟨S_, .f32⟩
  | .hbm, ⟨5, _⟩ => ⟨S4x1024x1024, .f32⟩
  | .hbm, ⟨6, _⟩ => ⟨S_, .f32⟩
  | .hbm, ⟨7, _⟩ => ⟨S4x1024x1024, .f32⟩
  | .hbm, ⟨8, _⟩ => ⟨S4x1024x1024, .f32⟩
  | .hbm, ⟨9, _⟩ => ⟨S_, .i1⟩
  | .hbm, ⟨10, _⟩ => ⟨S4x1024, .i1⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  shapeCasts_S4x4096x1024_S4x1024x4x1024 : S4x4096x1024.ShapeCasts S4x1024x4x1024
  shapeCasts_S4x4096_S4x1024x4 : S4x4096.ShapeCasts S4x1024x4
  reducesTo_S4x1024x4x1024_S4x1024x1024_d2 : S4x1024x4x1024.ReducesTo [2] S4x1024x1024
  h_S_ : 0 < S_.numel
  bcast_S_S4x1024x1024 : S_.BroadcastsInDim S4x1024x1024 (![] : Fin 0 → Fin S4x1024x1024.rank)
  reducesTo_S4x1024x4_S4x1024_d2 : S4x1024x4.ReducesTo [2] S4x1024

variable [Facts₀]

class Facts : Prop extends Facts₀ where

variable [Facts]
-- ==== Proof.KV.lean ====
/-
  The two functions the kernel computes, as whole-array functions of its arguments, at any float instance.

  * The pooled array. The pallas_call runs its body once per batch on that batch's block of 4096 rows and
    writes the body's result — 1024 rows, row `r` the sum of rows `4r .. 4r+3` paired as
    `(x[4r] + x[4r+1]) + (x[4r+2] + x[4r+3])` and scaled by the word `0.25` — to the same batch of the result.
    `pooled x` is, batch by batch, that body term (`k1_pay1`) of the batch's block.
  * The pooled mask. The host lays the mask's bits out as 32-bit words, group position major
    (`maskWords`: word `4096 k + w` is bit `4 w + k`, zero-extended); the vector subcores take, for every
    window `w`, the signed minimum of its four words (`min4`); the host compares the result with zero
    (`maskOut`).
-/
import proofs.«217849_g24850680775158_cont_8to1_1955_33_alg».proof.Proof.Gen.KernelIdeal.Skeleton
import Idealize.ShloMosaic.Lib.ValueIdx

noncomputable section

namespace Cert.KernelIdeal.KV

open Idealize.ShloMosaic Idealize.ShloMosaic.ValueIdx Cert.KernelIdeal Cert.KernelIdeal.Gen

variable {F : FTy → Type} [FloatOps F]

/-- Batch `b` of the input as a block of one batch: rows and features unchanged. -/
def slab (x : Vec F S4x4096x1024 .f32) (b : Fin 4) : Vec F S1x4096x1024 .f32 :=
  fun y => x (ix3 b (y 1) (y 2))

/-- The pooled array: in every batch, the body's function of that batch's block. -/
def pooled (x : Vec F S4x4096x1024 .f32) : Vec F S4x1024x1024 .f32 :=
  fun i => k1_pay1 (slab x (i 0)) (ix3 (0 : Fin 1) (i 1) (i 2))

/-- The mask as words, group position major: word `4096 k + w` is bit `4 w + k` of the mask, zero-extended. -/
def maskWords (a : IVec S4x4096 1) : IVec S16384 32 :=
  shapeCast S16384 (transpose S4x4096 [1, 0] (extui 32 (shapeCast S4096x4 a shapeCasts_S4x4096_S4096x4) natLt_1_32)
    transposes_S4096x4_S4x4096_1_0) shapeCasts_S4x4096_S16384

/-- Word `4096 k + n` of the word array: window `n`'s word at group position `k`. -/
def wordAt (v : IVec S16384 32) (k : Fin 4) (n : Fin 4096) : BitVec 32 :=
  v (ix1 (⟨4096 * k.val + n.val, by have := k.isLt; have := n.isLt; omega⟩ : Fin 16384))

/-- The signed minimum of a window's four words, in the order the subcores fold them. -/
def min4 (v : IVec S16384 32) : IVec S4096 32 :=
  fun i => IntOp.minsi (IntOp.minsi (IntOp.minsi (wordAt v 0 (i 0)) (wordAt v 1 (i 0))) (wordAt v 2 (i 0))) (wordAt v 3 (i 0))

/-- The minima compared with zero, laid out batch by window. -/
def maskOut (v : IVec S4096 32) : IVec S4x1024 1 :=
  cmpi .ne (shapeCast S4x1024 v shapeCasts_S4096_S4x1024) (broadcastInDim S4x1024 ![] bcast_S_S4x1024 (constantI S_ 32 0#32))

/-- The pooled mask as the kernel computes it. -/
def maskVal (a : IVec S4x4096 1) : IVec S4x1024 1 := maskOut (min4 (maskWords a))

end Cert.KernelIdeal.KV

end
-- ==== Proof.Setup.lean ====
/-
  The program as the SparseCore launch theorem sees it, and the ghost state every module of this proof is
  stated over: the handshakes' rounds, the TensorCore pipeline's staging rounds and the counters of the
  subcores' own copies, side by side.
-/
import proofs.«217849_g24850680775158_cont_8to1_1955_33_alg».proof.Defs
import proofs.«217849_g24850680775158_cont_8to1_1955_33_alg».proof.Proof.Gen.KernelIdeal
import proofs.«217849_g24850680775158_cont_8to1_1955_33_alg».proof.Proof.Gen.KernelIdeal.Skeleton
import proofs.«217849_g24850680775158_cont_8to1_1955_33_alg».proof.Proof.Gen.KernelIdeal.Launch
import proofs.«217849_g24850680775158_cont_8to1_1955_33_alg».proof.Proof.Gen.KernelIdeal.Points
import proofs.«217849_g24850680775158_cont_8to1_1955_33_alg».proof.Proof.KV
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program below the SparseCore layer: the kernels' and the one pipeline's. -/
abbrev ΛP : Labels := Pipeline.Sig Λ₀ (Fin 1) fun p => (pcfgs (F := F) p).Adm
/-- The SparseCore calls. -/
abbrev K : SparseCore.Cfg τ sig (ΛP (F := F)) 1 := sc (F := F)
/-- The body table below the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's staging rounds, the copies' counters. -/
abbrev UH : Type := URounds (GSem nD τ sig) ℕ
abbrev UP : Type := URounds (GSem nD τ sig) Unit
abbrev UU : Type := UH × (UP × Counters)

/-- The model. -/
abbrev MM (F : FTy → Type) : Type := MT nD τ sig (HIx 1) (Elt F) ℕ UU ℕ

/-- The handshakes' copy: the left factor. -/
abbrev EH : Emb UH (MM F) := embL
/-- The pipeline's copy: the left factor of the right factor. -/
def EP : Emb UP (MM F) := (Emb.inl : Emb UP (UP × Counters)).trans embR

instance EP_landsIn : (EP : Emb UP (MM F)).LandsIn (upEmb : UEmb _ (MM F)) := by unfold EP; infer_instance

/-- What the TensorCore owes once the SparseCore call has returned: nothing; the pairs its waits have recorded
    sit at or below the call's band of levels. -/
def tcOwes (c : Dev nD) : sProp (MM F) := iprop(∃ W, ⌜(K (F := F)).WBelow (T c) W 8⌝ ∗ owes (T c) 0 W)

/-- The TensorCore's arrays after the pipeline: the result array at the pooled input, the others as they were. -/
def afterPool [FloatOps F] (c : Dev nD) (Vm : (b : Ref sig .tc) → Buf (Elt F) ((c.tc : Thread nD τ).loc b)) :
    (b : Ref sig .tc) → Buf (Elt F) ((c.tc : Thread nD τ).loc b) :=
  Function.update Vm main_v5 (KV.pooled (F := F) (Vm main_arg0))

end Cert.KernelIdeal.Setup

end
-- ==== Proof.Parts.lean ====
/-
  How the word array and the result split among the vector subcores. Subcore `(c, s)` of the grid reads, for
  each group position `k`, the 128 words from `4096 k + 256 s + 128 c` and writes the 128 words from
  `256 s + 128 c`: the 128 source rectangles tile the 16384 words, the 32 target rectangles the 4096.
-/
import proofs.«217849_g24850680775158_cont_8to1_1955_33_alg».proof.Proof.Gen.KernelIdeal

noncomputable section

namespace Cert.KernelIdeal.Parts

open Cert.KernelIdeal Cert.KernelIdeal.Gen
open Idealize.ShloMosaic

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev srcRect (L : grid0.Coords) (k : Fin 4) : Rect S16384 :=
  Rect.unit (s := S16384) (k0_off1 L (BitVec.ofNat 32 (4096 * k.val))) S128.size (k0_off1_inb L k)
abbrev dstRect (L : grid0.Coords) : Rect S4096 := Rect.unit (s := S4096) (k0_off7 L) S128.size (k0_off7_inb L)

theorem src_off (c : Fin (grid0.bound 0)) (s : Fin (grid0.bound 1)) (k : Fin 4) :
    k0_off1 (coordsV c s) (BitVec.ofNat 32 (4096 * k.val)) = ![4096 * k.val + 256 * s.val + 128 * c.val] :=
  k0_off1_eq (coordsV c s) k
theorem dst_off (c : Fin (grid0.bound 0)) (s : Fin (grid0.bound 1)) :
    k0_off7 (coordsV c s) = ![256 * s.val + 128 * c.val] :=
  k0_off7_eq (coordsV c s)

abbrev T3 : Type := Fin (grid0.bound 0) × Fin (grid0.bound 1) × Fin 4
abbrev T4 : Type := Fin (grid0.bound 0) × Fin (grid0.bound 1)

/-- The source rectangle of subcore `(t.1, t.2.1)` at group position `t.2.2`; the target rectangle of subcore `t`. -/
abbrev r3 (t : T3) : Rect S16384 := srcRect (coordsV t.1 t.2.1) t.2.2
abbrev r4 (t : T4) : Rect S4096 := dstRect (coordsV t.1 t.2)

theorem r3_disjoint : ∀ t t' : T3, t ≠ t' → Disjoint (r3 t).set (r3 t').set := by
  intro t t' hne
  have h : t.1.val ≠ t'.1.val ∨ t.2.1.val ≠ t'.2.1.val ∨ t.2.2.val ≠ t'.2.2.val := by
    by_contra h; simp only [not_or, ne_eq, not_not] at h
    exact hne (Prod.ext (Fin.ext h.1) (Prod.ext (Fin.ext h.2.1) (Fin.ext h.2.2)))
  have hc : t.1.val < 2 := t.1.isLt
  have hc' : t'.1.val < 2 := t'.1.isLt
  have hs : t.2.1.val < 16 := t.2.1.isLt
  have hs' : t'.2.1.val < 16 := t'.2.1.isLt
  have hk : t.2.2.val < 4 := t.2.2.isLt
  have hk' : t'.2.2.val < 4 := t'.2.2.isLt
  refine Rect.unit_disjoint (0 : Fin 1) ?_
  rw [src_off, src_off]
  show 4096 * t.2.2.val + 256 * t.2.1.val + 128 * t.1.val + 128 ≤ 4096 * t'.2.2.val + 256 * t'.2.1.val + 128 * t'.1.val
    ∨ 4096 * t'.2.2.val + 256 * t'.2.1.val + 128 * t'.1.val + 128 ≤ 4096 * t.2.2.val + 256 * t.2.1.val + 128 * t.1.val
  omega

theorem r3_cover : (Finset.univ : Finset T3).biUnion (fun t => (r3 t).set) = Finset.univ := by
  ext x
  simp only [Finset.mem_biUnion, Finset.mem_univ, true_and, iff_true]
  have hx : (x 0).val < 16384 := (x 0).isLt
  refine ⟨(⟨((x 0).val % 256) / 128, by show _ < 2; omega⟩, ⟨((x 0).val % 4096) / 256, by show _ < 16; omega⟩, ⟨(x 0).val / 4096, by omega⟩), ?_⟩
  refine Rect.mem_set_unit.mpr fun a => ?_
  obtain rfl : a = 0 := Subsingleton.elim _ _
  rw [src_off]
  show 4096 * ((x 0).val / 4096) + 256 * (((x 0).val % 4096) / 256) + 128 * (((x 0).val % 256) / 128) ≤ (x 0).val
    ∧ (x 0).val < 4096 * ((x 0).val / 4096) + 256 * (((x 0).val % 4096) / 256) + 128 * (((x 0).val % 256) / 128) + 128
  omega

theorem r4_disjoint : ∀ t t' : T4, t ≠ t' → Disjoint (r4 t).set (r4 t').set := by
  intro t t' hne
  have h : t.1.val ≠ t'.1.val ∨ t.2.val ≠ t'.2.val := by
    by_contra h; simp only [not_or, ne_eq, not_not] at h
    exact hne (Prod.ext (Fin.ext h.1) (Fin.ext h.2))
  have hc : t.1.val < 2 := t.1.isLt
  have hc' : t'.1.val < 2 := t'.1.isLt
  have hs : t.2.val < 16 := t.2.isLt
  have hs' : t'.2.val < 16 := t'.2.isLt
  refine Rect.unit_disjoint (0 : Fin 1) ?_
  rw [dst_off, dst_off]
  show 256 * t.2.val + 128 * t.1.val + 128 ≤ 256 * t'.2.val + 128 * t'.1.val
    ∨ 256 * t'.2.val + 128 * t'.1.val + 128 ≤ 256 * t.2.val + 128 * t.1.val
  omega

theorem r4_cover : (Finset.univ : Finset T4).biUnion (fun t => (r4 t).set) = Finset.univ := by
  ext x
  simp only [Finset.mem_biUnion, Finset.mem_univ, true_and, iff_true]
  have hx : (x 0).val < 4096 := (x 0).isLt
  refine ⟨(⟨((x 0).val % 256) / 128, by show _ < 2; omega⟩, ⟨(x 0).val / 256, by show _ < 16; omega⟩), ?_⟩
  refine Rect.mem_set_unit.mpr fun a => ?_
  obtain rfl : a = 0 := Subsingleton.elim _ _
  rw [dst_off]
  show 256 * ((x 0).val / 256) + 128 * (((x 0).val % 256) / 128) ≤ (x 0).val
    ∧ (x 0).val < 256 * ((x 0).val / 256) + 128 * (((x 0).val % 256) / 128) + 128
  omega

/-- A word of the result inside subcore `(c, s)`'s rectangle, as an index of the whole result. -/
theorem dst_emb_val (c : Fin (grid0.bound 0)) (s : Fin (grid0.bound 1)) (j : (r4 (c, s)).shape.Idx) :
    ((r4 (c, s)).emb j 0).val = 256 * s.val + 128 * c.val + (j 0).val := by
  show (k0_off7 (coordsV c s)) 0 + 1 * (j 0).val = _
  rw [dst_off]; simp

/-- A word of the word array inside subcore `(c, s)`'s rectangle at group position `k`. -/
theorem src_emb_val (c : Fin (grid0.bound 0)) (s : Fin (grid0.bound 1)) (k : Fin 4) (j : (r3 (c, s, k)).shape.Idx) :
    ((r3 (c, s, k)).emb j 0).val = 4096 * k.val + 256 * s.val + 128 * c.val + (j 0).val := by
  show (k0_off1 (coordsV c s) (BitVec.ofNat 32 (4096 * k.val))) 0 + 1 * (j 0).val = _
  rw [src_off]; simp

end Cert.KernelIdeal.Parts

end
-- ==== Proof.LibRows.lean ====
/-
  Reading a buffer through unit-stride row blocks: a load of a block reads the buffer at the block's offsets plus the
  coordinate inside the block, and an index of a buffer of 1024 rows lies in the block of 128 rows that starts at row
  `o` exactly when its row does.
-/
import Idealize.ShloMosaic.Lib.WritesUnit
import Idealize.ShloMosaic.Lib.ValueIdx

namespace Cert.Lib.Rows

open Idealize.ShloMosaic Idealize.ShloMosaic.ValueIdx

variable {sig : RefSig} {κ : Kind} {sp : Space} {s : Shape} {e : EltTy} {Val : EltTy → Type}

/-- A load through a unit-stride rectangle reads, at position `x` of the rectangle, the buffer at the index whose
    coordinates are the offsets plus `x`'s. -/
theorem readAt_unit (v : View sig κ sp s e) (f : v.ty.Contents Val) (off size : Fin s.rank → ℕ)
    (inb : ∀ a, off a + size a ≤ s.size a) (x : (Rect.unit off size inb).shape.Idx) (y : s.Idx)
    (hy : ∀ a, (y a).val = off a + (x a).val) :
    v.readAt Val (Rect.unit off size inb).toLoadRect f x = v.read Val f y := by
  rw [View.readAt_apply]
  refine congrArg _ (funext fun a => Fin.ext ?_)
  rw [LoadRect.idx_apply, hy a]
  show off a + 1 * (x a).val = _
  rw [Nat.one_mul]

/-- The same with the offsets given by an equation. -/
theorem readAt_unit' (v : View sig κ sp s e) (f : v.ty.Contents Val) (off off' size : Fin s.rank → ℕ)
    (inb : ∀ a, off a + size a ≤ s.size a) (x : (Rect.unit off size inb).shape.Idx) (y : s.Idx) (heq : off = off')
    (hy : ∀ a, (y a).val = off' a + (x a).val) :
    v.readAt Val (Rect.unit off size inb).toLoadRect f x = v.read Val f y := by
  subst heq; exact readAt_unit v f off size inb x y hy

end Cert.Lib.Rows
-- ==== Proof.TileRows.lean ====
/-
  The vector subcore's arithmetic as facts about its two scratches, free of the program.
  The first scratch is four rows of 128 words; the four copies land the task's four runs of 128 words in rows
  0 to 3, each through the row's own view (a row of `[4, 128]` seen as `[128]`), so after them the scratch reads, at
  row `k` and lane `n`, word `n` of run `k`. The body then takes, sixteen lanes at a time, the signed minimum of
  the four rows and stores it at the same lanes of the second scratch: the eight stores tile its 128 words, so it
  reads at lane `y` the minimum over the four rows at lane `y`. That scratch is copied whole to the task's 128
  words of the result. Run `k` being the 128 words of the word array from `4096 k + o` and the task's words of the
  result starting at `o`, word `j` of the task's result is the four-fold minimum at window `o + j`.
-/
import proofs.«217849_g24850680775158_cont_8to1_1955_33_alg».proof.Proof.KV
import proofs.«217849_g24850680775158_cont_8to1_1955_33_alg».proof.Proof.Parts
import proofs.«217849_g24850680775158_cont_8to1_1955_33_alg».proof.Proof.LibRows
import Idealize.ShloMosaic.Lib.Writes
import Idealize.ShloMosaic.Lib.WritesUnit
import Idealize.ShloMosaic.Lib.ValueLayout

noncomputable section

namespace Cert.KernelIdeal.TileRows

open Cert.KernelIdeal Cert.KernelIdeal.Gen Cert.KernelIdeal.Parts
open Idealize.ShloMosaic Idealize.ShloMosaic.ValueIdx

variable {F : FTy → Type}

local notation "aW" => (Memref.whole Cert.KernelIdeal.cc0_scratch0 : Memref Cert.KernelIdeal.sig Kind.scVector Space.vmem Cert.KernelIdeal.S4x128 EltTy.i32)
local notation "bW" => (Memref.whole Cert.KernelIdeal.cc0_scratch1 : Memref Cert.KernelIdeal.sig Kind.scVector Space.vmem Cert.KernelIdeal.S128 EltTy.i32)

/-! ## The first scratch after the four copies -/

/-- Row `k` of the first scratch as the copies address it: the row's rectangle, its unit axis dropped. -/
abbrev rowV (k : ℕ) (inb : ∀ a, (![k, 0] : Fin 2 → ℕ) a + S1x128.size a ≤ S4x128.size a)
    (hq : (Rect.unit (s := S4x128) ![k, 0] S1x128.size inb).shape.Squeezes S128) : View sig .scVector .vmem S128 .i32 :=
  (((aW).slice (Rect.unit (s := S4x128) ![k, 0] S1x128.size inb) (fun _ => rfl)).squeeze S128 hq).view

/-- Lane `n` of a row seen as `[1, 128]` is lane `n` of the row seen as `[128]`. -/
theorem unrow (h : S128.numel = (⟨2, S1x128.size⟩ : Shape).numel) (n : Fin 128) :
    (Shape.reshapeEquiv h).symm (ix2 (0 : Fin 1) n) = ix1 n := by
  rw [Equiv.symm_apply_eq]
  refine (Shape.reshapeEquiv_eq_of_rowMajor h ?_).symm
  rw [Shape.rowMajor_val_two, Shape.rowMajor_val_one]
  show 0 * 128 + n.val = n.val
  omega

/-- THE FIRST SCRATCH AFTER THE FOUR COPIES reads, at row `k` and lane `n`, lane `n` of what copy `k` landed:
    each copy writes its own row and no later copy touches it. -/
theorem rows_read (fa : (aW).view.ty.Contents (Elt F)) (w0 w1 w2 w3 : S128.Idx → BitVec 32)
    (inb0 inb1 inb2 inb3) (hq0 hq1 hq2 hq3) (k : Fin 4) (n : Fin 128) :
    (aW).view.read (Elt F)
        (View.write (Elt F) (rowV 3 inb3 hq3)
          (View.write (Elt F) (rowV 2 inb2 hq2)
            (View.write (Elt F) (rowV 1 inb1 hq1) (View.write (Elt F) (rowV 0 inb0 hq0) fa w0 Finset.univ) w1 Finset.univ)
            w2 Finset.univ)
          w3 Finset.univ)
        (ix2 k n)
      = (match k with | 0 => w0 | 1 => w1 | 2 => w2 | 3 => w3) (ix1 n) := by
  have e3 := View.write_reshape_univ (Val := Elt F) ((aW).view.slice (Rect.unit (s := S4x128) ![3, 0] S1x128.size inb3)) hq3.numel_eq
  have e2 := View.write_reshape_univ (Val := Elt F) ((aW).view.slice (Rect.unit (s := S4x128) ![2, 0] S1x128.size inb2)) hq2.numel_eq
  have e1 := View.write_reshape_univ (Val := Elt F) ((aW).view.slice (Rect.unit (s := S4x128) ![1, 0] S1x128.size inb1)) hq1.numel_eq
  have e0 := View.write_reshape_univ (Val := Elt F) ((aW).view.slice (Rect.unit (s := S4x128) ![0, 0] S1x128.size inb0)) hq0.numel_eq
  show (aW).view.read (Elt F)
      (View.write (Elt F) (((aW).view.slice (Rect.unit (s := S4x128) ![3, 0] S1x128.size inb3)).reshape S128 hq3.numel_eq)
        (View.write (Elt F) (((aW).view.slice (Rect.unit (s := S4x128) ![2, 0] S1x128.size inb2)).reshape S128 hq2.numel_eq)
          (View.write (Elt F) (((aW).view.slice (Rect.unit (s := S4x128) ![1, 0] S1x128.size inb1)).reshape S128 hq1.numel_eq)
            (View.write (Elt F) (((aW).view.slice (Rect.unit (s := S4x128) ![0, 0] S1x128.size inb0)).reshape S128 hq0.numel_eq)
              fa w0 Finset.univ) w1 Finset.univ) w2 Finset.univ) w3 Finset.univ) (ix2 k n) = _
  rw [e3, e2, e1, e0]
  show (aW).view.read (Elt F) ((aW).view.writes (Elt F) fa
      [⟨Rect.unit (s := S4x128) ![3, 0] S1x128.size inb3, fun x => w3 ((Shape.reshapeEquiv hq3.numel_eq).symm x)⟩,
       ⟨Rect.unit (s := S4x128) ![2, 0] S1x128.size inb2, fun x => w2 ((Shape.reshapeEquiv hq2.numel_eq).symm x)⟩,
       ⟨Rect.unit (s := S4x128) ![1, 0] S1x128.size inb1, fun x => w1 ((Shape.reshapeEquiv hq1.numel_eq).symm x)⟩,
       ⟨Rect.unit (s := S4x128) ![0, 0] S1x128.size inb0, fun x => w0 ((Shape.reshapeEquiv hq0.numel_eq).symm x)⟩]) (ix2 k n) = _
  match k with
  | 0 =>
    rw [View.read_writes_cons_rows_of_not_mem (o := 3) (W := 1) _ _ inb3 _ _ _ rfl rfl (Or.inl (by show (_ : ℕ) < _; simp)),
      View.read_writes_cons_rows_of_not_mem (o := 2) (W := 1) _ _ inb2 _ _ _ rfl rfl (Or.inl (by show (_ : ℕ) < _; simp)),
      View.read_writes_cons_rows_of_not_mem (o := 1) (W := 1) _ _ inb1 _ _ _ rfl rfl (Or.inl (by show (_ : ℕ) < _; simp)),
      View.read_writes_cons_rows_of_mem (o := 0) _ _ inb0 _ _ _ (ix2 (0 : Fin 1) n) rfl rfl rfl]
    exact congrArg w0 (unrow _ n)
  | 1 =>
    rw [View.read_writes_cons_rows_of_not_mem (o := 3) (W := 1) _ _ inb3 _ _ _ rfl rfl (Or.inl (by show (_ : ℕ) < _; simp)),
      View.read_writes_cons_rows_of_not_mem (o := 2) (W := 1) _ _ inb2 _ _ _ rfl rfl (Or.inl (by show (_ : ℕ) < _; simp)),
      View.read_writes_cons_rows_of_mem (o := 1) _ _ inb1 _ _ _ (ix2 (0 : Fin 1) n) rfl rfl rfl]
    exact congrArg w1 (unrow _ n)
  | 2 =>
    rw [View.read_writes_cons_rows_of_not_mem (o := 3) (W := 1) _ _ inb3 _ _ _ rfl rfl (Or.inl (by show (_ : ℕ) < _; simp)),
      View.read_writes_cons_rows_of_mem (o := 2) _ _ inb2 _ _ _ (ix2 (0 : Fin 1) n) rfl rfl rfl]
    exact congrArg w2 (unrow _ n)
  | 3 =>
    rw [View.read_writes_cons_rows_of_mem (o := 3) _ _ inb3 _ _ _ (ix2 (0 : Fin 1) n) rfl rfl rfl]
    exact congrArg w3 (unrow _ n)

/-! ## One chunk of sixteen lanes -/

/-- The four rows' signed minimum at a lane, folded as the body folds it. -/
def fold4 (A : (aW).view.ty.Contents (Elt F)) : S128.Idx → BitVec 32 := fun y =>
  IntOp.minsi (IntOp.minsi (IntOp.minsi ((aW).view.read (Elt F) A (ix2 (0 : Fin 4) (y 0))) ((aW).view.read (Elt F) A (ix2 (1 : Fin 4) (y 0))))
    ((aW).view.read (Elt F) A (ix2 (2 : Fin 4) (y 0)))) ((aW).view.read (Elt F) A (ix2 (3 : Fin 4) (y 0)))

/-- Sixteen lanes of row `k` from lane `o`, loaded as `[1, 16]` and seen as `[16]`, read at lane `x` the scratch
    at row `k`, lane `o + x`. -/
theorem load_row (A : (aW).view.ty.Contents (Elt F)) (k : Fin 4) (o : ℕ)
    (inb : ∀ a, (![k.val, o] : Fin 2 → ℕ) a + S1x16.size a ≤ S4x128.size a) (hc : S1x16.ShapeCasts S16) (x : Fin 16) (n : Fin 128)
    (hn : n.val = o + x.val) :
    shapeCast S16 ((aW).view.readAt (Elt F) (Rect.unit (s := S4x128) ![k.val, o] S1x16.size inb).toLoadRect A) hc (ix1 x)
      = (aW).view.read (Elt F) A (ix2 k n) := by
  refine (shapeCast_1a_a_apply _ hc x).trans ?_
  refine Cert.Lib.Rows.readAt_unit (aW).view A _ _ inb (ix2 (0 : Fin 1) x) (ix2 k n) fun a => ?_
  match a with
  | ⟨0, _⟩ => show k.val = k.val + 0; omega
  | ⟨1, _⟩ => exact hn

/-- ONE CHUNK: the body's payload for the sixteen lanes from `o` is, at lane `x`, the four rows' minimum at
    lane `o + x`. -/
theorem chunk_val (A : (aW).view.ty.Contents (Elt F)) (o : ℕ) (inb0 inb1 inb2 inb3) (hc : S1x16.ShapeCasts S16)
    (hc' : S16.ShapeCasts S16) (inbo : ∀ a, (![o] : Fin 1 → ℕ) a + S16.size a ≤ S128.size a)
    (x : (Rect.unit (s := S128) ![o] S16.size inbo).shape.Idx) :
    shapeCast S16
        (minsi
          (minsi
            (minsi
              (shapeCast S16 ((aW).view.readAt (Elt F) (Rect.unit (s := S4x128) ![0, o] S1x16.size inb0).toLoadRect A) hc)
              (shapeCast S16 ((aW).view.readAt (Elt F) (Rect.unit (s := S4x128) ![1, o] S1x16.size inb1).toLoadRect A) hc))
            (shapeCast S16 ((aW).view.readAt (Elt F) (Rect.unit (s := S4x128) ![2, o] S1x16.size inb2).toLoadRect A) hc))
          (shapeCast S16 ((aW).view.readAt (Elt F) (Rect.unit (s := S4x128) ![3, o] S1x16.size inb3).toLoadRect A) hc))
        hc' x
      = fold4 A ((Rect.unit (s := S128) ![o] S16.size inbo).emb x) := by
  obtain ⟨x0, rfl⟩ : ∃ x0 : Fin 16, x = ix1 x0 := ⟨x 0, eq_ix1 x⟩
  rw [shapeCast_self]
  have hn : (((Rect.unit (s := S128) ![o] S16.size inbo).emb (ix1 x0)) 0).val = o + x0.val := by
    show o + 1 * x0.val = o + x0.val
    omega
  unfold fold4
  show IntOp.minsi (IntOp.minsi (IntOp.minsi _ _) _) _ = _
  refine congrArg₂ IntOp.minsi (congrArg₂ IntOp.minsi (congrArg₂ IntOp.minsi ?_ ?_) ?_) ?_
  · exact load_row A 0 o inb0 hc x0 _ hn
  · exact load_row A 1 o inb1 hc x0 _ hn
  · exact load_row A 2 o inb2 hc x0 _ hn
  · exact load_row A 3 o inb3 hc x0 _ hn

/-! ## The second scratch after the eight stores, and the copy out -/

/-- THE SECOND SCRATCH after stores that tile it, each holding the four rows' minimum at its own lanes, reads the
    four rows' minimum at every lane. -/
theorem read_chunks (A : (aW).view.ty.Contents (Elt F)) (fb : (bW).view.ty.Contents (Elt F))
    (Lp : List (View.Piece (Elt F) S128 .i32)) (hG : ∀ p ∈ Lp, ∀ x : p.1.shape.Idx, p.2 x = fold4 A (p.1.emb x))
    (hcov : ∀ y : S128.Idx, ∃ p ∈ Lp, y ∈ p.1.set) (y : S128.Idx) :
    (bW).view.read (Elt F) ((bW).view.writes (Elt F) fb Lp) y = fold4 A y :=
  View.read_writes_apply_of_pieces (bW).view fb (fold4 A) Lp hG y (hcov y)

variable {sig' : RefSig} {κ' : Kind} {sp' : Space}

/-- A buffer written once, whole, reads the payload. -/
theorem read_whole_piece (v : View sig' κ' sp' S128 .i32) (fo : v.ty.Contents (Elt F))
    (w : (Rect.whole S128).shape.Idx → BitVec 32) (j : S128.Idx) :
    v.read (Elt F) (v.writes (Elt F) fo [⟨Rect.whole S128, w⟩]) j = w j := by
  have h := View.read_writes_cons_emb v fo (Rect.whole S128) w [] j
  rwa [Rect.emb_whole_apply] at h

/-! ## The four rows' minimum is the four-fold minimum of the word array -/

/-- If row `k` of the first scratch holds the task's run `k` of the word array, the four rows' minimum at lane `j` is
    the four-fold minimum of the word array at the task's window `j`. -/
theorem fold4_eq_min4 (wd : IVec S16384 32) (L : grid0.Coords) (A : (aW).view.ty.Contents (Elt F))
    (hrow : ∀ (k : Fin 4) (n : Fin 128), (aW).view.read (Elt F) A (ix2 k n) = wd ((srcRect L k).emb (ix1 n)))
    (j : S128.Idx) : fold4 A j = KV.min4 wd ((dstRect L).emb j) := by
  have hidx : ∀ k : Fin 4, (srcRect L k).emb (ix1 (j 0))
      = ix1 (⟨4096 * k.val + (((dstRect L).emb j) 0).val, by have := k.isLt; have h : (((dstRect L).emb j) 0).val < 4096 := (((dstRect L).emb j) 0).isLt; omega⟩ : Fin 16384) := by
    intro k
    funext a
    obtain rfl : a = 0 := Subsingleton.elim _ _
    refine Fin.ext ?_
    show (k0_off1 L (BitVec.ofNat 32 (4096 * k.val))) 0 + 1 * (j 0).val = 4096 * k.val + ((k0_off7 L) 0 + 1 * (j 0).val)
    rw [k0_off1_eq L k, k0_off7_eq L]
    show 4096 * k.val + 256 * (L 1).val + 128 * (L 0).val + 1 * (j 0).val
      = 4096 * k.val + (256 * (L 1).val + 128 * (L 0).val + 1 * (j 0).val)
    omega
  unfold fold4 KV.min4 KV.wordAt
  refine congrArg₂ IntOp.minsi (congrArg₂ IntOp.minsi (congrArg₂ IntOp.minsi ?_ ?_) ?_) ?_
  · exact (hrow 0 _).trans (congrArg wd (hidx 0))
  · exact (hrow 1 _).trans (congrArg wd (hidx 1))
  · exact (hrow 2 _).trans (congrArg wd (hidx 2))
  · exact (hrow 3 _).trans (congrArg wd (hidx 3))

end Cert.KernelIdeal.TileRows

end
-- ==== Proof.Tile.lean ====
/-
  One vector subcore's task. Subcore `(c, s)` works on the 128 windows from `256 s + 128 c`: it copies, for
  each group position `k < 4`, the 128 words from `4096 k + 256 s + 128 c` of the word array into row `k` of
  its first scratch, folds the four rows with the signed minimum sixteen lanes at a time into its second
  scratch, and copies that scratch to words `256 s + 128 c ..` of the result. Stated with the value: the
  result's slice ends at the four-fold minimum (`KV.min4`) of the word array, read at the slice.
-/
import proofs.«217849_g24850680775158_cont_8to1_1955_33_alg».proof.Proof.Setup
import proofs.«217849_g24850680775158_cont_8to1_1955_33_alg».proof.Proof.Parts
import Idealize.ShloMosaic.Lib.Writes
import proofs.«217849_g24850680775158_cont_8to1_1955_33_alg».proof.Proof.TileRows

noncomputable section

namespace Cert.KernelIdeal.Tile

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

/-! ## The arrays and the scratches as a vector subcore's memrefs address them -/

local notation "wW" => (Memref.whole Cert.KernelIdeal.main_v3_scv : Memref Cert.KernelIdeal.sig Kind.scVector Space.hbm Cert.KernelIdeal.S16384 EltTy.i32)
local notation "oW" => (Memref.whole Cert.KernelIdeal.main_v4_scv : Memref Cert.KernelIdeal.sig Kind.scVector Space.hbm Cert.KernelIdeal.S4096 EltTy.i32)
local notation "aW" => (Memref.whole Cert.KernelIdeal.cc0_scratch0 : Memref Cert.KernelIdeal.sig Kind.scVector Space.vmem Cert.KernelIdeal.S4x128 EltTy.i32)
local notation "bW" => (Memref.whole Cert.KernelIdeal.cc0_scratch1 : Memref Cert.KernelIdeal.sig Kind.scVector Space.vmem Cert.KernelIdeal.S128 EltTy.i32)

/-- The subcore that runs the body at grid coordinates `L`. -/
abbrev cV (L : grid0.Coords) : Fin τ.nSC := (L 0).castLE hcore0
abbrev jV (L : grid0.Coords) : Fin τ.nSub := (L 1).castLE hsub0

open Cert.KernelIdeal.Parts (srcRect dstRect coordsV)

abbrev srcSl (L : grid0.Coords) (k : Fin 4) : Memref sig .scVector .hbm S128 .i32 := (wW).slice (srcRect L k) (fun _ => rfl)
abbrev dstSl (L : grid0.Coords) : Memref sig .scVector .hbm S128 .i32 := (oW).slice (dstRect L) (fun _ => rfl)
/-- The four source slices, spelt as the body spells them (the same memrefs as `srcSl L k`). -/
abbrev srcSl0 (L : grid0.Coords) : Memref sig .scVector .hbm S128 .i32 := (wW).slice (Rect.unit (s := S16384) (k0_off1 L 0#32) S128.size (k0_off1_inb L 0)) (fun _ => rfl)
abbrev srcSl1 (L : grid0.Coords) : Memref sig .scVector .hbm S128 .i32 := (wW).slice (Rect.unit (s := S16384) (k0_off1 L 4096#32) S128.size (k0_off1_inb L 1)) (fun _ => rfl)
abbrev srcSl2 (L : grid0.Coords) : Memref sig .scVector .hbm S128 .i32 := (wW).slice (Rect.unit (s := S16384) (k0_off1 L 8192#32) S128.size (k0_off1_inb L 2)) (fun _ => rfl)
abbrev srcSl3 (L : grid0.Coords) : Memref sig .scVector .hbm S128 .i32 := (wW).slice (Rect.unit (s := S16384) (k0_off1 L 12288#32) S128.size (k0_off1_inb L 3)) (fun _ => rfl)
theorem srcSl_zero (L : grid0.Coords) : srcSl L 0 = srcSl0 L := rfl
theorem srcSl_one (L : grid0.Coords) : srcSl L 1 = srcSl1 L := rfl
theorem srcSl_two (L : grid0.Coords) : srcSl L 2 = srcSl2 L := rfl
theorem srcSl_three (L : grid0.Coords) : srcSl L 3 = srcSl3 L := rfl

/-- The semaphores of the task's five copies, in program order. -/
def semOf : Fin 5 → DmaSem sig
  | 0 => cc0_scoped0.sem | 1 => cc0_scoped1.sem | 2 => cc0_scoped2.sem | 3 => cc0_scoped3.sem | 4 => cc0_scoped4.sem

theorem semOf_scoped : ∀ j : Fin 5, (SemLoc.dma (semOf j) : SemLoc sig).isScoped .scVector = true := by decide
theorem semOf_inj : ∀ j j' : Fin 5, j ≠ j' → semOf j ≠ semOf j' := by decide

variable (m : (ℓ : Loc nD τ sig) → Buf (Elt F) ℓ)

/-- The word array as the host operations before the call leave it, from the launch memory's mask. -/
def words (d : Dev nD) : IVec S16384 32 := KV.maskWords (show IVec S4x4096 1 from m ((SparseCore.T d).loc main_arg1))

variable (d : Dev nD) (L : grid0.Coords)

/-- The five semaphores of the task's copies. -/
abbrev cell (j : Fin 5) : GSem nD τ sig := (V d (cV L) (jV L), .dma (semOf j))

/-- What the task is handed: its four slices of the word array at the launch's words, its slice of the result
    at anything; -/
def srcRes : sProp 𝕄 :=
  iprop(owns (V d (cV L) (jV L)) (srcSl0 L) fullShare (fun j => words m d ((srcRect L 0).emb j))
    ∗ owns (V d (cV L) (jV L)) (srcSl1 L) fullShare (fun j => words m d ((srcRect L 1).emb j))
    ∗ owns (V d (cV L) (jV L)) (srcSl2 L) fullShare (fun j => words m d ((srcRect L 2).emb j))
    ∗ owns (V d (cV L) (jV L)) (srcSl3 L) fullShare (fun j => words m d ((srcRect L 3).emb j)))
def goRes : sProp 𝕄 := iprop(srcRes m d L ∗ ∃ X, owns (V d (cV L) (jV L)) (dstSl L) fullShare X)
/-- and what it hands back: the same slices, the result's at the four-fold minimum. -/
def tdRes : sProp 𝕄 :=
  iprop(srcRes m d L ∗ owns (V d (cV L) (jV L)) (dstSl L) fullShare (fun j => KV.min4 (words m d) ((dstRect L).emb j)))

theorem ownSems0_V :
    (ownSems0 (V d (cV L) (jV L)) : sProp 𝕄)
      = iprop(semVal (cell d L 0) 0 ∗ semVal (cell d L 1) 0 ∗ semVal (cell d L 2) 0 ∗ semVal (cell d L 3) 0 ∗ semVal (cell d L 4) 0
          ∗ bigSep (((((ownCells (V d (cV L) (jV L))).erase (cell d L 0)).erase (cell d L 1)).erase (cell d L 2)).erase (cell d L 3) |>.erase (cell d L 4))
              fun g => semVal g 0) := by
  have hne : ∀ j j' : Fin 5, j ≠ j' → cell d L j ≠ cell d L j' := fun j j' h e =>
    semOf_inj j j' h (SemLoc.dma.inj (Prod.mk.inj e).2)
  have hmem (j : Fin 5) : cell d L j ∈ ownCells (V d (cV L) (jV L)) := (mem_ownCells (g := cell d L j)).mpr ⟨rfl, semOf_scoped j⟩
  unfold SparseCore.Cfg.ownSems0
  rw [SparseCore.bigSep_erase' (hmem 0),
    SparseCore.bigSep_erase' (Finset.mem_erase.mpr ⟨hne 1 0 (by decide), hmem 1⟩),
    SparseCore.bigSep_erase' (Finset.mem_erase.mpr ⟨hne 2 1 (by decide), Finset.mem_erase.mpr ⟨hne 2 0 (by decide), hmem 2⟩⟩),
    SparseCore.bigSep_erase' (Finset.mem_erase.mpr ⟨hne 3 2 (by decide), Finset.mem_erase.mpr ⟨hne 3 1 (by decide), Finset.mem_erase.mpr ⟨hne 3 0 (by decide), hmem 3⟩⟩⟩),
    SparseCore.bigSep_erase' (Finset.mem_erase.mpr ⟨hne 4 3 (by decide), Finset.mem_erase.mpr ⟨hne 4 2 (by decide), Finset.mem_erase.mpr ⟨hne 4 1 (by decide), Finset.mem_erase.mpr ⟨hne 4 0 (by decide), hmem 4⟩⟩⟩⟩)]

/-- The two scratches are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

set_option maxHeartbeats 1600000 in
theorem tile_body (hF : (K (F := F)).Facts) (O : CellTallies nD τ sig (HIx 1)) (W : Waits sig (HIx 1)) (hO : ∀ g, O g none = 0) :
    iprop(levAts (K (F := F)).L (K (F := F)).lev ∗ emp ∗ goRes m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_mask_body L wW (Memref.isWhole_whole _) oW (Memref.isWhole_whole _) aW (Memref.isWhole_whole _) bW (Memref.isWhole_whole _)
            cc0_scoped0 cc0_scoped1 cc0_scoped2 cc0_scoped3 cc0_scoped4)
          fun _ => iprop(tdRes m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_mask_body_eq_skeleton]; unfold cc0__sc_mask_body_skel
  rw [(K (F := F)).scopedBufs_V hF d (cV L) (jV L), SparseCore.Cfg.scopedSems0_V (Val := Elt F) d (cV L) (jV L), ownSems0_V, ownBufs_V]
  unfold goRes tdRes srcRes
  unfold owns
  iintro ⟨#Hlv, -, ⟨⟨⟨%f0, %hf0, H0⟩, ⟨%f1, %hf1, H1⟩, ⟨%f2, %hf2, H2⟩, ⟨%f3, %hf3, H3⟩⟩, ⟨%X, %fo, %hfo, Ho⟩⟩,
    ⟨⟨%fa, Ha⟩, ⟨%fb, Hb⟩, Hbufs⟩, ⟨Hs0, Hs1, Hs2, Hs3, Hs4, Hsems⟩, HO⟩
  ihave Hmw := ((K (F := F)).mayWaits_none (thr := V d (cV L) (jV L)) hO) $$ Hlv
  ihave Ha' := (Entails.of_eq (show ((V d (cV L) (jV L)).loc cc0_scratch0 ↦{fullShare} fa : sProp 𝕄) = ((aW).view.loc (V d (cV L) (jV L)) ↦{fullShare} fa) from rfl)) $$ Ha
  ihave Hb' := (Entails.of_eq (show ((V d (cV L) (jV L)).loc cc0_scratch1 ↦{fullShare} fb : sProp 𝕄) = ((bW).view.loc (V d (cV L) (jV L)) ↦{fullShare} fb) from rfl)) $$ Hb
  sl_exec
  sl_step
  isplitl [H0 H1 H2 H3 Ho]
  · isplitl [H0 H1 H2 H3]
    · isplitl [H0]
      · iexists f0; isplitr; · ipureintro; exact hf0
        iexact H0
      isplitl [H1]
      · iexists f1; isplitr; · ipureintro; exact hf1
        iexact H1
      isplitl [H2]
      · iexists f2; isplitr; · ipureintro; exact hf2
        iexact H2
      · iexists f3; isplitr; · ipureintro; exact hf3
        iexact H3
    · iexists _; isplitr
      swap; · iexact Ho
      ipureintro
      sl_unfold_run_names
      generalize hA : View.write (Elt F) (TileRows.rowV 3 inb_S4x128_S1x128_3_0 squeezes_S1x128_S128) (View.write (Elt F) (TileRows.rowV 2 inb_S4x128_S1x128_2_0 squeezes_S1x128_S128) (View.write (Elt F) (TileRows.rowV 1 inb_S4x128_S1x128_1_0 squeezes_S1x128_S128) (View.write (Elt F) (TileRows.rowV 0 inb_S4x128_S1x128_0_0 squeezes_S1x128_S128) fa _ Finset.univ) _ Finset.univ) _ Finset.univ) _ Finset.univ = A
      have hrow : ∀ (k : Fin 4) (n : Fin 128),
          (aW).view.read (Elt F) A (ValueIdx.ix2 k n) = words m d ((srcRect L k).emb (ValueIdx.ix1 n)) := by
        intro k n
        rw [← hA]
        refine (TileRows.rows_read fa _ _ _ _ _ _ _ _ _ _ _ _ k n).trans ?_
        match k with
        | 0 => exact congrFun hf0 (ValueIdx.ix1 n)
        | 1 => exact congrFun hf1 (ValueIdx.ix1 n)
        | 2 => exact congrFun hf2 (ValueIdx.ix1 n)
        | 3 => exact congrFun hf3 (ValueIdx.ix1 n)
      clear hA
      funext j
      refine (TileRows.read_whole_piece _ fo _ j).trans ?_
      refine (TileRows.read_chunks A fb _ ?hG ?hcov j).trans (TileRows.fold4_eq_min4 (words m d) L A hrow j)
      case hcov => exact View.cover_of_tiled _ S16.size rfl
      case hG =>
        intro p hp
        simp only [List.mem_cons, List.not_mem_nil, or_false] at hp
        rcases hp with rfl | rfl | rfl | rfl | rfl | rfl | rfl | rfl <;>
          exact fun x => TileRows.chunk_val A _ _ _ _ _ _ _ (by decide) x
  isplitl [Ha' Hb' Hbufs]
  · isplitl [Ha']; · iexists _; iexact Ha'
    isplitl [Hb']; · iexists _; iexact Hb'
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap; · iexact HO
  ipureintro
  intro p hp
  simp only [Finset.mem_insert] at hp
  rcases hp with rfl | rfl | rfl | rfl | rfl | hp
  · exact .inr rfl
  · exact .inr rfl
  · exact .inr rfl
  · exact .inr rfl
  · exact .inr rfl
  · exact .inl hp

end Cert.KernelIdeal.Tile

end
-- ==== Proof.Pay.lean ====
/-
  What the one SparseCore call carries. The TensorCore hands each SparseCore of the grid its sixteen subcores'
  shares of the word array and of the result (`Tile.goRes`), each sequencer hands every task its own, and the
  same come back with the result's slices at the four-fold minimum (`Tile.tdRes`). The subcores' copies are
  local and waited for at once: nothing is owed for a protocol of the kernel's own.
-/
import proofs.«217849_g24850680775158_cont_8to1_1955_33_alg».proof.Proof.Tile

noncomputable section

namespace Cert.KernelIdeal.Pay

open Cert.KernelIdeal Cert.KernelIdeal.Gen Cert.KernelIdeal.Setup
open Cert.KernelIdeal.Parts (coordsV)
open Cert.KernelIdeal.Tile (goRes tdRes cV jV)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ)

theorem nCore_eq (q : Fin 1) : (K (F := F)).nCore q = grid0.bound 0 := match q with | 0 => rfl
theorem nSub_eq (q : Fin 1) : (K (F := F)).nSub q = grid0.bound 1 := match q with | 0 => rfl

/-- The grid coordinates of task `i` of SparseCore `c` of the call. -/
def coords (q : Fin 1) (c : Fin ((K (F := F)).nCore q)) (i : Fin ((K (F := F)).nSub q)) : grid0.Coords :=
  coordsV (Fin.cast (nCore_eq q) c) (Fin.cast (nSub_eq q) i)

/-- The call's payloads. -/
def P : (K (F := F)).Pay (nD := nD) (Val := Elt F) (Name := ℕ) (U := UU) where
  st := fun q d c => bigSep Finset.univ fun i : Fin ((K (F := F)).nSub q) => goRes m d (coords q c i)
  dn := fun q d c => bigSep Finset.univ fun i : Fin ((K (F := F)).nSub q) => tdRes m d (coords q c i)
  go := fun q d c i => goRes m d (coords q c i)
  td := fun q d c i => tdRes m d (coords q c i)
  x := fun _ _ => iprop(emp)

theorem P_st (q : Fin 1) (d : Dev nD) (c : Fin ((K (F := F)).nCore q)) :
    (P m).st q d c = bigSep Finset.univ fun i : Fin ((K (F := F)).nSub q) => goRes m d (coords q c i) := rfl
theorem P_dn (q : Fin 1) (d : Dev nD) (c : Fin ((K (F := F)).nCore q)) :
    (P m).dn q d c = bigSep Finset.univ fun i : Fin ((K (F := F)).nSub q) => tdRes m d (coords q c i) := rfl
theorem P_go (q : Fin 1) (d : Dev nD) (c : Fin ((K (F := F)).nCore q)) (i : Fin ((K (F := F)).nSub q)) :
    (P m).go q d c i = goRes m d (coords q c i) := rfl
theorem P_td (q : Fin 1) (d : Dev nD) (c : Fin ((K (F := F)).nCore q)) (i : Fin ((K (F := F)).nSub q)) :
    (P m).td q d c i = tdRes m d (coords q c i) := rfl
theorem P_ox : (P m).ox = fun _ _ => 0 := rfl

instance goRes_storable (d : Dev nD) (L : grid0.Coords) : BI.Storable (upEmb : UEmb _ 𝕄) (goRes m d L) := by
  unfold Tile.goRes Tile.srcRes; infer_instance
instance tdRes_storable (d : Dev nD) (L : grid0.Coords) : BI.Storable (upEmb : UEmb _ 𝕄) (tdRes m d L) := by
  unfold Tile.tdRes Tile.srcRes; infer_instance

instance P_storable : (P (F := F) m).IsStorable where
  st q d c := by rw [P_st]; infer_instance
  dn q d c := by rw [P_dn]; infer_instance
  go q d c i := by rw [P_go]; infer_instance
  td q d c i := by rw [P_td]; infer_instance

variable [FloatOps F]

/-! ## The launch theorem's obligations -/

theorem defs₀_vector (c : Fin τ.nSC) (s : Fin τ.nSub) :
    defs₀ (F := F) (.scVector c s) 0 ()
      = SparseCore.onTile hcore0 hsub0 (fun c s => cc0__sc_mask_body (fun | 0 => c | 1 => s | ⟨_ + 2, h⟩ => absurd h (Nat.not_lt.2 (Nat.le_add_left _ _)))
          (Memref.whole main_v3_scv) (Memref.isWhole_whole _) (Memref.whole main_v4_scv) (Memref.isWhole_whole _)
          (Memref.whole cc0_scratch0) (Memref.isWhole_whole _) (Memref.whole cc0_scratch1) (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  rw [P_ox, P_go, P_td]
  simp only [add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (Tile.tile_body m d (coords 0 c i) hF O W hO).trans (wp_mono frame _ _ fun _ => obl_post)

theorem vecSplit : (K (F := F)).VecSplit' (P m) 0 := by
  intro d c
  rw [P_st, P_dn]
  simp only [P_go, P_td]
  iintro H; imodintro
  isplitl [H]; · iexact H
  iintro H; iexact H

end Cert.KernelIdeal.Pay

end
-- ==== Proof.Launch.lean ====
/-
  The program's run. The launch theorem for SparseCore programs at this program: the one vector-subcore call
  (`Pay.tileObl`, `Pay.vecSplit`), the launch element (the handshakes' rounds, the TensorCore pipeline's
  staging rounds, the copies' counters), @main on the TensorCore (`Main.hmain`), and how the final memory
  reads the claim: both arguments unchanged, the pooled array `KV.pooled` of the first, the pooled mask
  `KV.maskVal` of the second.
-/
import proofs.«217849_g24850680775158_cont_8to1_1955_33_alg».proof.Proof.Pay

noncomputable section

namespace Cert.KernelIdeal.Launch

open Cert.KernelIdeal Cert.KernelIdeal.Gen Cert.KernelIdeal.Setup
open Cert.KernelIdeal.Pay (P)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ) (ρ : Dev nD → PrngReg)

/-! ## The launch element -/

/-- The pipeline's staging rounds on device `d`: what @main's proof enters the pallas_call with. -/
abbrev G (d : Dev nD) : sProp 𝕄 := iprop(Pipeline.cellsGhost cfgs EP 0 d ∗ Pipeline.toksInit cfgs EP 0 d)

/-- The handshakes' rounds at the library's cells, the pipeline's at its staging cells, the counters at one. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  have hfund : (BI.own (((Emb.inl : Emb UP (UP × Counters)).trans embR)
        (initOf (Pipeline.cells (nD := nD) (τ := τ) cfgs cellOf_inj) (Pipeline.launchToks (nD := nD) (τ := τ) cfgs cellOf_inj))) : sProp 𝕄)
      ⊢ iprop(|==> ((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄)))) :=
    Pipeline.fund_ghost cfgs (EP (F := F)) cellOf_inj
  imod hfund $$ HP with ⟨Hg, Ht⟩
  imodintro
  isplitl [HH]; · iexact HH
  isplitl [Hg Ht]
  · rw [bigSep_sep']
    isplitl [Hg]
    · iapply (Entails.of_eq (bigSep_congr (s := (Finset.univ : Finset (Dev nD))) fun d _ =>
        (bigSep_univ_of_subsingleton (Φ := fun p : Fin 1 => Pipeline.cellsGhost cfgs (EP (F := F)) p d) (0 : Fin 1)))); iexact Hg
    · iapply (Entails.of_eq (bigSep_congr (s := (Finset.univ : Finset (Dev nD))) fun d _ =>
        (bigSep_univ_of_subsingleton (Φ := fun p : Fin 1 => (Pipeline.toksInit cfgs (EP (F := F)) p d : sProp 𝕄)) (0 : Fin 1)))); iexact Ht
  have hx : ∀ (q : Fin 1) (thr : Thread nD τ), (P m).x q thr = (iprop(emp) : sProp 𝕄) := fun _ _ => rfl
  rw [show (bigSep Finset.univ fun thr : Thread nD τ => bigSep Finset.univ fun q : Fin 1 => (P m).x q thr) = (iprop(emp) : sProp 𝕄) from by
    simp only [hx]
    rw [bigSep_congr (Ψ := fun _ => (iprop(emp) : sProp 𝕄)) fun thr _ => bigSep_emp' _, bigSep_emp']]
  iempintro

/-! ## What @main leaves the claim, and how the final memory reads it -/

abbrev a0Loc (d : Dev nD) : Loc nD τ sig := (SparseCore.T d).loc main_arg0
abbrev a1Loc (d : Dev nD) : Loc nD τ sig := (SparseCore.T d).loc main_arg1
abbrev v5Loc (d : Dev nD) : Loc nD τ sig := (SparseCore.T d).loc main_v5
abbrev v9Loc (d : Dev nD) : Loc nD τ sig := (SparseCore.T d).loc main_v9

variable [FloatOps F]

/-- The pooled array and the pooled mask of the launch memory's arguments. -/
def pooledOf (d : Dev nD) : Buf (Elt F) (v5Loc d) := KV.pooled (F := F) (show Vec F S4x4096x1024 .f32 from m (a0Loc d))
def maskOf (d : Dev nD) : Buf (Elt F) (v9Loc d) := KV.maskVal (show IVec S4x4096 1 from m (a1Loc d))

/-- What @main leaves: both arguments at their launch contents, the two results at the kernel's functions of them. -/
def FIN (d : Dev nD) : sProp 𝕄 :=
  iprop((a0Loc d ↦{fullShare} m (a0Loc d)) ∗ (a1Loc d ↦{fullShare} m (a1Loc d))
    ∗ (v5Loc d ↦{fullShare} pooledOf m d) ∗ (v9Loc d ↦{fullShare} maskOf m d))

def fq (d : Dev nD) (s' : Phys nD τ sig (Elt F)) : Prop :=
  s'.mem.mem (v5Loc d) = pooledOf m d ∧ s'.mem.mem (v9Loc d) = maskOf m d
    ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  unfold FIN
  iintro ⟨⟨H0, H1, H5, H9⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := v5Loc d) (I := Finset.univ) (q := fullShare) (f := pooledOf m d))) $$ [HSI H5]
  · isplitl [HSI] <;> iassumption
  icases H with ⟨%h5, HSI, -⟩
  ihave H := (SI_pointsTo_agree (st := s') (ℓ := v9Loc d) (I := Finset.univ) (q := fullShare) (f := maskOf m d)) $$ [HSI H9]
  · isplitl [HSI] <;> iassumption
  icases H with %h9
  ipureintro
  exact ⟨funext fun i => h5 i (Finset.mem_univ i), funext fun i => h9 i (Finset.mem_univ i),
    funext fun i => h0 i (Finset.mem_univ i), funext fun i => h1 i (Finset.mem_univ i)⟩

/-- The physical post: on every device the results hold the kernel's functions of the arguments, which are unchanged. -/
def QC : PUnit × MemSt nD τ sig (Elt F) → Prop := fun r => ∀ c : Dev nD,
  r.2.mem (v5Loc c) = pooledOf m c ∧ r.2.mem (v9Loc c) = maskOf m c ∧ r.2.mem (a0Loc c) = m (a0Loc c) ∧ r.2.mem (a1Loc c) = m (a1Loc c)

/-- The run, from @main's proof. -/
theorem run_of [∀ e, Nonempty (Elt F e)]
    (hmain : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => Pay.tileObl m facts)
    (fun q _ => match q with | 0 => SparseCore.Cfg.VecSplit.of_plain (Pay.vecSplit m))
    m ρ main (G (F := F)) (FIN m) (u₀ (F := F)) (sep_elim_left.trans (hu₀ m)) hmain (fq m) (hfin m) (QC m) (fun _ h => h)

end Cert.KernelIdeal.Launch

end
-- ==== Proof.TcBody.lean ====
/-
  The pallas_call's body on the TensorCore, run once on whole staging buffers.

  The body loads its input buffer whole (one batch: 4096 rows of 1024 features), forms the 1024 pooled rows
  `((x[4r] + x[4r+1]) + (x[4r+2] + x[4r+3])) * 0.25` as one pure term of what it loaded (the skeleton's
  payload `k1_pay1`), loads the output buffer (a value it never uses) and stores the pooled rows over the
  whole output buffer. So whatever the output buffer held, after the body it holds the payload of the input
  buffer's contents, and the input buffer is as it was: `bodyOut` names those contents as the canonical
  reading of the body's one covering store, and `sound_kernel` is the body's triple, at any float instance.
-/
import proofs.«217849_g24850680775158_cont_8to1_1955_33_alg».proof.Proof.Setup
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen Cert.KernelIdeal.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The zero offsets of the body's two accesses, as a constant function. -/
theorem hz3 : (![0, 0, 0] : Fin 3 → Nat) = fun _ => 0 := funext fun a => by fin_cases a <;> rfl

/-- The rectangle the body loads its input buffer through: the whole block. -/
abbrev rIn : Rect S1x4096x1024 := Rect.unit (s := S1x4096x1024) ![0, 0, 0] S1x4096x1024.size inb_S1x4096x1024_S1x4096x1024_0_0_0
/-- The rectangle it stores its output buffer through: the whole block. -/
abbrev rOut : Rect S1x1024x1024 := Rect.unit (s := S1x1024x1024) ![0, 0, 0] S1x1024x1024.size inb_S1x1024x1024_S1x1024x1024_0_0_0

/-- What the body leaves in the output buffer, from the input buffer's contents: its one store, as a piece. -/
def bodyOut (x0 : Vec F S1x4096x1024 .f32) : Vec F S1x1024x1024 .f32 :=
  View.canon [⟨rOut, k1_pay1 (View.ld x0 rIn)⟩]

/-- The store covers the buffer: its rectangle is the whole block. -/
theorem bodyOut_cover (p0 : Vec F S1x1024x1024 .f32) (y : S1x1024x1024.Idx) :
    ∃ pc ∈ ([⟨rOut, p0⟩] : List (View.Piece (Elt F) S1x1024x1024 .f32)), y ∈ pc.1.set :=
  ⟨_, List.mem_singleton_self _, View.mem_set_unit_zero hz3 inb_S1x1024x1024_S1x1024x1024_0_0_0 y⟩

/-- So the output buffer ends holding the payload of the input buffer's contents. -/
theorem bodyOut_eq (x0 : Vec F S1x4096x1024 .f32) : bodyOut x0 = k1_pay1 x0 := by
  unfold bodyOut
  rw [View.canon_unit_zero hz3, View.ld_unit_zero (S := S1x4096x1024) hz3]

set_option maxHeartbeats 1000000 in
/-- The body on whole staging memrefs, the input's at read contents `x0` and the output's at anything, runs to
    the continuation holding the input's as it was and the output's at `bodyOut x0`. -/
theorem sound_kernel (c : Dev nD) (E : Set ℕ) (i : grid1.Coords)
    (arg2 : Memref sig .tc .vmem S1x4096x1024 .f32) (harg2 : arg2.IsWhole)
    (arg3 : Memref sig .tc .vmem S1x1024x1024 .f32) (harg3 : arg3.IsWhole)
    (x0 : Vec F S1x4096x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (bodyOut x0)) -∗ K ⟨⟩))
      ⊢ wp frame (wpE (defs₀ (F := F)) Variants.none c none) E (cc1__tc_body i arg2 harg2 arg3 harg3) K := by
  simp only [cc1__tc_body_eq_skeleton]; unfold cc1__tc_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (bodyOut_cover _)

end Cert.KernelIdeal.Tc

end
-- ==== Proof.TcData.lean ====
/-
  The pipeline's proof data on the TensorCore, and the body obligation.

  The pallas_call is a pipeline over a grid of four points, one per batch, with two windows: window 0 stages
  the input array's block at the point (one batch, 4096 rows) and window 1 the result's (one batch, 1024 rows).
  The proof data say, for arrays found at any contents `V` when the region is entered: the input window's
  buffer holds its array's block at the point, fetched there or not, and the body leaves it so; the output
  window's buffer holds, after the body, the body's function `bodyOut` of that block. Between points the body
  keeps nothing: the invariant is the scoped buffers that are no staging buffer (there are none). The core
  owes nothing, and the pairs its waits have recorded stay at or below the level the region was entered under.
-/
import proofs.«217849_g24850680775158_cont_8to1_1955_33_alg».proof.Proof.TcBody

set_option maxRecDepth 16384

noncomputable section

namespace Cert.KernelIdeal.Tc

open Cert.KernelIdeal Cert.KernelIdeal.Gen Cert.KernelIdeal.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : (c : Dev nD) → (b : Ref sig .tc) → Buf (Elt F) ((c.tc : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The proof data -/

/-- The (own cell, index) pairs the core's waits may have recorded when the region is entered, and after it:
    those at or below level 8. -/
def recd (F : FTy → Type) (c : Dev nD) : Set (SemLoc sig × HIx 1) := {p | (K (F := F)).lev ((c.tc : Thread nD τ), p.1) p.2 ≤ 8}

/-- The proof data of the one pipeline on core `c`: the arrays as the region finds them; after the body at point `t`
    the input's buffer at its block and the output's at `bodyOut` of that block; the invariant the scoped buffers
    that are no staging buffer; nothing owed, the recorded pairs at or below level 8; full shares. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => bodyOut (iblk V c 0 t)
  Φ _ := Pipeline.scopedRest (Ix := HIx 1) (Name := ℕ) (U := UU) (Lvl := ℕ) (Val := Elt F) spec1 c
  q _ := fullShare
  owed _ := 0
  recorded _ := recd F c

/-- The proof data's arrays are the region-entry contents. -/
theorem A_eq (c : Dev nD) (w : Fin cfg1.W) : (dats V 0 c).A w = V c (Pipeline.arrRef spec1 w) := by
  dsimp only [dats]

/-- What the body leaves, window by window. -/
theorem after1_0 (c : Dev nD) (t : Fin cfg1.N) : (dats V 0 c).after 0 t = iblk V c 0 t := by dsimp only [dats]
theorem after1_1 (c : Dev nD) (t : Fin cfg1.N) : (dats V 0 c).after 1 t = bodyOut (iblk V c 0 t) := by dsimp only [dats]

/-- The input's current staging buffer holds its block at every point, fetched there or not. -/
theorem before1_0 (c : Dev nD) (t : Fin cfg1.N) (d) : (dats V 0 c).before 0 t d = iblk V c 0 t :=
  ((dats V 0 c).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d)))

/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t))

/-- The body at any point: the input's memref holds its block, so `sound_kernel` applies; the invariant and the
    core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0]
  rw [show (dats V 0 c).Φ t.succ = (dats V 0 c).Φ t.castSucc from rfl,
    show (dats V 0 c).owesAt none t.succ = (dats V 0 c).owesAt none t.castSucc from rfl,
    after1_0, after1_1]
  iintro ⟨HΦ, Ho, ⟨%d0, H0⟩, ⟨%d1, H1⟩⟩
  iapply (sound_kernel c Set.univ _ _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) V 0 c) (defs₀ (F := F)) Variants.none none Set.univ := fun t => by
  rw [bigSep_W1, bigSep_W1]
  exact sound_body V c t

end Cert.KernelIdeal.Tc

end
-- ==== Proof.TcValue.lean ====
/-
  The value of the pallas_call: the result array after the region is the pooled input.

  Grid point `t` is batch `t`: the input window's block there is batch `t` of the input array (all 4096
  rows and 1024 features of it) and the output window's block is batch `t` of the result (all 1024 rows). What
  point `t` writes back is the body's payload of the input block, and `KV.pooled` is, batch by batch, that
  payload of the batch's slab: so what point `t` writes back is block `t` of `KV.pooled` of the input array.
  The four output blocks tile the result array (an index lies in the block of its batch), so after the last
  point the result array is `KV.pooled` of the input array; the input array is never written back.
-/
import proofs.«217849_g24850680775158_cont_8to1_1955_33_alg».proof.Proof.TcData
import proofs.«217849_g24850680775158_cont_8to1_1955_33_alg».proof.Proof.KV
import Idealize.ShloMosaic.Lib.Pipeline.Value

set_option maxRecDepth 16384

noncomputable section

namespace Cert.KernelIdeal.Tc

open Cert.KernelIdeal Cert.KernelIdeal.Gen Cert.KernelIdeal.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

open Idealize.ShloMosaic.ValueIdx

variable (V : (c : Dev nD) → (b : Ref sig .tc) → Buf (Elt F) ((c.tc : Thread nD τ).loc b))

/-- What point `t` writes back to the result array: the body's result, read through the window's block. -/
theorem flushed1 (c : Dev nD) (t : Fin cfg1.N) :
    (dats V 0 c).flushed 1 t = (cfg1.win 1).cut (grid1.coords t) (bodyOut (iblk V c 0 t)) := by
  show (cfg1.win 1).cut (grid1.coords t) ((dats V 0 c).after 1 t) = _
  rw [after1_1]

/-- The printed index maps, decided over the grid: both windows' blocks sit at the same batch, at row block and
    feature block zero, and the batch is one of the four. -/
theorem idx_facts : ∀ t : Fin cfg1.N, win1_0.index t (0 : Fin 3) = win1_1.index t (0 : Fin 3)
    ∧ win1_0.index t (1 : Fin 3) = 0 ∧ win1_0.index t (2 : Fin 3) = 0
    ∧ win1_1.index t (1 : Fin 3) = 0 ∧ win1_1.index t (2 : Fin 3) = 0
    ∧ win1_1.index t (0 : Fin 3) ≤ 3 :=
  (by decide +kernel : ∀ t : Fin grid1.N, _)

/-- Every batch is some point's. -/
theorem idx_onto : ∀ (q : Fin 4), ∃ t : Fin cfg1.N, win1_1.index t = ![q.val, 0, 0] :=
  (by decide +kernel : ∀ (q : Fin 4), ∃ t : Fin grid1.N, win1_1.index t = ![q.val, 0, 0])

/-- WHAT POINT `t` WRITES BACK is block `t` of the pooled input array. -/
theorem flushed_eq (c : Dev nD) (t : Fin cfg1.N) :
    (dats V 0 c).flushed 1 t = ((cfg1.win 1).blk t).view.read (Elt F) (KV.pooled (V c main_arg0)) := by
  rw [flushed1, bodyOut_eq]
  obtain ⟨e0, e1, e2, e3, e4, e5⟩ := idx_facts t
  funext j
  show k1_pay1 (iblk V c 0 t) j = KV.pooled (V c main_arg0) (((cfg1.win 1).blk t).view.emb j)
  unfold KV.pooled
  have hj0 : (j 0).val < 1 := (j 0).isLt
  have hs : (iblk V c 0 t : Vec F S1x4096x1024 .f32) = KV.slab (V c main_arg0) ((((cfg1.win 1).blk t).view.emb j) 0) := by
    funext y
    have hy0 : (y 0).val < 1 := (y 0).isLt
    show V c main_arg0 (((cfg1.win 0).blk t).view.emb y) = V c main_arg0 (ix3 ((((cfg1.win 1).blk t).view.emb j) 0) (y 1) (y 2))
    refine congrArg _ ?_
    funext a; apply Fin.ext
    match a with
    | ⟨0, _⟩ => show win1_0.index t (0 : Fin 3) * 1 + 1 * (y 0).val = win1_1.index t (0 : Fin 3) * 1 + 1 * (j 0).val; omega
    | ⟨1, _⟩ => show win1_0.index t (1 : Fin 3) * 4096 + 1 * (y 1).val = (y 1).val; omega
    | ⟨2, _⟩ => show win1_0.index t (2 : Fin 3) * 1024 + 1 * (y 2).val = (y 2).val; omega
  have hj : j = ix3 (0 : Fin 1) ((((cfg1.win 1).blk t).view.emb j) 1) ((((cfg1.win 1).blk t).view.emb j) 2) := by
    funext a; apply Fin.ext
    match a with
    | ⟨0, _⟩ => show (j 0).val = 0; omega
    | ⟨1, _⟩ => show (j 1).val = win1_1.index t (1 : Fin 3) * 1024 + 1 * (j 1).val; omega
    | ⟨2, _⟩ => show (j 2).val = win1_1.index t (2 : Fin 3) * 1024 + 1 * (j 2).val; omega
  rw [hs]
  exact congrArg _ hj

/-- An index of the result array is in point `t`'s block iff each coordinate is in the block's range on its axis. -/
theorem mem_blk (t : Fin cfg1.N) (i : S4x1024x1024.Idx) :
    i ∈ ((cfg1.win 1).blk t).view.set ↔ ∀ a : Fin 3, win1_1.index t a * S1x1024x1024.size a ≤ (i a).val ∧ (i a).val < win1_1.index t a * S1x1024x1024.size a + S1x1024x1024.size a := by
  show i ∈ ((View.whole main_v5).slice (win1_1.rect t)).set ↔ _
  rw [View.set_slice_whole, Rect.mem_set_unit]
  exact Iff.rfl

/-- The blocks tile the result array: an index lies in the block of the point of its batch. -/
theorem cover (i : S4x1024x1024.Idx) : ∃ t : Fin cfg1.N, (cfg1.win 1).flush t = true ∧ i ∈ ((cfg1.win 1).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩
  have q0 : win1_1.index t (0 : Fin 3) = (i 0).val := congrFun ht 0
  have q1 : win1_1.index t (1 : Fin 3) = 0 := congrFun ht 1
  have q2 : win1_1.index t (2 : Fin 3) = 0 := congrFun ht 2
  refine ⟨t, flush1_1 t, ?_⟩
  rw [mem_blk]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 1024 ≤ (i 1).val ∧ (i 1).val < win1_1.index t (1 : Fin 3) * 1024 + 1024; omega
  | ⟨2, _⟩ => show win1_1.index t (2 : Fin 3) * 1024 ≤ (i 2).val ∧ (i 2).val < win1_1.index t (2 : Fin 3) * 1024 + 1024; omega

/-- THE RESULT ARRAY after the region: the pooled input array. -/
theorem pooled_final (c : Dev nD) : (dats V 0 c).arrAt 1 cfg1.N = KV.pooled (V c main_arg0) :=
  (dats V 0 c).arrAt_eq_of_cover 1 _ (fun t _ => flushed_eq V c t) cover

/-- The input array is only staged, never written back: it is as the region found it, at every point. -/
theorem kept_input (c : Dev nD) (n : Nat) : (dats V 0 c).arrAt 0 n = V c main_arg0 :=
  ((dats V 0 c).arrAt_in 0 rfl n).trans (A_eq V c 0)

end Cert.KernelIdeal.Tc

end
-- ==== Proof.TcRegion.lean ====
/-
  The pallas_call as a region of @main.

  The region is entered holding the TensorCore's unscoped arrays at some contents `V`, the core owing nothing
  with its recorded waits at or below level 8, and the generator register; it is left holding the arrays at the
  same contents except the result array, which holds the pooled input, the core again owing nothing under the
  same bound, and the register untouched. Inside: the two windows' arrays (input and result) go to the pipeline,
  every other array and the register bypass it; the pipeline's own waits are recorded at the index of a
  kernel's own waits, whose level is zero, so the bound on the recorded waits is kept. The theorem
  `tc_region` states this for the program point `customCall (entry 0)` under any continuation.
-/
import proofs.«217849_g24850680775158_cont_8to1_1955_33_alg».proof.Proof.TcValue

set_option maxRecDepth 16384

noncomputable section

namespace Cert.KernelIdeal.Tc

open Cert.KernelIdeal Cert.KernelIdeal.Gen Cert.KernelIdeal.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The prefetched tables' admissible contents: the pipeline has no table. -/
abbrev adm : (p : Fin 1) → (pcfgs (F := F) p).Adm := fun p => (cfgs p).toPCfg_adm

/-- The levels the launch assigns: every index of every cell, at the handshakes' levels. -/
abbrev LL : GSem nD τ sig → Finset (HIx 1) := (K (F := F)).L
abbrev lv : GSem nD τ sig → HIx 1 → ℕ := (K (F := F)).lev

variable (V : (c : Dev nD) → (b : Ref sig .tc) → Buf (Elt F) ((c.tc : Thread nD τ).loc b)) (G : Dev nD → PrngReg)

/-! ## The core's `owes` at the region's ends -/

/-- Entering: the core owes nothing and its recorded pairs are at or below level 8, which is the proof data's bound. -/
theorem owesAt_intro (c : Dev nD) (t : Fin (cfg1.N + 1)) : (tcOwes c : sProp 𝕄) ⊢ (dats V 0 c).owesAt none t := by
  unfold tcOwes Pipeline.Dat.owesAt Pipeline.owesWithin Pipeline.Dat.bound
  rw [show (dats V 0 c).owed t = 0 from rfl, show (dats V 0 c).recorded t = recd F c from rfl]
  iintro ⟨%W, %hW, HO⟩
  iexists W
  isplitr
  · ipureintro; exact fun p hp => Or.inl (hW p (Finset.mem_coe.mp hp))
  iexact HO

/-- Leaving: a recorded pair is one recorded before, or one of the pipeline's own waits, at the index of a kernel's own
    waits, whose level is zero. -/
theorem owesAt_elim (c : Dev nD) (t : Fin (cfg1.N + 1)) : ((dats V 0 c).owesAt none t : sProp 𝕄) ⊢ tcOwes c := by
  unfold tcOwes Pipeline.Dat.owesAt Pipeline.owesWithin Pipeline.Dat.bound
  rw [show (dats V 0 c).owed t = 0 from rfl, show (dats V 0 c).recorded t = recd F c from rfl]
  iintro ⟨%W, %hW, HO⟩
  iexists W
  isplitr
  · ipureintro
    intro p hp
    rcases hW (Finset.mem_coe.mpr hp) with h | ⟨w, s, rfl⟩
    · exact h
    · exact Nat.zero_le _
  iexact HO

/-! ## The arrays at the region's exit -/

/-- The windows' arrays at their final contents and the other arrays as found are the unscoped arrays at the
    contents found with the result array at the pooled input. -/
theorem rebuild (c : Dev nD) :
    iprop((dats V 0 c).arrays ((dats V 0 c).arrAt · cfg1.N) ∗ Pipeline.unscopedRest (Ix := HIx 1) (Name := ℕ) (U := UU) (Lvl := ℕ) spec1 c (V c))
      ⊢ (unscopedBufs c (afterPool c (V c)) : sProp 𝕄) := by
  rw [Pipeline.unscopedBufs_split (Pipeline.pin (pcfgs (F := F)) adm) 0 launch1.win.arr_unscoped launch1.win.arr_inj c (afterPool c (V c)),
    Pipeline.arrays_eq (Pipeline.pin (pcfgs (F := F)) adm) (dats V) 0 c launch1.arr_whole ((dats V 0 c).share_full fun _ => rfl)]
  refine sep_mono (Entails.of_eq (bigSep_congr fun w _ => ?_)) (Entails.of_eq ?_)
  · match w with
    | ⟨0, _⟩ =>
      show ((((c.tc : Thread nD τ).loc main_arg0) ↦{fullShare} (dats V 0 c).arrAt 0 cfg1.N : sProp 𝕄)) = (((c.tc : Thread nD τ).loc main_arg0) ↦{fullShare} afterPool c (V c) main_arg0)
      rw [kept_input V c, show afterPool c (V c) main_arg0 = V c main_arg0 from Function.update_of_ne (by decide) _ _]
    | ⟨1, _⟩ =>
      show ((((c.tc : Thread nD τ).loc main_v5) ↦{fullShare} (dats V 0 c).arrAt 1 cfg1.N : sProp 𝕄)) = (((c.tc : Thread nD τ).loc main_v5) ↦{fullShare} afterPool c (V c) main_v5)
      rw [pooled_final V c, show afterPool c (V c) main_v5 = KV.pooled (V c main_arg0) from Function.update_self _ _ _]
  · unfold Pipeline.unscopedRest
    exact bigSep_congr fun b hb => by
      rw [show afterPool c (V c) b = V c b from Function.update_of_ne
        (fun h => (Finset.mem_sdiff.mp hb).2 (Finset.mem_image.mpr ⟨1, Finset.mem_univ _, h.symm⟩)) _ _]

/-! ## The region -/

set_option backward.isDefEq.respectTransparency.types false in
/-- THE REGION: the launch's layout, no semaphore of the kernel's own, the body obligation; entered from the
    unscoped arrays at `V` — the input and result arrays into the pipeline, everything else bypassing —, left with
    the result array at the pooled input. -/
def reg : Pipeline.RegionSeg (pcfgs (F := F)) adm (dats V) none defs₀ 𝒱₀ (LL (F := F)) (lv (F := F)) 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (LL (F := F)) (lv (F := F)) 0 fun _ _ => rfl
  pre c := iprop(unscopedBufs c (V c) ∗ tcOwes c ∗ prngReg c (G c))
  post c := iprop(unscopedBufs c (afterPool c (V c)) ∗ tcOwes c ∗ prngReg c (G c))
  X _ := iprop(emp)
  Y _ := iprop(emp)
  Z c := iprop(Pipeline.unscopedRest (Ix := HIx 1) (Name := ℕ) (U := UU) (Lvl := ℕ) spec1 c (V c) ∗ prngReg c (G c))
  hentry c := by
    rw [Pipeline.ownSems0_none]
    have hsplit := Pipeline.arrays_of_unscopedBufs (pcfgs (F := F)) adm (dats V) launch1.win launch1.arr_whole c
      ((dats V 0 c).share_full fun _ => rfl) (V c) fun _ => rfl
    iintro ⟨⟨Hub, HO, Hg⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iapply (owesAt_intro V c 0); iexact HO
    isplitr; · iempintro
    isplitl [Hr]; · iexact Hr
    iexact Hg
  hin c := by
    rw [show (dats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (dats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, Hr, Hg⟩
    imodintro
    isplitl [Ha Hr]
    · iapply (rebuild V c); isplitl [Ha] <;> iassumption
    isplitl [HO]; · iapply (owesAt_elim V c _); iexact HO
    iexact Hg

/-! ## The region under any continuation -/

/-- The valuations of every core that are `Vm` on core `c` (the mesh has one device). -/
def famV (c : Dev nD) (Vm : (b : Ref sig .tc) → Buf (Elt F) ((c.tc : Thread nD τ).loc b)) :
    (c' : Dev nD) → (b : Ref sig .tc) → Buf (Elt F) ((c'.tc : Thread nD τ).loc b) :=
  fun c' => (Subsingleton.elim c c' : c = c') ▸ Vm

theorem famV_self (c : Dev nD) (Vm : (b : Ref sig .tc) → Buf (Elt F) ((c.tc : Thread nD τ).loc b)) : famV c Vm c = Vm := rfl

set_option backward.isDefEq.respectTransparency.types false in
/-- THE REGION under any continuation: from the region boundary, the unscoped arrays at `Vm`, the core owing nothing under
    the bound, the generator register, the level facts and the pipeline's ghost state, `customCall (entry 0)` runs to the
    continuation, which is handed the boundary, the arrays at `Vm` with the result array at the pooled input, the core
    owing nothing under the same bound and the register. -/
theorem tc_region (c : Dev nD)
    (Vm : (b : Ref sig .tc) → Buf (Elt F) ((c.tc : Thread nD τ).loc b)) (g : PrngReg)
    {α : Type} (k : PUnit → Prog (TpuEff nD τ sig (Elt F) (ΛP (F := F)) .tc) α) (Q : α → sProp (MM F)) :
    iprop((iprop(boundary (c.tc : Thread nD τ) ∗ unscopedBufs c (afterPool c Vm) ∗ tcOwes c ∗ prngReg c g)
            -∗ wp frame (wpE (D (F := F)) 𝒱 (c.tc : Thread nD τ) none) Set.univ (k ⟨⟩) Q)
        ∗ boundary (c.tc : Thread nD τ) ∗ unscopedBufs c Vm ∗ tcOwes c ∗ prngReg c g
        ∗ levAts (K (F := F)).L (K (F := F)).lev
        ∗ Pipeline.cellsGhost cfgs EP 0 c ∗ Pipeline.toksInit cfgs EP 0 c)
      ⊢ wp frame (wpE (D (F := F)) 𝒱 (c.tc : Thread nD τ) none) Set.univ (.op (.customCall (Pipeline.entry 0) ()) k) Q := by
  have h := Pipeline.RegionSeg.wp (pcfgs (F := F)) adm (dats (famV c Vm)) none cellOf_inj EP defs₀ 𝒱₀ (LL (F := F)) (lv (F := F))
    (reg (famV c Vm) (fun _ => g)) c none (fun _ h => nomatch h) k Q
  rw [show (reg (famV c Vm) (fun _ => g)).pre c = iprop(unscopedBufs c Vm ∗ tcOwes c ∗ prngReg c g) from rfl,
    show (reg (famV c Vm) (fun _ => g)).post c = iprop(unscopedBufs c (afterPool c Vm) ∗ tcOwes c ∗ prngReg c g) from rfl] at h
  iintro ⟨Hk, Hb, Hub, HO, Hg, Hl, Hc, Ht⟩
  iapply h
  isplitl [Hk]
  · iintro ⟨Hb, Hub, HO, Hg⟩
    iapply Hk
    isplitl [Hb]; · iexact Hb
    isplitl [Hub]; · iexact Hub
    isplitl [HO] <;> iassumption
  isplitl [Hb]; · iexact Hb
  isplitl [Hub HO Hg]
  · isplitl [Hub]; · iexact Hub
    isplitl [HO] <;> iassumption
  isplitl [Hl]; · iexact Hl
  isplitl [Hc] <;> iassumption

/-- info: 'Cert.KernelIdeal.Tc.tc_region' depends on axioms: [propext, Classical.choice, Quot.sound] -/
#guard_msgs in #print axioms tc_region

end Cert.KernelIdeal.Tc

end
-- ==== Proof.Host.lean ====
/-
  @main's host operations, as two lists, and what they compute.

  Before the SparseCore call the host lays the mask out as words: the mask's bits regrouped as 4096 windows of
  four, widened to 32-bit words, transposed to group position major and flattened — `KV.maskWords` of the
  mask. After the pallas_call it reshapes the 4096 minima to batch by window, compares them with zero and
  converts — `KV.maskOut` of the minima. Neither stretch writes an argument array, the minima or the pooled
  array before its own part.
-/
import proofs.«217849_g24850680775158_cont_8to1_1955_33_alg».proof.Proof.Setup
import proofs.«217849_g24850680775158_cont_8to1_1955_33_alg».proof.Proof.KV
import Idealize.ShloMosaic.Lib.Pipeline.Frame

noncomputable section

namespace Cert.KernelIdeal.Host

open Cert.KernelIdeal Cert.KernelIdeal.Gen Cert.KernelIdeal.Setup
open Idealize.ShloMosaic Idealize.ShloMosaic.TcCoe Idealize.SL.Sem Idealize.ShloMosaic.StableHlo

variable {F : FTy → Type} [FloatOps F]

/-- The four operations before the SparseCore call, in order. -/
abbrev preOps : List (HloOp τ sig (Elt F)) :=
  [ reshape main_arg1 main_v0 rfl shapeCasts_S4x4096_S4096x4,
    unary main_v0 main_v1 ((extui 32 · natLt_1_32) : (⟨S4096x4, .i1⟩ : BufTy).Contents (Elt F) → (⟨S4096x4, .i32⟩ : BufTy).Contents (Elt F)),
    unary main_v1 main_v2 ((transpose S4x4096 [1, 0] · transposes_S4096x4_S4x4096_1_0) : (⟨S4096x4, .i32⟩ : BufTy).Contents (Elt F) → (⟨S4x4096, .i32⟩ : BufTy).Contents (Elt F)),
    reshape main_v2 main_v3 rfl shapeCasts_S4x4096_S16384 ]

/-- The five operations after the pallas_call, in order. -/
abbrev postOps : List (HloOp τ sig (Elt F)) :=
  [ reshape main_v4 main_v6 rfl shapeCasts_S4096_S4x1024,
    nullary main_c (constantI S_ 32 0#32),
    unary main_c main_v7 (broadcastInDim S4x1024 ![] bcast_S_S4x1024 : (⟨S_, .i32⟩ : BufTy).Contents (Elt F) → (⟨S4x1024, .i32⟩ : BufTy).Contents (Elt F)),
    binary main_v6 main_v7 main_v8 (cmpi .ne : (⟨S4x1024, .i32⟩ : BufTy).Contents (Elt F) → (⟨S4x1024, .i32⟩ : BufTy).Contents (Elt F) → (⟨S4x1024, .i1⟩ : BufTy).Contents (Elt F)),
    unary main_v8 main_v9 (id : (⟨S4x1024, .i1⟩ : BufTy).Contents (Elt F) → (⟨S4x1024, .i1⟩ : BufTy).Contents (Elt F)) ]

/-- @main is the first stretch, the SparseCore call, the pallas_call, the second stretch. -/
theorem main_eq (d : Dev nD) : main (F := F) d
    = (seq preOps >>= fun _ => (sc (F := F)).run d 0 >>= fun _ =>
        Prog.lift (.customCall (SparseCore.inner (Pipeline.entry 0)) ()) >>= fun _ => seq postOps) := rfl

/-! ## The stretches touch unscoped TensorCore arrays only, and write nothing at contents of the machine's choosing -/

theorem pre_tc : (preOps : List (HloOp τ sig (Elt F))).Forall fun op => op.bufs ⊆ tcRefs τ sig :=
  ⟨reshape_bufs_sub .., unary_bufs_sub .., unary_bufs_sub .., reshape_bufs_sub ..⟩
theorem post_tc : (postOps : List (HloOp τ sig (Elt F))).Forall fun op => op.bufs ⊆ tcRefs τ sig :=
  ⟨reshape_bufs_sub .., nullary_bufs_sub .., unary_bufs_sub .., binary_bufs_sub .., unary_bufs_sub ..⟩

theorem pre_sub : ∀ op ∈ (preOps : List (HloOp τ sig (Elt F))), op.bufs ⊆ Pipeline.ucRefs τ sig :=
  fun op h => Pipeline.sub_ucRefs op ((List.forall_iff_forall_mem.mp pre_tc) op h)
theorem post_sub : ∀ op ∈ (postOps : List (HloOp τ sig (Elt F))), op.bufs ⊆ Pipeline.ucRefs τ sig :=
  fun op h => Pipeline.sub_ucRefs op ((List.forall_iff_forall_mem.mp post_tc) op h)

theorem pre_fresh : ∀ op ∈ (preOps : List (HloOp τ sig (Elt F))), op.fresh = ∅ := by
  intro _ h; (repeat (cases h with | head => rfl | tail _ h => ?_)); exact nomatch h
theorem post_fresh : ∀ op ∈ (postOps : List (HloOp τ sig (Elt F))), op.fresh = ∅ := by
  intro _ h; (repeat (cases h with | head => rfl | tail _ h => ?_)); exact nomatch h

/-! ## What the stretches compute -/

/-- The arrays the claim and the two kernels speak of, as device buffers. -/
abbrev a0' : DevRef τ sig := Proc.devRef .tc main_arg0
abbrev a1' : DevRef τ sig := Proc.devRef .tc main_arg1
abbrev v3' : DevRef τ sig := Proc.devRef .tc main_v3
abbrev v4' : DevRef τ sig := Proc.devRef .tc main_v4
abbrev v5' : DevRef τ sig := Proc.devRef .tc main_v5
abbrev v9' : DevRef τ sig := Proc.devRef .tc main_v9

/-- The first stretch writes `main_v0` … `main_v3` and nothing else. -/
theorem pre_not_written (b : Ref sig .tc) (hb : b ≠ main_v0 ∧ b ≠ main_v1 ∧ b ≠ main_v2 ∧ b ≠ main_v3) :
    ∀ op ∈ (preOps (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [unary_writes, reshape_writes, Finset.mem_singleton] <;>
    exact devRef_ne_of_ne ‹_›

/-- The second stretch writes `main_v6`, `main_c`, `main_v7`, `main_v8`, `main_v9` and nothing else. -/
theorem post_not_written (b : Ref sig .tc) (hb : b ≠ main_v6 ∧ b ≠ main_c ∧ b ≠ main_v7 ∧ b ≠ main_v8 ∧ b ≠ main_v9) :
    ∀ op ∈ (postOps (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [unary_writes, binary_writes, nullary_writes, reshape_writes, Finset.mem_singleton] <;>
    exact devRef_ne_of_ne ‹_›

/-- After the first stretch the word array holds the mask's words, group position major. -/
theorem pre_v3 (W : Valuation τ sig (Elt F)) :
    after preOps W v3' = KV.maskWords (show IVec S4x4096 1 from W a1') := by
  after_results <;> rfl

/-- The first stretch leaves the arguments, the minima and the pooled array as they were. -/
theorem pre_a0 (W : Valuation τ sig (Elt F)) : after preOps W a0' = W a0' :=
  after_of_forall_not_mem _ _ (pre_not_written main_arg0 (by decide))
theorem pre_a1 (W : Valuation τ sig (Elt F)) : after preOps W a1' = W a1' :=
  after_of_forall_not_mem _ _ (pre_not_written main_arg1 (by decide))
theorem pre_v4 (W : Valuation τ sig (Elt F)) : after preOps W v4' = W v4' :=
  after_of_forall_not_mem _ _ (pre_not_written main_v4 (by decide))
theorem pre_v5 (W : Valuation τ sig (Elt F)) : after preOps W v5' = W v5' :=
  after_of_forall_not_mem _ _ (pre_not_written main_v5 (by decide))

theorem pre_keep (W : Valuation τ sig (Elt F)) {b : DevRef τ sig} (hb : b ∈ ({a0', a1', v4', v5'} : Finset (DevRef τ sig))) :
    after preOps W b = W b := by
  simp only [Finset.mem_insert, Finset.mem_singleton] at hb
  rcases hb with rfl | rfl | rfl | rfl
  · exact pre_a0 W
  · exact pre_a1 W
  · exact pre_v4 W
  · exact pre_v5 W

/-- After the second stretch the result mask is the minima compared with zero, batch by window. -/
theorem post_v9 (W : Valuation τ sig (Elt F)) :
    after postOps W v9' = KV.maskOut (show IVec S4096 32 from W v4') := by
  after_results <;> rfl

/-- The second stretch leaves the arguments and the pooled array as they were. -/
theorem post_a0 (W : Valuation τ sig (Elt F)) : after postOps W a0' = W a0' :=
  after_of_forall_not_mem _ _ (post_not_written main_arg0 (by decide))
theorem post_a1 (W : Valuation τ sig (Elt F)) : after postOps W a1' = W a1' :=
  after_of_forall_not_mem _ _ (post_not_written main_arg1 (by decide))
theorem post_v5 (W : Valuation τ sig (Elt F)) : after postOps W v5' = W v5' :=
  after_of_forall_not_mem _ _ (post_not_written main_v5 (by decide))

theorem post_keep (W : Valuation τ sig (Elt F)) {b : DevRef τ sig} (hb : b ∈ ({a0', a1', v5'} : Finset (DevRef τ sig))) :
    after postOps W b = W b := by
  simp only [Finset.mem_insert, Finset.mem_singleton] at hb
  rcases hb with rfl | rfl | rfl
  · exact post_a0 W
  · exact post_a1 W
  · exact post_v5 W

end Cert.KernelIdeal.Host

end
-- ==== Proof.Split.lean ====
/-
  The word array and the result, dealt to the 2 × 16 tasks of the SparseCore call and gathered back.

  Task `(c, s)` reads, for each group position `k < 4`, the 128 words from `4096 k + 256 s + 128 c` of the word
  array and writes the 128 words from `256 s + 128 c` of the result. The 128 source rectangles are pairwise
  disjoint and cover the 16384 words, the 32 target rectangles the 4096: so the whole word array, held at the
  words, is the tasks' source slices held at their parts of the words, and the whole result is the tasks' target
  slices. An array in HBM is the same location for every thread of the device, so one cut of the whole array
  yields every task's pieces. Going out, a task's target slice is held at any contents; coming back, each is held at
  its part of the four-fold minimum of the words, and together they are the whole result at that minimum.
-/
import proofs.«217849_g24850680775158_cont_8to1_1955_33_alg».proof.Proof.Pay
import proofs.«217849_g24850680775158_cont_8to1_1955_33_alg».proof.Proof.Parts
import Idealize.ShloMosaic.Lib.Memref

noncomputable section

namespace Cert.KernelIdeal.Split

open Cert.KernelIdeal Cert.KernelIdeal.Gen Cert.KernelIdeal.Setup
open Cert.KernelIdeal.Parts (coordsV srcRect dstRect r3 r4 T3 T4 r3_disjoint r3_cover r4_disjoint r4_cover)
open Cert.KernelIdeal.Tile (words srcSl dstSl cV jV srcRes goRes tdRes)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

local notation "wW" => (Memref.whole Cert.KernelIdeal.main_v3_scv : Memref Cert.KernelIdeal.sig Kind.scVector Space.hbm Cert.KernelIdeal.S16384 EltTy.i32)
local notation "oW" => (Memref.whole Cert.KernelIdeal.main_v4_scv : Memref Cert.KernelIdeal.sig Kind.scVector Space.hbm Cert.KernelIdeal.S4096 EltTy.i32)

variable (m : (ℓ : Loc nD τ sig) → Buf (Elt F) ℓ) (d : Dev nD)

/-- One vector subcore of the device, through whose memrefs the whole arrays are cut. -/
abbrev thr0 : Thread nD τ := V d ⟨0, by decide⟩ ⟨0, by decide⟩

/-- A conjunction over four indices, written out. -/
theorem bigSep_four {M : Type} [URA M] (Ψ : Fin 4 → sProp M) : bigSep Finset.univ Ψ = iprop(Ψ 0 ∗ Ψ 1 ∗ Ψ 2 ∗ Ψ 3) := by
  rw [show (Finset.univ : Finset (Fin 4)) = {0, 1, 2, 3} from by decide, bigSep_insert (by decide), bigSep_insert (by decide),
    bigSep_insert (by decide), bigSep_singleton]
  rfl

/-! ## The word array -/

/-- Task `(t.1, t.2.1)`'s source slice at group position `t.2.2`, held at its part of `X`. -/
abbrev srcPiece (X : S16384.Idx → Elt F .i32) (t : T3) : sProp 𝕄 :=
  owns (V d (cV (coordsV t.1 t.2.1)) (jV (coordsV t.1 t.2.1))) (srcSl (coordsV t.1 t.2.1) t.2.2) fullShare (fun j => X ((r3 t).emb j))

/-- The source slices grouped by task are each task's four. -/
theorem src_group : (bigSep Finset.univ fun t : T3 => srcPiece d (words m d) t)
    = bigSep Finset.univ fun c : Fin (grid0.bound 0) => bigSep Finset.univ fun s : Fin (grid0.bound 1) => srcRes m d (coordsV c s) := by
  rw [bigSep_univ_prod]
  refine bigSep_congr fun c _ => ?_
  rw [bigSep_univ_prod]
  refine bigSep_congr fun s _ => ?_
  rw [bigSep_four]
  rfl

/-- The whole word array at the words is every task's source slices at their parts of the words, -/
theorem src_split : (((T d : Thread nD τ).loc main_v3 ↦{fullShare} (words m d : Buf (Elt F) _)) : sProp 𝕄)
    ⊢ bigSep Finset.univ fun c : Fin (grid0.bound 0) => bigSep Finset.univ fun s : Fin (grid0.bound 1) => srcRes m d (coordsV c s) := by
  have h1 : (((T d : Thread nD τ).loc main_v3 ↦{fullShare} (words m d : Buf (Elt F) _)) : sProp 𝕄) ⊢ owns (Val := Elt F) (thr0 d) wW fullShare (words m d) :=
    Entails.of_eq (owns_whole (Val := Elt F) (thr0 d) main_v3_scv fullShare (words m d)).symm
  have h2 : (owns (Val := Elt F) (thr0 d) wW fullShare (words m d) : sProp 𝕄) ⊢ bigSep Finset.univ fun t : T3 => srcPiece d (words m d) t :=
    owns_rects (Val := Elt F) (thr0 d) wW fullShare r3 (fun _ _ => rfl) r3_disjoint r3_cover (words m d)
  exact h1.trans (h2.trans (Entails.of_eq (src_group m d)))

/-- and back. -/
theorem src_join [∀ e, Nonempty (Elt F e)] :
    (bigSep Finset.univ fun c : Fin (grid0.bound 0) => bigSep Finset.univ fun s : Fin (grid0.bound 1) => srcRes m d (coordsV c s))
      ⊢ (((T d : Thread nD τ).loc main_v3 ↦{fullShare} (words m d : Buf (Elt F) _)) : sProp 𝕄) := by
  have h1 : (owns (Val := Elt F) (thr0 d) wW fullShare (words m d) : sProp 𝕄) ⊢ ((T d : Thread nD τ).loc main_v3 ↦{fullShare} (words m d : Buf (Elt F) _)) :=
    Entails.of_eq (owns_whole (Val := Elt F) (thr0 d) main_v3_scv fullShare (words m d))
  have h2 : (bigSep Finset.univ fun t : T3 => srcPiece d (words m d) t) ⊢ (owns (Val := Elt F) (thr0 d) wW fullShare (words m d) : sProp 𝕄) :=
    owns_of_rects (Val := Elt F) (thr0 d) wW fullShare r3 (fun _ _ => rfl) r3_disjoint r3_cover (words m d)
  exact (Entails.of_eq (src_group m d).symm).trans (h2.trans h1)

/-! ## The result -/

/-- Task `t`'s target slice, held at its part of `X`. -/
abbrev dstPiece (X : S4096.Idx → Elt F .i32) (t : T4) : sProp 𝕄 :=
  owns (V d (cV (coordsV t.1 t.2)) (jV (coordsV t.1 t.2))) (dstSl (coordsV t.1 t.2)) fullShare (fun j => X ((r4 t).emb j))

/-- The whole result at `X` is every task's target slice at its part of `X`, -/
theorem dst_split (X : Buf (Elt F) ((T d : Thread nD τ).loc main_v4)) :
    (((T d : Thread nD τ).loc main_v4 ↦{fullShare} X) : sProp 𝕄)
      ⊢ bigSep Finset.univ fun c : Fin (grid0.bound 0) => bigSep Finset.univ fun s : Fin (grid0.bound 1) => dstPiece d X (c, s) := by
  have h1 : (((T d : Thread nD τ).loc main_v4 ↦{fullShare} X) : sProp 𝕄) ⊢ owns (Val := Elt F) (thr0 d) oW fullShare X :=
    Entails.of_eq (owns_whole (Val := Elt F) (thr0 d) main_v4_scv fullShare X).symm
  have h2 : (owns (Val := Elt F) (thr0 d) oW fullShare X : sProp 𝕄) ⊢ bigSep Finset.univ fun t : T4 => dstPiece d X t :=
    owns_rects (Val := Elt F) (thr0 d) oW fullShare r4 (fun _ _ => rfl) r4_disjoint r4_cover X
  exact h1.trans (h2.trans (Entails.of_eq (bigSep_univ_prod (fun t : T4 => dstPiece d X t))))

/-- and back. -/
theorem dst_join [∀ e, Nonempty (Elt F e)] (X : Buf (Elt F) ((T d : Thread nD τ).loc main_v4)) :
    (bigSep Finset.univ fun c : Fin (grid0.bound 0) => bigSep Finset.univ fun s : Fin (grid0.bound 1) => dstPiece d X (c, s))
      ⊢ (((T d : Thread nD τ).loc main_v4 ↦{fullShare} X) : sProp 𝕄) := by
  have h1 : (owns (Val := Elt F) (thr0 d) oW fullShare X : sProp 𝕄) ⊢ ((T d : Thread nD τ).loc main_v4 ↦{fullShare} X) :=
    Entails.of_eq (owns_whole (Val := Elt F) (thr0 d) main_v4_scv fullShare X)
  have h2 : (bigSep Finset.univ fun t : T4 => dstPiece d X t) ⊢ (owns (Val := Elt F) (thr0 d) oW fullShare X : sProp 𝕄) :=
    owns_of_rects (Val := Elt F) (thr0 d) oW fullShare r4 (fun _ _ => rfl) r4_disjoint r4_cover X
  exact (Entails.of_eq (bigSep_univ_prod (fun t : T4 => dstPiece d X t)).symm).trans (h2.trans h1)

/-- A target slice held at its part of some contents is held at some contents. -/
theorem dst_any (c : Fin (grid0.bound 0)) (s : Fin (grid0.bound 1)) (X : S4096.Idx → Elt F .i32) :
    (dstPiece d X (c, s) : sProp 𝕄) ⊢ iprop(∃ X', owns (V d (cV (coordsV c s)) (jV (coordsV c s))) (dstSl (coordsV c s)) fullShare X') := by
  iintro H; iexists _; iexact H

/-! ## Both arrays, task by task over the grid -/

theorem split_grid (f4 : Buf (Elt F) ((T d : Thread nD τ).loc main_v4)) :
    iprop(((T d : Thread nD τ).loc main_v3 ↦{fullShare} (words m d : Buf (Elt F) _)) ∗ ((T d : Thread nD τ).loc main_v4 ↦{fullShare} f4))
      ⊢ (bigSep Finset.univ fun c : Fin (grid0.bound 0) => bigSep Finset.univ fun s : Fin (grid0.bound 1) => goRes m d (coordsV c s) : sProp 𝕄) := by
  refine (BIClass.sep_mono (src_split m d) (dst_split d f4)).trans ?_
  rw [← bigSep_sep']
  refine bigSep_mono fun c _ => ?_
  rw [← bigSep_sep']
  refine bigSep_mono fun s _ => ?_
  unfold Tile.goRes
  exact BI.sep_mono (BI.Entails.refl _) (dst_any d c s f4)

theorem join_grid [∀ e, Nonempty (Elt F e)] :
    (bigSep Finset.univ fun c : Fin (grid0.bound 0) => bigSep Finset.univ fun s : Fin (grid0.bound 1) => tdRes m d (coordsV c s) : sProp 𝕄)
      ⊢ iprop(((T d : Thread nD τ).loc main_v3 ↦{fullShare} (words m d : Buf (Elt F) _))
          ∗ ((T d : Thread nD τ).loc main_v4 ↦{fullShare} (KV.min4 (words m d) : Buf (Elt F) _))) := by
  have h : iprop((bigSep Finset.univ fun c : Fin (grid0.bound 0) => bigSep Finset.univ fun s : Fin (grid0.bound 1) => srcRes m d (coordsV c s))
        ∗ (bigSep Finset.univ fun c : Fin (grid0.bound 0) => bigSep Finset.univ fun s : Fin (grid0.bound 1) =>
            dstPiece d (KV.min4 (words m d) : Buf (Elt F) ((T d : Thread nD τ).loc main_v4)) (c, s)))
      ⊢ iprop(((T d : Thread nD τ).loc main_v3 ↦{fullShare} (words m d : Buf (Elt F) _))
          ∗ ((T d : Thread nD τ).loc main_v4 ↦{fullShare} (KV.min4 (words m d) : Buf (Elt F) _)) : sProp 𝕄) :=
    BIClass.sep_mono (src_join m d) (dst_join d _)
  refine BI.Entails.trans ?_ h
  rw [← bigSep_sep']
  refine bigSep_mono fun c _ => ?_
  rw [← bigSep_sep']
  refine bigSep_mono fun s _ => ?_
  unfold Tile.tdRes
  exact BI.Entails.refl _

/-! ## The same, indexed by the call's SparseCores and tasks -/

/-- THE WAY OUT: the word array at the words and the result at anything are what the TensorCore hands the call's SparseCores. -/
theorem split_in (f4 : Buf (Elt F) ((T d : Thread nD τ).loc main_v4)) :
    iprop(((T d : Thread nD τ).loc main_v3 ↦{fullShare} (words m d : Buf (Elt F) _)) ∗ ((T d : Thread nD τ).loc main_v4 ↦{fullShare} f4))
      ⊢ (bigSep Finset.univ fun c : Fin ((K (F := F)).nCore 0) => (Pay.P m).st 0 d c : sProp 𝕄) := by
  simp only [Pay.P_st]
  refine (split_grid m d f4).trans (Entails.of_eq ?_)
  rw [bigSep_univ_equiv (finCongr (Pay.nCore_eq (F := F) 0))
    (fun c : Fin (grid0.bound 0) => (bigSep Finset.univ fun s : Fin (grid0.bound 1) => goRes m d (coordsV c s) : sProp 𝕄))]
  refine bigSep_congr fun c _ => ?_
  rw [bigSep_univ_equiv (finCongr (Pay.nSub_eq (F := F) 0))
    (fun s : Fin (grid0.bound 1) => (goRes m d (coordsV (finCongr (Pay.nCore_eq (F := F) 0) c) s) : sProp 𝕄))]
  rfl

/-- THE WAY BACK: what the call's SparseCores hand back is the word array at the words and the result at the four-fold
    minimum of the words. -/
theorem join_out [∀ e, Nonempty (Elt F e)] :
    (bigSep Finset.univ fun c : Fin ((K (F := F)).nCore 0) => (Pay.P m).dn 0 d c : sProp 𝕄)
      ⊢ iprop(((T d : Thread nD τ).loc main_v3 ↦{fullShare} (words m d : Buf (Elt F) _))
          ∗ ((T d : Thread nD τ).loc main_v4 ↦{fullShare} (KV.min4 (words m d) : Buf (Elt F) _))) := by
  simp only [Pay.P_dn]
  have e : (bigSep Finset.univ fun c : Fin (grid0.bound 0) => bigSep Finset.univ fun s : Fin (grid0.bound 1) => tdRes m d (coordsV c s) : sProp 𝕄)
      = bigSep Finset.univ fun c : Fin ((K (F := F)).nCore 0) => bigSep Finset.univ fun i : Fin ((K (F := F)).nSub 0) => tdRes m d (Pay.coords 0 c i) := by
    rw [bigSep_univ_equiv (finCongr (Pay.nCore_eq (F := F) 0))
      (fun c : Fin (grid0.bound 0) => (bigSep Finset.univ fun s : Fin (grid0.bound 1) => tdRes m d (coordsV c s) : sProp 𝕄))]
    refine bigSep_congr fun c _ => ?_
    rw [bigSep_univ_equiv (finCongr (Pay.nSub_eq (F := F) 0))
      (fun s : Fin (grid0.bound 1) => (tdRes m d (coordsV (finCongr (Pay.nCore_eq (F := F) 0) c) s) : sProp 𝕄))]
    rfl
  exact (Entails.of_eq e.symm).trans (join_grid m d)

/-- info: 'Cert.KernelIdeal.Split.split_in' depends on axioms: [propext, Classical.choice, Quot.sound] -/
#guard_msgs in #print axioms split_in
/-- info: 'Cert.KernelIdeal.Split.join_out' depends on axioms: [propext, Classical.choice, Quot.sound] -/
#guard_msgs in #print axioms join_out

end Cert.KernelIdeal.Split

end
-- ==== Proof.Main.lean ====
/-
  @main on the TensorCore. The four host operations before the SparseCore call lay the mask out as words
  (`Host.pre_v3`); the call takes the word array and the result dealt to the tasks (`Split.split_in`) and
  brings them back with the result at the four-fold minimum (`Split.join_out`); the pallas_call is a
  pipeline region entered below the SparseCore layer (`Tc.tc_region`), leaving the pooled array; the five
  host operations after it compare the minima with zero (`Host.post_v9`). The arrays are followed through
  five valuations `V0 … V4`.
-/
import proofs.«217849_g24850680775158_cont_8to1_1955_33_alg».proof.Proof.Launch
import proofs.«217849_g24850680775158_cont_8to1_1955_33_alg».proof.Proof.TcRegion
import proofs.«217849_g24850680775158_cont_8to1_1955_33_alg».proof.Proof.Host
import proofs.«217849_g24850680775158_cont_8to1_1955_33_alg».proof.Proof.Split

noncomputable section

namespace Cert.KernelIdeal.Main

open Cert.KernelIdeal Cert.KernelIdeal.Gen Cert.KernelIdeal.Setup
open Cert.KernelIdeal.Pay (P)
open Cert.KernelIdeal.Launch (G FIN a0Loc a1Loc v5Loc v9Loc pooledOf maskOf)
open Cert.KernelIdeal.Host (preOps postOps a0' a1' v3' v4' v5' v9')

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type} [FloatOps F]

local notation "𝕄" => MM F

variable (m : (ℓ : Loc nD τ sig) → Buf (Elt F) ℓ) (ρ : Dev nD → PrngReg)

/-! ## The arrays' contents along @main -/

/-- As launched; -/
def V0 (d : Dev nD) : Valuation τ sig (Elt F) := fun b => m (d, b)
/-- after the host operations before the call; -/
def V1 (d : Dev nD) : Valuation τ sig (Elt F) := StableHlo.after preOps (V0 m d)
/-- after the call: the result at the four-fold minimum of the words; -/
def V2 (d : Dev nD) : Valuation τ sig (Elt F) := Function.update (V1 m d) v4' (KV.min4 (Tile.words m d))
/-- after the pallas_call: the pooled array; -/
def V3 (d : Dev nD) : Valuation τ sig (Elt F) :=
  Function.update (V2 m d) v5' (KV.pooled (F := F) (show Vec F S4x4096x1024 .f32 from V2 m d a0'))
/-- after the host operations that follow. -/
def V4 (d : Dev nD) : Valuation τ sig (Elt F) := StableHlo.after postOps (V3 m d)

theorem V1_v3 (d : Dev nD) : V1 m d v3' = Tile.words m d := Host.pre_v3 (V0 m d)
theorem V1_a0 (d : Dev nD) : V1 m d a0' = m (a0Loc d) := Host.pre_keep (V0 m d) (by decide)
theorem V1_a1 (d : Dev nD) : V1 m d a1' = m (a1Loc d) := Host.pre_keep (V0 m d) (by decide)
theorem V2_v4 (d : Dev nD) : V2 m d v4' = KV.min4 (Tile.words m d) := Function.update_self _ _ _
theorem V2_of_ne (d : Dev nD) {b : DevRef τ sig} (h : b ≠ v4') : V2 m d b = V1 m d b := Function.update_of_ne h _ _
theorem V3_v5 (d : Dev nD) : V3 m d v5' = KV.pooled (F := F) (show Vec F S4x4096x1024 .f32 from V2 m d a0') := Function.update_self _ _ _
theorem V3_of_ne (d : Dev nD) {b : DevRef τ sig} (h : b ≠ v5') : V3 m d b = V2 m d b := Function.update_of_ne h _ _

theorem V4_a0 (d : Dev nD) : V4 m d a0' = m (a0Loc d) := by
  unfold V4; rw [Host.post_keep (V3 m d) (by decide), V3_of_ne m d (by decide), V2_of_ne m d (by decide), V1_a0]
theorem V4_a1 (d : Dev nD) : V4 m d a1' = m (a1Loc d) := by
  unfold V4; rw [Host.post_keep (V3 m d) (by decide), V3_of_ne m d (by decide), V2_of_ne m d (by decide), V1_a1]
theorem V4_v5 (d : Dev nD) : V4 m d v5' = pooledOf m d := by
  unfold V4; rw [Host.post_keep (V3 m d) (by decide), V3_v5, V2_of_ne m d (by decide), V1_a0]; rfl
theorem V4_v9 (d : Dev nD) : V4 m d v9' = maskOf m d := by
  unfold V4; rw [Host.post_v9 (V3 m d), V3_of_ne m d (by decide), V2_v4]; rfl

/-- The valuation after the pallas_call, read at the TensorCore's references, is the pipeline's. -/
theorem V3_afterPool (d : Dev nD) :
    (fun b : Ref sig .tc => V3 m d (Proc.devRef .tc b)) = afterPool d (fun b : Ref sig .tc => V2 m d (Proc.devRef .tc b)) := by
  funext b
  show Function.update (V2 m d) v5' (KV.pooled (F := F) (show Vec F S4x4096x1024 .f32 from V2 m d a0')) (Proc.devRef .tc b)
    = Function.update (fun b : Ref sig .tc => V2 m d (Proc.devRef .tc b)) main_v5
        (KV.pooled (F := F) (show Vec F S4x4096x1024 .f32 from V2 m d (Proc.devRef .tc main_arg0))) b
  by_cases h : b = main_v5
  · subst h; rw [Function.update_self, Function.update_self]
  · rw [Function.update_of_ne h, Function.update_of_ne (StableHlo.devRef_ne_of_ne h)]

/-! ## The held set, with the word array and the result taken out -/

theorem sub34 : ({v3', v4'} : Finset (DevRef τ sig)) ⊆ Pipeline.ucRefs τ sig := by decide
theorem subFin : ({a0', a1', v5', v9'} : Finset (DevRef τ sig)) ⊆ Pipeline.ucRefs τ sig := by decide

omit [FloatOps F] in
theorem held_pair (d : Dev nD) (W : Valuation τ sig (Elt F)) :
    (held (SparseCore.T d) ({v3', v4'} : Finset (DevRef τ sig)) W : sProp 𝕄)
      = iprop((((d, v3') : Loc nD τ sig) ↦{fullShare} W v3') ∗ (((d, v4') : Loc nD τ sig) ↦{fullShare} W v4')) := by
  unfold held
  rw [SparseCore.bigSep_insert' (by decide), bigSep_singleton]

theorem held_rest (d : Dev nD) :
    (held (SparseCore.T d) (Pipeline.ucRefs τ sig \ {v3', v4'}) (V2 m d) : sProp 𝕄)
      = held (SparseCore.T d) (Pipeline.ucRefs τ sig \ {v3', v4'}) (V1 m d) :=
  held_congr (SparseCore.T d) fun b hb => V2_of_ne m d fun e => by
    rw [e] at hb; exact (Finset.mem_sdiff.mp hb).2 (by decide)

omit [FloatOps F] in
theorem held_fin (d : Dev nD) (W : Valuation τ sig (Elt F)) :
    (held (SparseCore.T d) ({a0', a1', v5', v9'} : Finset (DevRef τ sig)) W : sProp 𝕄)
      = iprop((a0Loc d ↦{fullShare} W a0') ∗ (a1Loc d ↦{fullShare} W a1') ∗ (v5Loc d ↦{fullShare} W v5') ∗ (v9Loc d ↦{fullShare} W v9')) := by
  unfold held
  rw [SparseCore.bigSep_insert' (by decide), SparseCore.bigSep_insert' (by decide), SparseCore.bigSep_insert' (by decide), bigSep_singleton]

/-! ## The TensorCore's handshake state once the call has returned -/

/-- What the handshake state holds beside the core's debts. -/
def stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_one (d : Dev nD) : ((K (F := F)).tcSt EH d ((0 : Fin 1).val + 1) : sProp 𝕄) = iprop(tcOwes d ∗ stRest d) := by
  have h1 : ((0 : Fin 1).val + 1) = 1 := rfl
  rw [h1]
  unfold SparseCore.Cfg.tcSt tcOwes stRest
  rw [(K (F := F)).Otc_end d (le_refl 1)]

omit [FloatOps F] in
theorem tcSt_one' (d : Dev nD) : ((K (F := F)).tcSt EH d 1 : sProp 𝕄) = iprop(tcOwes d ∗ stRest d) := tcSt_one d

/-- The arrays after the call, in one held set: the word array as it was, the result at the minima, the rest untouched. -/
theorem held_after_call (d : Dev nD) :
    (held (SparseCore.T d) (Pipeline.ucRefs τ sig) (V2 m d) : sProp 𝕄)
      = iprop(((((d, v3') : Loc nD τ sig) ↦{fullShare} Tile.words m d) ∗ (((d, v4') : Loc nD τ sig) ↦{fullShare} KV.min4 (Tile.words m d)))
          ∗ held (SparseCore.T d) (Pipeline.ucRefs τ sig \ {v3', v4'}) (V1 m d)) := by
  rw [held_sub_split (SparseCore.T d) sub34 (V2 m d), held_pair, held_rest, V2_of_ne m d (show v3' ≠ v4' by decide), V1_v3, V2_v4]

/-! ## The pallas_call below the SparseCore layer -/

/-- The pallas_call's line of @main as a program of the layer below the SparseCore calls. -/
def regionProg (F : FTy → Type) : Prog (TpuEff nD τ sig (Elt F) (ΛP (F := F)) Proc.tc) PUnit :=
  Prog.op (.customCall (Pipeline.entry 0) ()) fun _ => Prog.ret ⟨⟩

omit [FloatOps F] in
/-- Lifted to the SparseCore layer it is @main's line. -/
theorem lift_eq :
    (SparseCore.liftProg (Q := 1) (regionProg F) : Prog (TpuEff nD τ sig (Elt F) (SparseCore.Sig (ΛP (F := F)) 1) Proc.tc) PUnit)
      = Prog.lift (.customCall (SparseCore.inner (Pipeline.entry 0)) ()) := by
  rfl

theorem lifted (d : Dev nD) (Φ : PUnit → sProp 𝕄) :
    wp frame (wpE (D (F := F)) 𝒱 (d.tc : Thread nD τ) none) Set.univ (regionProg F) Φ
      ⊢ wp frame (wpE ((K (F := F)).defs (D (F := F))) 𝒱 (d.tc : Thread nD τ) none) Set.univ
          (SparseCore.liftProg (Q := 1) (regionProg F)) Φ :=
  (K (F := F)).wp_liftProg (D (F := F)) 𝒱 (d.tc : Thread nD τ) Set.univ none (regionProg F) Φ

set_option backward.isDefEq.respectTransparency.types false in
/-- The pallas_call's line of @main: the pipeline region of the program below the SparseCore layer, lifted. -/
theorem region_step (d : Dev nD) (Vm : (b : Ref sig .tc) → Buf (Elt F) ((d.tc : Thread nD τ).loc b)) (g : PrngReg) (Φ : PUnit → sProp 𝕄) :
    iprop((iprop(boundary (d.tc : Thread nD τ) ∗ unscopedBufs d (afterPool d Vm) ∗ tcOwes d ∗ prngReg d g) -∗ Φ ⟨⟩)
        ∗ boundary (d.tc : Thread nD τ) ∗ unscopedBufs d Vm ∗ tcOwes d ∗ prngReg d g
        ∗ levAts (K (F := F)).L (K (F := F)).lev
        ∗ Pipeline.cellsGhost cfgs EP 0 d ∗ Pipeline.toksInit cfgs EP 0 d)
      ⊢ wp frame (wpE ((K (F := F)).defs (D (F := F))) 𝒱 (d.tc : Thread nD τ) none) Set.univ
          (Prog.lift (.customCall (SparseCore.inner (Pipeline.entry 0)) ())) Φ := by
  have h1 := Tc.tc_region (F := F) d Vm g (fun _ => Prog.ret ⟨⟩) Φ
  have h2 := lifted d Φ
  rw [lift_eq] at h2
  have hpre : iprop((iprop(boundary (d.tc : Thread nD τ) ∗ unscopedBufs d (afterPool d Vm) ∗ tcOwes d ∗ prngReg d g) -∗ Φ ⟨⟩)
        ∗ boundary (d.tc : Thread nD τ) ∗ unscopedBufs d Vm ∗ tcOwes d ∗ prngReg d g
        ∗ levAts (K (F := F)).L (K (F := F)).lev
        ∗ Pipeline.cellsGhost cfgs EP 0 d ∗ Pipeline.toksInit cfgs EP 0 d)
      ⊢ iprop((iprop(boundary (d.tc : Thread nD τ) ∗ unscopedBufs d (afterPool d Vm) ∗ tcOwes d ∗ prngReg d g)
            -∗ wp frame (wpE (D (F := F)) 𝒱 (d.tc : Thread nD τ) none) Set.univ (Prog.ret PUnit.unit) Φ)
        ∗ boundary (d.tc : Thread nD τ) ∗ unscopedBufs d Vm ∗ tcOwes d ∗ prngReg d g
        ∗ levAts (K (F := F)).L (K (F := F)).lev
        ∗ Pipeline.cellsGhost cfgs EP 0 d ∗ Pipeline.toksInit cfgs EP 0 d) := by
    iintro ⟨Hk, Hrest⟩
    isplitl [Hk]
    · iintro H
      rw [wp_ret]; imodintro
      iapply Hk; iexact H
    · iexact Hrest
  exact (hpre.trans h1).trans h2

/-! ## @main -/

set_option backward.isDefEq.respectTransparency.types false in
set_option maxHeartbeats 2000000 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (SparseCore.T d) (Pipeline.ucRefs τ sig) (V0 m d) from
      Pipeline.unscopedBufs_held (Ix := HIx 1) (Name := ℕ) (U := UU) (Lvl := ℕ) d (V0 m d), Host.main_eq]
  iintro ⟨#Hctx, Hst, ⟨Hb, Hheld, -, Hprng⟩, ⟨Hcg, Htk⟩⟩
  -- the host operations before the call
  iapply (StableHlo.wp_seq 𝒱 none Set.univ d (Pipeline.ucRefs τ sig) _ preOps Host.pre_sub Host.pre_fresh (V0 m d)) $$ [Hb Hheld]
  · isplitl [Hb] <;> iassumption
  iintro ⟨Hb, Hheld⟩
  -- the word array and the result out of the held set
  ihave Hheld := (Entails.of_eq (show (held (d.tc : Thread nD τ) (Pipeline.ucRefs τ sig) (StableHlo.after preOps (V0 m d)) : sProp 𝕄)
      = held (SparseCore.T d) (Pipeline.ucRefs τ sig) (V1 m d) from rfl)) $$ Hheld
  ihave Hh := (Entails.of_eq ((held_sub_split (SparseCore.T d) sub34 (V1 m d)).trans (congrArg (fun X => iprop(X ∗ _)) (held_pair d (V1 m d))))) $$ Hheld
  icases Hh with ⟨⟨H3, H4⟩, Hrest⟩
  rw [V1_v3]
  -- the call
  rw [wp_bind]
  iapply ((K (F := F)).wp_run (D (F := F)) 𝒱 (EH := EH) (P := P m) κ d 0) $$ [Hst H3 H4 Hb Hrest Hprng Hcg Htk]
  isplitr; · iexact Hctx
  isplitl [Hst]; · iexact Hst
  isplitl [H3 H4]
  · iapply (Split.split_in m d _); isplitl [H3] <;> iassumption
  iintro ⟨Hst, Hdn⟩
  ihave Hdn' := (Split.join_out m d) $$ Hdn
  icases Hdn' with ⟨H3, H4⟩
  -- the arrays back in one held set, the result at the minima
  ihave Hheld := (Entails.of_eq (held_after_call m d).symm) $$ [H3 H4 Hrest]
  · isplitl [H3 H4]
    · isplitl [H3] <;> iassumption
    · iexact Hrest
  ihave Hu := (Entails.of_eq (Pipeline.unscopedBufs_held (Ix := HIx 1) (Name := ℕ) (U := UU) (Lvl := ℕ) d (V2 m d)).symm) $$ Hheld
  ihave Hst' := (Entails.of_eq (tcSt_one d)) $$ Hst
  icases Hst' with ⟨Ho, Hsr⟩
  -- the pallas_call: a pipeline region below the SparseCore layer
  rw [wp_bind]
  iapply (region_step d (fun b : Ref sig .tc => V2 m d (Proc.devRef .tc b)) (ρ d) _) $$ [Hb Hu Ho Hprng Hcg Htk Hsr]
  isplitl [Hsr]
  · iintro ⟨Hb, Hu, Ho, Hprng⟩
    -- the host operations after it
    ihave Hheld := (Entails.of_eq ((congrArg (unscopedBufs d) (V3_afterPool m d).symm).trans
      (Pipeline.unscopedBufs_held (Ix := HIx 1) (Name := ℕ) (U := UU) (Lvl := ℕ) d (V3 m d)))) $$ Hu
    rw [← bind_pure (StableHlo.seq postOps)]
    iapply (StableHlo.wp_seq 𝒱 none Set.univ d (Pipeline.ucRefs τ sig) _ postOps Host.post_sub Host.post_fresh (V3 m d)) $$ [Hb Hheld]
    · isplitl [Hb] <;> iassumption
    iintro ⟨Hb, Hheld⟩
    ihave Hheld := (Entails.of_eq (show (held (d.tc : Thread nD τ) (Pipeline.ucRefs τ sig) (StableHlo.after postOps (V3 m d)) : sProp 𝕄)
        = held (SparseCore.T d) (Pipeline.ucRefs τ sig) (V4 m d) from rfl)) $$ Hheld
    ihave Hf := (Entails.of_eq ((held_sub_split (SparseCore.T d) subFin (V4 m d)).trans (congrArg (fun X => iprop(X ∗ _)) (held_fin d (V4 m d))))) $$ Hheld
    icases Hf with ⟨⟨H0, H1, H5, H9⟩, -⟩
    rw [V4_a0, V4_a1, V4_v5, V4_v9, wp_pure]
    imodintro
    isplitl [Ho Hsr]
    · iapply (Entails.of_eq (tcSt_one' d).symm)
      isplitl [Ho] <;> iassumption
    unfold Launch.FIN
    isplitl [H0]; · iexact H0
    isplitl [H1]; · iexact H1
    isplitl [H5]; · iexact H5
    iexact H9
  isplitl [Hb]; · iexact Hb
  isplitl [Hu]; · iexact Hu
  isplitl [Ho]; · iexact Ho
  isplitl [Hprng]; · iexact Hprng
  isplitr; · iapply (SparseCore.Cfg.ctx_levAts κ); iexact Hctx
  isplitl [Hcg] <;> iassumption

end Cert.KernelIdeal.Main

end
-- ==== Proof.Run.lean ====
/-
  The program's run at any float instance: every weakly fair execution of @main on the TensorCore and of the
  mask kernel on the thirty-two vector subcores terminates, nothing faulting, with both arguments unchanged,
  the first result the pooled array and the second the pooled mask of the arguments.
-/
import proofs.«217849_g24850680775158_cont_8to1_1955_33_alg».proof.Proof.Main

noncomputable section

namespace Cert.KernelIdeal.Run

open Cert.KernelIdeal Cert.KernelIdeal.Setup
open Idealize.ShloMosaic Idealize.SL.Sem

variable {F : FTy → Type} [FloatOps F]

theorem run_main [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (Launch.QC m) :=
  Launch.run_of m ρ (Main.hmain m ρ)

end Cert.KernelIdeal.Run

end
-- ==== Proof.BitsKV.lean ====
/-
  The two functions the kernel computes, as whole-array functions of its arguments, at any float instance.

  * The pooled array. The pallas_call runs its body once per batch on that batch's block of 4096 rows and
    writes the body's result — 1024 rows, row `r` the sum of rows `4r .. 4r+3` paired as
    `(x[4r] + x[4r+1]) + (x[4r+2] + x[4r+3])` and scaled by the word `0.25` — to the same batch of the result.
    `pooled x` is, batch by batch, that body term (`k1_pay1`) of the batch's block.
  * The pooled mask. The host lays the mask's bits out as 32-bit words, group position major
    (`maskWords`: word `4096 k + w` is bit `4 w + k`, zero-extended); the vector subcores take, for every
    window `w`, the signed minimum of its four words (`min4`); the host compares the result with zero
    (`maskOut`).
-/
import proofs.«217849_g24850680775158_cont_8to1_1955_33_alg».proof.Proof.Gen.Kernel.Skeleton
import Idealize.ShloMosaic.Lib.ValueIdx

noncomputable section

namespace Cert.Kernel.KV

open Idealize.ShloMosaic Idealize.ShloMosaic.ValueIdx Cert.Kernel Cert.Kernel.Gen

variable {F : FTy → Type} [FloatOps F]

/-- Batch `b` of the input as a block of one batch: rows and features unchanged. -/
def slab (x : Vec F S4x4096x1024 .f32) (b : Fin 4) : Vec F S1x4096x1024 .f32 :=
  fun y => x (ix3 b (y 1) (y 2))

/-- The pooled array: in every batch, the body's function of that batch's block. -/
def pooled (x : Vec F S4x4096x1024 .f32) : Vec F S4x1024x1024 .f32 :=
  fun i => k1_pay1 (slab x (i 0)) (ix3 (0 : Fin 1) (i 1) (i 2))

/-- The mask as words, group position major: word `4096 k + w` is bit `4 w + k` of the mask, zero-extended. -/
def maskWords (a : IVec S4x4096 1) : IVec S16384 32 :=
  shapeCast S16384 (transpose S4x4096 [1, 0] (extui 32 (shapeCast S4096x4 a shapeCasts_S4x4096_S4096x4) natLt_1_32)
    transposes_S4096x4_S4x4096_1_0) shapeCasts_S4x4096_S16384

/-- Word `4096 k + n` of the word array: window `n`'s word at group position `k`. -/
def wordAt (v : IVec S16384 32) (k : Fin 4) (n : Fin 4096) : BitVec 32 :=
  v (ix1 (⟨4096 * k.val + n.val, by have := k.isLt; have := n.isLt; omega⟩ : Fin 16384))

/-- The signed minimum of a window's four words, in the order the subcores fold them. -/
def min4 (v : IVec S16384 32) : IVec S4096 32 :=
  fun i => IntOp.minsi (IntOp.minsi (IntOp.minsi (wordAt v 0 (i 0)) (wordAt v 1 (i 0))) (wordAt v 2 (i 0))) (wordAt v 3 (i 0))

/-- The minima compared with zero, laid out batch by window. -/
def maskOut (v : IVec S4096 32) : IVec S4x1024 1 :=
  cmpi .ne (shapeCast S4x1024 v shapeCasts_S4096_S4x1024) (broadcastInDim S4x1024 ![] bcast_S_S4x1024 (constantI S_ 32 0#32))

/-- The pooled mask as the kernel computes it. -/
def maskVal (a : IVec S4x4096 1) : IVec S4x1024 1 := maskOut (min4 (maskWords a))

end Cert.Kernel.KV

end
-- ==== Proof.BitsSetup.lean ====
/-
  The program as the SparseCore launch theorem sees it, and the ghost state every module of this proof is
  stated over: the handshakes' rounds, the TensorCore pipeline's staging rounds and the counters of the
  subcores' own copies, side by side.
-/
import proofs.«217849_g24850680775158_cont_8to1_1955_33_alg».proof.Defs
import proofs.«217849_g24850680775158_cont_8to1_1955_33_alg».proof.Proof.Gen.Kernel
import proofs.«217849_g24850680775158_cont_8to1_1955_33_alg».proof.Proof.Gen.Kernel.Skeleton
import proofs.«217849_g24850680775158_cont_8to1_1955_33_alg».proof.Proof.Gen.Kernel.Launch
import proofs.«217849_g24850680775158_cont_8to1_1955_33_alg».proof.Proof.Gen.Kernel.Points
import proofs.«217849_g24850680775158_cont_8to1_1955_33_alg».proof.Proof.BitsKV
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program below the SparseCore layer: the kernels' and the one pipeline's. -/
abbrev ΛP : Labels := Pipeline.Sig Λ₀ (Fin 1) fun p => (pcfgs (F := F) p).Adm
/-- The SparseCore calls. -/
abbrev K : SparseCore.Cfg τ sig (ΛP (F := F)) 1 := sc (F := F)
/-- The body table below the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's staging rounds, the copies' counters. -/
abbrev UH : Type := URounds (GSem nD τ sig) ℕ
abbrev UP : Type := URounds (GSem nD τ sig) Unit
abbrev UU : Type := UH × (UP × Counters)

/-- The model. -/
abbrev MM (F : FTy → Type) : Type := MT nD τ sig (HIx 1) (Elt F) ℕ UU ℕ

/-- The handshakes' copy: the left factor. -/
abbrev EH : Emb UH (MM F) := embL
/-- The pipeline's copy: the left factor of the right factor. -/
def EP : Emb UP (MM F) := (Emb.inl : Emb UP (UP × Counters)).trans embR

instance EP_landsIn : (EP : Emb UP (MM F)).LandsIn (upEmb : UEmb _ (MM F)) := by unfold EP; infer_instance

/-- What the TensorCore owes once the SparseCore call has returned: nothing; the pairs its waits have recorded
    sit at or below the call's band of levels. -/
def tcOwes (c : Dev nD) : sProp (MM F) := iprop(∃ W, ⌜(K (F := F)).WBelow (T c) W 8⌝ ∗ owes (T c) 0 W)

/-- The TensorCore's arrays after the pipeline: the result array at the pooled input, the others as they were. -/
def afterPool [FloatOps F] (c : Dev nD) (Vm : (b : Ref sig .tc) → Buf (Elt F) ((c.tc : Thread nD τ).loc b)) :
    (b : Ref sig .tc) → Buf (Elt F) ((c.tc : Thread nD τ).loc b) :=
  Function.update Vm main_v5 (KV.pooled (F := F) (Vm main_arg0))

end Cert.Kernel.Setup

end
-- ==== Proof.BitsParts.lean ====
/-
  How the word array and the result split among the vector subcores. Subcore `(c, s)` of the grid reads, for
  each group position `k`, the 128 words from `4096 k + 256 s + 128 c` and writes the 128 words from
  `256 s + 128 c`: the 128 source rectangles tile the 16384 words, the 32 target rectangles the 4096.
-/
import proofs.«217849_g24850680775158_cont_8to1_1955_33_alg».proof.Proof.Gen.Kernel

noncomputable section

namespace Cert.Kernel.Parts

open Cert.Kernel Cert.Kernel.Gen
open Idealize.ShloMosaic

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev srcRect (L : grid0.Coords) (k : Fin 4) : Rect S16384 :=
  Rect.unit (s := S16384) (k0_off1 L (BitVec.ofNat 32 (4096 * k.val))) S128.size (k0_off1_inb L k)
abbrev dstRect (L : grid0.Coords) : Rect S4096 := Rect.unit (s := S4096) (k0_off7 L) S128.size (k0_off7_inb L)

theorem src_off (c : Fin (grid0.bound 0)) (s : Fin (grid0.bound 1)) (k : Fin 4) :
    k0_off1 (coordsV c s) (BitVec.ofNat 32 (4096 * k.val)) = ![4096 * k.val + 256 * s.val + 128 * c.val] :=
  k0_off1_eq (coordsV c s) k
theorem dst_off (c : Fin (grid0.bound 0)) (s : Fin (grid0.bound 1)) :
    k0_off7 (coordsV c s) = ![256 * s.val + 128 * c.val] :=
  k0_off7_eq (coordsV c s)

abbrev T3 : Type := Fin (grid0.bound 0) × Fin (grid0.bound 1) × Fin 4
abbrev T4 : Type := Fin (grid0.bound 0) × Fin (grid0.bound 1)

/-- The source rectangle of subcore `(t.1, t.2.1)` at group position `t.2.2`; the target rectangle of subcore `t`. -/
abbrev r3 (t : T3) : Rect S16384 := srcRect (coordsV t.1 t.2.1) t.2.2
abbrev r4 (t : T4) : Rect S4096 := dstRect (coordsV t.1 t.2)

theorem r3_disjoint : ∀ t t' : T3, t ≠ t' → Disjoint (r3 t).set (r3 t').set := by
  intro t t' hne
  have h : t.1.val ≠ t'.1.val ∨ t.2.1.val ≠ t'.2.1.val ∨ t.2.2.val ≠ t'.2.2.val := by
    by_contra h; simp only [not_or, ne_eq, not_not] at h
    exact hne (Prod.ext (Fin.ext h.1) (Prod.ext (Fin.ext h.2.1) (Fin.ext h.2.2)))
  have hc : t.1.val < 2 := t.1.isLt
  have hc' : t'.1.val < 2 := t'.1.isLt
  have hs : t.2.1.val < 16 := t.2.1.isLt
  have hs' : t'.2.1.val < 16 := t'.2.1.isLt
  have hk : t.2.2.val < 4 := t.2.2.isLt
  have hk' : t'.2.2.val < 4 := t'.2.2.isLt
  refine Rect.unit_disjoint (0 : Fin 1) ?_
  rw [src_off, src_off]
  show 4096 * t.2.2.val + 256 * t.2.1.val + 128 * t.1.val + 128 ≤ 4096 * t'.2.2.val + 256 * t'.2.1.val + 128 * t'.1.val
    ∨ 4096 * t'.2.2.val + 256 * t'.2.1.val + 128 * t'.1.val + 128 ≤ 4096 * t.2.2.val + 256 * t.2.1.val + 128 * t.1.val
  omega

theorem r3_cover : (Finset.univ : Finset T3).biUnion (fun t => (r3 t).set) = Finset.univ := by
  ext x
  simp only [Finset.mem_biUnion, Finset.mem_univ, true_and, iff_true]
  have hx : (x 0).val < 16384 := (x 0).isLt
  refine ⟨(⟨((x 0).val % 256) / 128, by show _ < 2; omega⟩, ⟨((x 0).val % 4096) / 256, by show _ < 16; omega⟩, ⟨(x 0).val / 4096, by omega⟩), ?_⟩
  refine Rect.mem_set_unit.mpr fun a => ?_
  obtain rfl : a = 0 := Subsingleton.elim _ _
  rw [src_off]
  show 4096 * ((x 0).val / 4096) + 256 * (((x 0).val % 4096) / 256) + 128 * (((x 0).val % 256) / 128) ≤ (x 0).val
    ∧ (x 0).val < 4096 * ((x 0).val / 4096) + 256 * (((x 0).val % 4096) / 256) + 128 * (((x 0).val % 256) / 128) + 128
  omega

theorem r4_disjoint : ∀ t t' : T4, t ≠ t' → Disjoint (r4 t).set (r4 t').set := by
  intro t t' hne
  have h : t.1.val ≠ t'.1.val ∨ t.2.val ≠ t'.2.val := by
    by_contra h; simp only [not_or, ne_eq, not_not] at h
    exact hne (Prod.ext (Fin.ext h.1) (Fin.ext h.2))
  have hc : t.1.val < 2 := t.1.isLt
  have hc' : t'.1.val < 2 := t'.1.isLt
  have hs : t.2.val < 16 := t.2.isLt
  have hs' : t'.2.val < 16 := t'.2.isLt
  refine Rect.unit_disjoint (0 : Fin 1) ?_
  rw [dst_off, dst_off]
  show 256 * t.2.val + 128 * t.1.val + 128 ≤ 256 * t'.2.val + 128 * t'.1.val
    ∨ 256 * t'.2.val + 128 * t'.1.val + 128 ≤ 256 * t.2.val + 128 * t.1.val
  omega

theorem r4_cover : (Finset.univ : Finset T4).biUnion (fun t => (r4 t).set) = Finset.univ := by
  ext x
  simp only [Finset.mem_biUnion, Finset.mem_univ, true_and, iff_true]
  have hx : (x 0).val < 4096 := (x 0).isLt
  refine ⟨(⟨((x 0).val % 256) / 128, by show _ < 2; omega⟩, ⟨(x 0).val / 256, by show _ < 16; omega⟩), ?_⟩
  refine Rect.mem_set_unit.mpr fun a => ?_
  obtain rfl : a = 0 := Subsingleton.elim _ _
  rw [dst_off]
  show 256 * ((x 0).val / 256) + 128 * (((x 0).val % 256) / 128) ≤ (x 0).val
    ∧ (x 0).val < 256 * ((x 0).val / 256) + 128 * (((x 0).val % 256) / 128) + 128
  omega

/-- A word of the result inside subcore `(c, s)`'s rectangle, as an index of the whole result. -/
theorem dst_emb_val (c : Fin (grid0.bound 0)) (s : Fin (grid0.bound 1)) (j : (r4 (c, s)).shape.Idx) :
    ((r4 (c, s)).emb j 0).val = 256 * s.val + 128 * c.val + (j 0).val := by
  show (k0_off7 (coordsV c s)) 0 + 1 * (j 0).val = _
  rw [dst_off]; simp

/-- A word of the word array inside subcore `(c, s)`'s rectangle at group position `k`. -/
theorem src_emb_val (c : Fin (grid0.bound 0)) (s : Fin (grid0.bound 1)) (k : Fin 4) (j : (r3 (c, s, k)).shape.Idx) :
    ((r3 (c, s, k)).emb j 0).val = 4096 * k.val + 256 * s.val + 128 * c.val + (j 0).val := by
  show (k0_off1 (coordsV c s) (BitVec.ofNat 32 (4096 * k.val))) 0 + 1 * (j 0).val = _
  rw [src_off]; simp

end Cert.Kernel.Parts

end
-- ==== Proof.BitsTileRows.lean ====
/-
  The vector subcore's arithmetic as facts about its two scratches, free of the program.
  The first scratch is four rows of 128 words; the four copies land the task's four runs of 128 words in rows
  0 to 3, each through the row's own view (a row of `[4, 128]` seen as `[128]`), so after them the scratch reads, at
  row `k` and lane `n`, word `n` of run `k`. The body then takes, sixteen lanes at a time, the signed minimum of
  the four rows and stores it at the same lanes of the second scratch: the eight stores tile its 128 words, so it
  reads at lane `y` the minimum over the four rows at lane `y`. That scratch is copied whole to the task's 128
  words of the result. Run `k` being the 128 words of the word array from `4096 k + o` and the task's words of the
  result starting at `o`, word `j` of the task's result is the four-fold minimum at window `o + j`.
-/
import proofs.«217849_g24850680775158_cont_8to1_1955_33_alg».proof.Proof.BitsKV
import proofs.«217849_g24850680775158_cont_8to1_1955_33_alg».proof.Proof.BitsParts
import proofs.«217849_g24850680775158_cont_8to1_1955_33_alg».proof.Proof.LibRows
import Idealize.ShloMosaic.Lib.Writes
import Idealize.ShloMosaic.Lib.WritesUnit
import Idealize.ShloMosaic.Lib.ValueLayout

noncomputable section

namespace Cert.Kernel.TileRows

open Cert.Kernel Cert.Kernel.Gen Cert.Kernel.Parts
open Idealize.ShloMosaic Idealize.ShloMosaic.ValueIdx

variable {F : FTy → Type}

local notation "aW" => (Memref.whole Cert.Kernel.cc0_scratch0 : Memref Cert.Kernel.sig Kind.scVector Space.vmem Cert.Kernel.S4x128 EltTy.i32)
local notation "bW" => (Memref.whole Cert.Kernel.cc0_scratch1 : Memref Cert.Kernel.sig Kind.scVector Space.vmem Cert.Kernel.S128 EltTy.i32)

/-! ## The first scratch after the four copies -/

/-- Row `k` of the first scratch as the copies address it: the row's rectangle, its unit axis dropped. -/
abbrev rowV (k : ℕ) (inb : ∀ a, (![k, 0] : Fin 2 → ℕ) a + S1x128.size a ≤ S4x128.size a)
    (hq : (Rect.unit (s := S4x128) ![k, 0] S1x128.size inb).shape.Squeezes S128) : View sig .scVector .vmem S128 .i32 :=
  (((aW).slice (Rect.unit (s := S4x128) ![k, 0] S1x128.size inb) (fun _ => rfl)).squeeze S128 hq).view

/-- Lane `n` of a row seen as `[1, 128]` is lane `n` of the row seen as `[128]`. -/
theorem unrow (h : S128.numel = (⟨2, S1x128.size⟩ : Shape).numel) (n : Fin 128) :
    (Shape.reshapeEquiv h).symm (ix2 (0 : Fin 1) n) = ix1 n := by
  rw [Equiv.symm_apply_eq]
  refine (Shape.reshapeEquiv_eq_of_rowMajor h ?_).symm
  rw [Shape.rowMajor_val_two, Shape.rowMajor_val_one]
  show 0 * 128 + n.val = n.val
  omega

/-- THE FIRST SCRATCH AFTER THE FOUR COPIES reads, at row `k` and lane `n`, lane `n` of what copy `k` landed:
    each copy writes its own row and no later copy touches it. -/
theorem rows_read (fa : (aW).view.ty.Contents (Elt F)) (w0 w1 w2 w3 : S128.Idx → BitVec 32)
    (inb0 inb1 inb2 inb3) (hq0 hq1 hq2 hq3) (k : Fin 4) (n : Fin 128) :
    (aW).view.read (Elt F)
        (View.write (Elt F) (rowV 3 inb3 hq3)
          (View.write (Elt F) (rowV 2 inb2 hq2)
            (View.write (Elt F) (rowV 1 inb1 hq1) (View.write (Elt F) (rowV 0 inb0 hq0) fa w0 Finset.univ) w1 Finset.univ)
            w2 Finset.univ)
          w3 Finset.univ)
        (ix2 k n)
      = (match k with | 0 => w0 | 1 => w1 | 2 => w2 | 3 => w3) (ix1 n) := by
  have e3 := View.write_reshape_univ (Val := Elt F) ((aW).view.slice (Rect.unit (s := S4x128) ![3, 0] S1x128.size inb3)) hq3.numel_eq
  have e2 := View.write_reshape_univ (Val := Elt F) ((aW).view.slice (Rect.unit (s := S4x128) ![2, 0] S1x128.size inb2)) hq2.numel_eq
  have e1 := View.write_reshape_univ (Val := Elt F) ((aW).view.slice (Rect.unit (s := S4x128) ![1, 0] S1x128.size inb1)) hq1.numel_eq
  have e0 := View.write_reshape_univ (Val := Elt F) ((aW).view.slice (Rect.unit (s := S4x128) ![0, 0] S1x128.size inb0)) hq0.numel_eq
  show (aW).view.read (Elt F)
      (View.write (Elt F) (((aW).view.slice (Rect.unit (s := S4x128) ![3, 0] S1x128.size inb3)).reshape S128 hq3.numel_eq)
        (View.write (Elt F) (((aW).view.slice (Rect.unit (s := S4x128) ![2, 0] S1x128.size inb2)).reshape S128 hq2.numel_eq)
          (View.write (Elt F) (((aW).view.slice (Rect.unit (s := S4x128) ![1, 0] S1x128.size inb1)).reshape S128 hq1.numel_eq)
            (View.write (Elt F) (((aW).view.slice (Rect.unit (s := S4x128) ![0, 0] S1x128.size inb0)).reshape S128 hq0.numel_eq)
              fa w0 Finset.univ) w1 Finset.univ) w2 Finset.univ) w3 Finset.univ) (ix2 k n) = _
  rw [e3, e2, e1, e0]
  show (aW).view.read (Elt F) ((aW).view.writes (Elt F) fa
      [⟨Rect.unit (s := S4x128) ![3, 0] S1x128.size inb3, fun x => w3 ((Shape.reshapeEquiv hq3.numel_eq).symm x)⟩,
       ⟨Rect.unit (s := S4x128) ![2, 0] S1x128.size inb2, fun x => w2 ((Shape.reshapeEquiv hq2.numel_eq).symm x)⟩,
       ⟨Rect.unit (s := S4x128) ![1, 0] S1x128.size inb1, fun x => w1 ((Shape.reshapeEquiv hq1.numel_eq).symm x)⟩,
       ⟨Rect.unit (s := S4x128) ![0, 0] S1x128.size inb0, fun x => w0 ((Shape.reshapeEquiv hq0.numel_eq).symm x)⟩]) (ix2 k n) = _
  match k with
  | 0 =>
    rw [View.read_writes_cons_rows_of_not_mem (o := 3) (W := 1) _ _ inb3 _ _ _ rfl rfl (Or.inl (by show (_ : ℕ) < _; simp)),
      View.read_writes_cons_rows_of_not_mem (o := 2) (W := 1) _ _ inb2 _ _ _ rfl rfl (Or.inl (by show (_ : ℕ) < _; simp)),
      View.read_writes_cons_rows_of_not_mem (o := 1) (W := 1) _ _ inb1 _ _ _ rfl rfl (Or.inl (by show (_ : ℕ) < _; simp)),
      View.read_writes_cons_rows_of_mem (o := 0) _ _ inb0 _ _ _ (ix2 (0 : Fin 1) n) rfl rfl rfl]
    exact congrArg w0 (unrow _ n)
  | 1 =>
    rw [View.read_writes_cons_rows_of_not_mem (o := 3) (W := 1) _ _ inb3 _ _ _ rfl rfl (Or.inl (by show (_ : ℕ) < _; simp)),
      View.read_writes_cons_rows_of_not_mem (o := 2) (W := 1) _ _ inb2 _ _ _ rfl rfl (Or.inl (by show (_ : ℕ) < _; simp)),
      View.read_writes_cons_rows_of_mem (o := 1) _ _ inb1 _ _ _ (ix2 (0 : Fin 1) n) rfl rfl rfl]
    exact congrArg w1 (unrow _ n)
  | 2 =>
    rw [View.read_writes_cons_rows_of_not_mem (o := 3) (W := 1) _ _ inb3 _ _ _ rfl rfl (Or.inl (by show (_ : ℕ) < _; simp)),
      View.read_writes_cons_rows_of_mem (o := 2) _ _ inb2 _ _ _ (ix2 (0 : Fin 1) n) rfl rfl rfl]
    exact congrArg w2 (unrow _ n)
  | 3 =>
    rw [View.read_writes_cons_rows_of_mem (o := 3) _ _ inb3 _ _ _ (ix2 (0 : Fin 1) n) rfl rfl rfl]
    exact congrArg w3 (unrow _ n)

/-! ## One chunk of sixteen lanes -/

/-- The four rows' signed minimum at a lane, folded as the body folds it. -/
def fold4 (A : (aW).view.ty.Contents (Elt F)) : S128.Idx → BitVec 32 := fun y =>
  IntOp.minsi (IntOp.minsi (IntOp.minsi ((aW).view.read (Elt F) A (ix2 (0 : Fin 4) (y 0))) ((aW).view.read (Elt F) A (ix2 (1 : Fin 4) (y 0))))
    ((aW).view.read (Elt F) A (ix2 (2 : Fin 4) (y 0)))) ((aW).view.read (Elt F) A (ix2 (3 : Fin 4) (y 0)))

/-- Sixteen lanes of row `k` from lane `o`, loaded as `[1, 16]` and seen as `[16]`, read at lane `x` the scratch
    at row `k`, lane `o + x`. -/
theorem load_row (A : (aW).view.ty.Contents (Elt F)) (k : Fin 4) (o : ℕ)
    (inb : ∀ a, (![k.val, o] : Fin 2 → ℕ) a + S1x16.size a ≤ S4x128.size a) (hc : S1x16.ShapeCasts S16) (x : Fin 16) (n : Fin 128)
    (hn : n.val = o + x.val) :
    shapeCast S16 ((aW).view.readAt (Elt F) (Rect.unit (s := S4x128) ![k.val, o] S1x16.size inb).toLoadRect A) hc (ix1 x)
      = (aW).view.read (Elt F) A (ix2 k n) := by
  refine (shapeCast_1a_a_apply _ hc x).trans ?_
  refine Cert.Lib.Rows.readAt_unit (aW).view A _ _ inb (ix2 (0 : Fin 1) x) (ix2 k n) fun a => ?_
  match a with
  | ⟨0, _⟩ => show k.val = k.val + 0; omega
  | ⟨1, _⟩ => exact hn

/-- ONE CHUNK: the body's payload for the sixteen lanes from `o` is, at lane `x`, the four rows' minimum at
    lane `o + x`. -/
theorem chunk_val (A : (aW).view.ty.Contents (Elt F)) (o : ℕ) (inb0 inb1 inb2 inb3) (hc : S1x16.ShapeCasts S16)
    (hc' : S16.ShapeCasts S16) (inbo : ∀ a, (![o] : Fin 1 → ℕ) a + S16.size a ≤ S128.size a)
    (x : (Rect.unit (s := S128) ![o] S16.size inbo).shape.Idx) :
    shapeCast S16
        (minsi
          (minsi
            (minsi
              (shapeCast S16 ((aW).view.readAt (Elt F) (Rect.unit (s := S4x128) ![0, o] S1x16.size inb0).toLoadRect A) hc)
              (shapeCast S16 ((aW).view.readAt (Elt F) (Rect.unit (s := S4x128) ![1, o] S1x16.size inb1).toLoadRect A) hc))
            (shapeCast S16 ((aW).view.readAt (Elt F) (Rect.unit (s := S4x128) ![2, o] S1x16.size inb2).toLoadRect A) hc))
          (shapeCast S16 ((aW).view.readAt (Elt F) (Rect.unit (s := S4x128) ![3, o] S1x16.size inb3).toLoadRect A) hc))
        hc' x
      = fold4 A ((Rect.unit (s := S128) ![o] S16.size inbo).emb x) := by
  obtain ⟨x0, rfl⟩ : ∃ x0 : Fin 16, x = ix1 x0 := ⟨x 0, eq_ix1 x⟩
  rw [shapeCast_self]
  have hn : (((Rect.unit (s := S128) ![o] S16.size inbo).emb (ix1 x0)) 0).val = o + x0.val := by
    show o + 1 * x0.val = o + x0.val
    omega
  unfold fold4
  show IntOp.minsi (IntOp.minsi (IntOp.minsi _ _) _) _ = _
  refine congrArg₂ IntOp.minsi (congrArg₂ IntOp.minsi (congrArg₂ IntOp.minsi ?_ ?_) ?_) ?_
  · exact load_row A 0 o inb0 hc x0 _ hn
  · exact load_row A 1 o inb1 hc x0 _ hn
  · exact load_row A 2 o inb2 hc x0 _ hn
  · exact load_row A 3 o inb3 hc x0 _ hn

/-! ## The second scratch after the eight stores, and the copy out -/

/-- THE SECOND SCRATCH after stores that tile it, each holding the four rows' minimum at its own lanes, reads the
    four rows' minimum at every lane. -/
theorem read_chunks (A : (aW).view.ty.Contents (Elt F)) (fb : (bW).view.ty.Contents (Elt F))
    (Lp : List (View.Piece (Elt F) S128 .i32)) (hG : ∀ p ∈ Lp, ∀ x : p.1.shape.Idx, p.2 x = fold4 A (p.1.emb x))
    (hcov : ∀ y : S128.Idx, ∃ p ∈ Lp, y ∈ p.1.set) (y : S128.Idx) :
    (bW).view.read (Elt F) ((bW).view.writes (Elt F) fb Lp) y = fold4 A y :=
  View.read_writes_apply_of_pieces (bW).view fb (fold4 A) Lp hG y (hcov y)

variable {sig' : RefSig} {κ' : Kind} {sp' : Space}

/-- A buffer written once, whole, reads the payload. -/
theorem read_whole_piece (v : View sig' κ' sp' S128 .i32) (fo : v.ty.Contents (Elt F))
    (w : (Rect.whole S128).shape.Idx → BitVec 32) (j : S128.Idx) :
    v.read (Elt F) (v.writes (Elt F) fo [⟨Rect.whole S128, w⟩]) j = w j := by
  have h := View.read_writes_cons_emb v fo (Rect.whole S128) w [] j
  rwa [Rect.emb_whole_apply] at h

/-! ## The four rows' minimum is the four-fold minimum of the word array -/

/-- If row `k` of the first scratch holds the task's run `k` of the word array, the four rows' minimum at lane `j` is
    the four-fold minimum of the word array at the task's window `j`. -/
theorem fold4_eq_min4 (wd : IVec S16384 32) (L : grid0.Coords) (A : (aW).view.ty.Contents (Elt F))
    (hrow : ∀ (k : Fin 4) (n : Fin 128), (aW).view.read (Elt F) A (ix2 k n) = wd ((srcRect L k).emb (ix1 n)))
    (j : S128.Idx) : fold4 A j = KV.min4 wd ((dstRect L).emb j) := by
  have hidx : ∀ k : Fin 4, (srcRect L k).emb (ix1 (j 0))
      = ix1 (⟨4096 * k.val + (((dstRect L).emb j) 0).val, by have := k.isLt; have h : (((dstRect L).emb j) 0).val < 4096 := (((dstRect L).emb j) 0).isLt; omega⟩ : Fin 16384) := by
    intro k
    funext a
    obtain rfl : a = 0 := Subsingleton.elim _ _
    refine Fin.ext ?_
    show (k0_off1 L (BitVec.ofNat 32 (4096 * k.val))) 0 + 1 * (j 0).val = 4096 * k.val + ((k0_off7 L) 0 + 1 * (j 0).val)
    rw [k0_off1_eq L k, k0_off7_eq L]
    show 4096 * k.val + 256 * (L 1).val + 128 * (L 0).val + 1 * (j 0).val
      = 4096 * k.val + (256 * (L 1).val + 128 * (L 0).val + 1 * (j 0).val)
    omega
  unfold fold4 KV.min4 KV.wordAt
  refine congrArg₂ IntOp.minsi (congrArg₂ IntOp.minsi (congrArg₂ IntOp.minsi ?_ ?_) ?_) ?_
  · exact (hrow 0 _).trans (congrArg wd (hidx 0))
  · exact (hrow 1 _).trans (congrArg wd (hidx 1))
  · exact (hrow 2 _).trans (congrArg wd (hidx 2))
  · exact (hrow 3 _).trans (congrArg wd (hidx 3))

end Cert.Kernel.TileRows

end
-- ==== Proof.BitsTile.lean ====
/-
  One vector subcore's task. Subcore `(c, s)` works on the 128 windows from `256 s + 128 c`: it copies, for
  each group position `k < 4`, the 128 words from `4096 k + 256 s + 128 c` of the word array into row `k` of
  its first scratch, folds the four rows with the signed minimum sixteen lanes at a time into its second
  scratch, and copies that scratch to words `256 s + 128 c ..` of the result. Stated with the value: the
  result's slice ends at the four-fold minimum (`KV.min4`) of the word array, read at the slice.
-/
import proofs.«217849_g24850680775158_cont_8to1_1955_33_alg».proof.Proof.BitsSetup
import proofs.«217849_g24850680775158_cont_8to1_1955_33_alg».proof.Proof.BitsParts
import Idealize.ShloMosaic.Lib.Writes
import proofs.«217849_g24850680775158_cont_8to1_1955_33_alg».proof.Proof.BitsTileRows

noncomputable section

namespace Cert.Kernel.Tile

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

/-! ## The arrays and the scratches as a vector subcore's memrefs address them -/

local notation "wW" => (Memref.whole Cert.Kernel.main_v3_scv : Memref Cert.Kernel.sig Kind.scVector Space.hbm Cert.Kernel.S16384 EltTy.i32)
local notation "oW" => (Memref.whole Cert.Kernel.main_v4_scv : Memref Cert.Kernel.sig Kind.scVector Space.hbm Cert.Kernel.S4096 EltTy.i32)
local notation "aW" => (Memref.whole Cert.Kernel.cc0_scratch0 : Memref Cert.Kernel.sig Kind.scVector Space.vmem Cert.Kernel.S4x128 EltTy.i32)
local notation "bW" => (Memref.whole Cert.Kernel.cc0_scratch1 : Memref Cert.Kernel.sig Kind.scVector Space.vmem Cert.Kernel.S128 EltTy.i32)

/-- The subcore that runs the body at grid coordinates `L`. -/
abbrev cV (L : grid0.Coords) : Fin τ.nSC := (L 0).castLE hcore0
abbrev jV (L : grid0.Coords) : Fin τ.nSub := (L 1).castLE hsub0

open Cert.Kernel.Parts (srcRect dstRect coordsV)

abbrev srcSl (L : grid0.Coords) (k : Fin 4) : Memref sig .scVector .hbm S128 .i32 := (wW).slice (srcRect L k) (fun _ => rfl)
abbrev dstSl (L : grid0.Coords) : Memref sig .scVector .hbm S128 .i32 := (oW).slice (dstRect L) (fun _ => rfl)
/-- The four source slices, spelt as the body spells them (the same memrefs as `srcSl L k`). -/
abbrev srcSl0 (L : grid0.Coords) : Memref sig .scVector .hbm S128 .i32 := (wW).slice (Rect.unit (s := S16384) (k0_off1 L 0#32) S128.size (k0_off1_inb L 0)) (fun _ => rfl)
abbrev srcSl1 (L : grid0.Coords) : Memref sig .scVector .hbm S128 .i32 := (wW).slice (Rect.unit (s := S16384) (k0_off1 L 4096#32) S128.size (k0_off1_inb L 1)) (fun _ => rfl)
abbrev srcSl2 (L : grid0.Coords) : Memref sig .scVector .hbm S128 .i32 := (wW).slice (Rect.unit (s := S16384) (k0_off1 L 8192#32) S128.size (k0_off1_inb L 2)) (fun _ => rfl)
abbrev srcSl3 (L : grid0.Coords) : Memref sig .scVector .hbm S128 .i32 := (wW).slice (Rect.unit (s := S16384) (k0_off1 L 12288#32) S128.size (k0_off1_inb L 3)) (fun _ => rfl)
theorem srcSl_zero (L : grid0.Coords) : srcSl L 0 = srcSl0 L := rfl
theorem srcSl_one (L : grid0.Coords) : srcSl L 1 = srcSl1 L := rfl
theorem srcSl_two (L : grid0.Coords) : srcSl L 2 = srcSl2 L := rfl
theorem srcSl_three (L : grid0.Coords) : srcSl L 3 = srcSl3 L := rfl

/-- The semaphores of the task's five copies, in program order. -/
def semOf : Fin 5 → DmaSem sig
  | 0 => cc0_scoped0.sem | 1 => cc0_scoped1.sem | 2 => cc0_scoped2.sem | 3 => cc0_scoped3.sem | 4 => cc0_scoped4.sem

theorem semOf_scoped : ∀ j : Fin 5, (SemLoc.dma (semOf j) : SemLoc sig).isScoped .scVector = true := by decide
theorem semOf_inj : ∀ j j' : Fin 5, j ≠ j' → semOf j ≠ semOf j' := by decide

variable (m : (ℓ : Loc nD τ sig) → Buf (Elt F) ℓ)

/-- The word array as the host operations before the call leave it, from the launch memory's mask. -/
def words (d : Dev nD) : IVec S16384 32 := KV.maskWords (show IVec S4x4096 1 from m ((SparseCore.T d).loc main_arg1))

variable (d : Dev nD) (L : grid0.Coords)

/-- The five semaphores of the task's copies. -/
abbrev cell (j : Fin 5) : GSem nD τ sig := (V d (cV L) (jV L), .dma (semOf j))

/-- What the task is handed: its four slices of the word array at the launch's words, its slice of the result
    at anything; -/
def srcRes : sProp 𝕄 :=
  iprop(owns (V d (cV L) (jV L)) (srcSl0 L) fullShare (fun j => words m d ((srcRect L 0).emb j))
    ∗ owns (V d (cV L) (jV L)) (srcSl1 L) fullShare (fun j => words m d ((srcRect L 1).emb j))
    ∗ owns (V d (cV L) (jV L)) (srcSl2 L) fullShare (fun j => words m d ((srcRect L 2).emb j))
    ∗ owns (V d (cV L) (jV L)) (srcSl3 L) fullShare (fun j => words m d ((srcRect L 3).emb j)))
def goRes : sProp 𝕄 := iprop(srcRes m d L ∗ ∃ X, owns (V d (cV L) (jV L)) (dstSl L) fullShare X)
/-- and what it hands back: the same slices, the result's at the four-fold minimum. -/
def tdRes : sProp 𝕄 :=
  iprop(srcRes m d L ∗ owns (V d (cV L) (jV L)) (dstSl L) fullShare (fun j => KV.min4 (words m d) ((dstRect L).emb j)))

theorem ownSems0_V :
    (ownSems0 (V d (cV L) (jV L)) : sProp 𝕄)
      = iprop(semVal (cell d L 0) 0 ∗ semVal (cell d L 1) 0 ∗ semVal (cell d L 2) 0 ∗ semVal (cell d L 3) 0 ∗ semVal (cell d L 4) 0
          ∗ bigSep (((((ownCells (V d (cV L) (jV L))).erase (cell d L 0)).erase (cell d L 1)).erase (cell d L 2)).erase (cell d L 3) |>.erase (cell d L 4))
              fun g => semVal g 0) := by
  have hne : ∀ j j' : Fin 5, j ≠ j' → cell d L j ≠ cell d L j' := fun j j' h e =>
    semOf_inj j j' h (SemLoc.dma.inj (Prod.mk.inj e).2)
  have hmem (j : Fin 5) : cell d L j ∈ ownCells (V d (cV L) (jV L)) := (mem_ownCells (g := cell d L j)).mpr ⟨rfl, semOf_scoped j⟩
  unfold SparseCore.Cfg.ownSems0
  rw [SparseCore.bigSep_erase' (hmem 0),
    SparseCore.bigSep_erase' (Finset.mem_erase.mpr ⟨hne 1 0 (by decide), hmem 1⟩),
    SparseCore.bigSep_erase' (Finset.mem_erase.mpr ⟨hne 2 1 (by decide), Finset.mem_erase.mpr ⟨hne 2 0 (by decide), hmem 2⟩⟩),
    SparseCore.bigSep_erase' (Finset.mem_erase.mpr ⟨hne 3 2 (by decide), Finset.mem_erase.mpr ⟨hne 3 1 (by decide), Finset.mem_erase.mpr ⟨hne 3 0 (by decide), hmem 3⟩⟩⟩),
    SparseCore.bigSep_erase' (Finset.mem_erase.mpr ⟨hne 4 3 (by decide), Finset.mem_erase.mpr ⟨hne 4 2 (by decide), Finset.mem_erase.mpr ⟨hne 4 1 (by decide), Finset.mem_erase.mpr ⟨hne 4 0 (by decide), hmem 4⟩⟩⟩⟩)]

/-- The two scratches are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

set_option maxHeartbeats 1600000 in
theorem tile_body (hF : (K (F := F)).Facts) (O : CellTallies nD τ sig (HIx 1)) (W : Waits sig (HIx 1)) (hO : ∀ g, O g none = 0) :
    iprop(levAts (K (F := F)).L (K (F := F)).lev ∗ emp ∗ goRes m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_mask_body L wW (Memref.isWhole_whole _) oW (Memref.isWhole_whole _) aW (Memref.isWhole_whole _) bW (Memref.isWhole_whole _)
            cc0_scoped0 cc0_scoped1 cc0_scoped2 cc0_scoped3 cc0_scoped4)
          fun _ => iprop(tdRes m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_mask_body_eq_skeleton]; unfold cc0__sc_mask_body_skel
  rw [(K (F := F)).scopedBufs_V hF d (cV L) (jV L), SparseCore.Cfg.scopedSems0_V (Val := Elt F) d (cV L) (jV L), ownSems0_V, ownBufs_V]
  unfold goRes tdRes srcRes
  unfold owns
  iintro ⟨#Hlv, -, ⟨⟨⟨%f0, %hf0, H0⟩, ⟨%f1, %hf1, H1⟩, ⟨%f2, %hf2, H2⟩, ⟨%f3, %hf3, H3⟩⟩, ⟨%X, %fo, %hfo, Ho⟩⟩,
    ⟨⟨%fa, Ha⟩, ⟨%fb, Hb⟩, Hbufs⟩, ⟨Hs0, Hs1, Hs2, Hs3, Hs4, Hsems⟩, HO⟩
  ihave Hmw := ((K (F := F)).mayWaits_none (thr := V d (cV L) (jV L)) hO) $$ Hlv
  ihave Ha' := (Entails.of_eq (show ((V d (cV L) (jV L)).loc cc0_scratch0 ↦{fullShare} fa : sProp 𝕄) = ((aW).view.loc (V d (cV L) (jV L)) ↦{fullShare} fa) from rfl)) $$ Ha
  ihave Hb' := (Entails.of_eq (show ((V d (cV L) (jV L)).loc cc0_scratch1 ↦{fullShare} fb : sProp 𝕄) = ((bW).view.loc (V d (cV L) (jV L)) ↦{fullShare} fb) from rfl)) $$ Hb
  sl_exec
  sl_step
  isplitl [H0 H1 H2 H3 Ho]
  · isplitl [H0 H1 H2 H3]
    · isplitl [H0]
      · iexists f0; isplitr; · ipureintro; exact hf0
        iexact H0
      isplitl [H1]
      · iexists f1; isplitr; · ipureintro; exact hf1
        iexact H1
      isplitl [H2]
      · iexists f2; isplitr; · ipureintro; exact hf2
        iexact H2
      · iexists f3; isplitr; · ipureintro; exact hf3
        iexact H3
    · iexists _; isplitr
      swap; · iexact Ho
      ipureintro
      sl_unfold_run_names
      generalize hA : View.write (Elt F) (TileRows.rowV 3 inb_S4x128_S1x128_3_0 squeezes_S1x128_S128) (View.write (Elt F) (TileRows.rowV 2 inb_S4x128_S1x128_2_0 squeezes_S1x128_S128) (View.write (Elt F) (TileRows.rowV 1 inb_S4x128_S1x128_1_0 squeezes_S1x128_S128) (View.write (Elt F) (TileRows.rowV 0 inb_S4x128_S1x128_0_0 squeezes_S1x128_S128) fa _ Finset.univ) _ Finset.univ) _ Finset.univ) _ Finset.univ = A
      have hrow : ∀ (k : Fin 4) (n : Fin 128),
          (aW).view.read (Elt F) A (ValueIdx.ix2 k n) = words m d ((srcRect L k).emb (ValueIdx.ix1 n)) := by
        intro k n
        rw [← hA]
        refine (TileRows.rows_read fa _ _ _ _ _ _ _ _ _ _ _ _ k n).trans ?_
        match k with
        | 0 => exact congrFun hf0 (ValueIdx.ix1 n)
        | 1 => exact congrFun hf1 (ValueIdx.ix1 n)
        | 2 => exact congrFun hf2 (ValueIdx.ix1 n)
        | 3 => exact congrFun hf3 (ValueIdx.ix1 n)
      clear hA
      funext j
      refine (TileRows.read_whole_piece _ fo _ j).trans ?_
      refine (TileRows.read_chunks A fb _ ?hG ?hcov j).trans (TileRows.fold4_eq_min4 (words m d) L A hrow j)
      case hcov => exact View.cover_of_tiled _ S16.size rfl
      case hG =>
        intro p hp
        simp only [List.mem_cons, List.not_mem_nil, or_false] at hp
        rcases hp with rfl | rfl | rfl | rfl | rfl | rfl | rfl | rfl <;>
          exact fun x => TileRows.chunk_val A _ _ _ _ _ _ _ (by decide) x
  isplitl [Ha' Hb' Hbufs]
  · isplitl [Ha']; · iexists _; iexact Ha'
    isplitl [Hb']; · iexists _; iexact Hb'
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap; · iexact HO
  ipureintro
  intro p hp
  simp only [Finset.mem_insert] at hp
  rcases hp with rfl | rfl | rfl | rfl | rfl | hp
  · exact .inr rfl
  · exact .inr rfl
  · exact .inr rfl
  · exact .inr rfl
  · exact .inr rfl
  · exact .inl hp

end Cert.Kernel.Tile

end
-- ==== Proof.BitsPay.lean ====
/-
  What the one SparseCore call carries. The TensorCore hands each SparseCore of the grid its sixteen subcores'
  shares of the word array and of the result (`Tile.goRes`), each sequencer hands every task its own, and the
  same come back with the result's slices at the four-fold minimum (`Tile.tdRes`). The subcores' copies are
  local and waited for at once: nothing is owed for a protocol of the kernel's own.
-/
import proofs.«217849_g24850680775158_cont_8to1_1955_33_alg».proof.Proof.BitsTile

noncomputable section

namespace Cert.Kernel.Pay

open Cert.Kernel Cert.Kernel.Gen Cert.Kernel.Setup
open Cert.Kernel.Parts (coordsV)
open Cert.Kernel.Tile (goRes tdRes cV jV)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ)

theorem nCore_eq (q : Fin 1) : (K (F := F)).nCore q = grid0.bound 0 := match q with | 0 => rfl
theorem nSub_eq (q : Fin 1) : (K (F := F)).nSub q = grid0.bound 1 := match q with | 0 => rfl

/-- The grid coordinates of task `i` of SparseCore `c` of the call. -/
def coords (q : Fin 1) (c : Fin ((K (F := F)).nCore q)) (i : Fin ((K (F := F)).nSub q)) : grid0.Coords :=
  coordsV (Fin.cast (nCore_eq q) c) (Fin.cast (nSub_eq q) i)

/-- The call's payloads. -/
def P : (K (F := F)).Pay (nD := nD) (Val := Elt F) (Name := ℕ) (U := UU) where
  st := fun q d c => bigSep Finset.univ fun i : Fin ((K (F := F)).nSub q) => goRes m d (coords q c i)
  dn := fun q d c => bigSep Finset.univ fun i : Fin ((K (F := F)).nSub q) => tdRes m d (coords q c i)
  go := fun q d c i => goRes m d (coords q c i)
  td := fun q d c i => tdRes m d (coords q c i)
  x := fun _ _ => iprop(emp)

theorem P_st (q : Fin 1) (d : Dev nD) (c : Fin ((K (F := F)).nCore q)) :
    (P m).st q d c = bigSep Finset.univ fun i : Fin ((K (F := F)).nSub q) => goRes m d (coords q c i) := rfl
theorem P_dn (q : Fin 1) (d : Dev nD) (c : Fin ((K (F := F)).nCore q)) :
    (P m).dn q d c = bigSep Finset.univ fun i : Fin ((K (F := F)).nSub q) => tdRes m d (coords q c i) := rfl
theorem P_go (q : Fin 1) (d : Dev nD) (c : Fin ((K (F := F)).nCore q)) (i : Fin ((K (F := F)).nSub q)) :
    (P m).go q d c i = goRes m d (coords q c i) := rfl
theorem P_td (q : Fin 1) (d : Dev nD) (c : Fin ((K (F := F)).nCore q)) (i : Fin ((K (F := F)).nSub q)) :
    (P m).td q d c i = tdRes m d (coords q c i) := rfl
theorem P_ox : (P m).ox = fun _ _ => 0 := rfl

instance goRes_storable (d : Dev nD) (L : grid0.Coords) : BI.Storable (upEmb : UEmb _ 𝕄) (goRes m d L) := by
  unfold Tile.goRes Tile.srcRes; infer_instance
instance tdRes_storable (d : Dev nD) (L : grid0.Coords) : BI.Storable (upEmb : UEmb _ 𝕄) (tdRes m d L) := by
  unfold Tile.tdRes Tile.srcRes; infer_instance

instance P_storable : (P (F := F) m).IsStorable where
  st q d c := by rw [P_st]; infer_instance
  dn q d c := by rw [P_dn]; infer_instance
  go q d c i := by rw [P_go]; infer_instance
  td q d c i := by rw [P_td]; infer_instance

variable [FloatOps F]

/-! ## The launch theorem's obligations -/

theorem defs₀_vector (c : Fin τ.nSC) (s : Fin τ.nSub) :
    defs₀ (F := F) (.scVector c s) 0 ()
      = SparseCore.onTile hcore0 hsub0 (fun c s => cc0__sc_mask_body (fun | 0 => c | 1 => s | ⟨_ + 2, h⟩ => absurd h (Nat.not_lt.2 (Nat.le_add_left _ _)))
          (Memref.whole main_v3_scv) (Memref.isWhole_whole _) (Memref.whole main_v4_scv) (Memref.isWhole_whole _)
          (Memref.whole cc0_scratch0) (Memref.isWhole_whole _) (Memref.whole cc0_scratch1) (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  rw [P_ox, P_go, P_td]
  simp only [add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (Tile.tile_body m d (coords 0 c i) hF O W hO).trans (wp_mono frame _ _ fun _ => obl_post)

theorem vecSplit : (K (F := F)).VecSplit' (P m) 0 := by
  intro d c
  rw [P_st, P_dn]
  simp only [P_go, P_td]
  iintro H; imodintro
  isplitl [H]; · iexact H
  iintro H; iexact H

end Cert.Kernel.Pay

end
-- ==== Proof.BitsLaunch.lean ====
/-
  The program's run. The launch theorem for SparseCore programs at this program: the one vector-subcore call
  (`Pay.tileObl`, `Pay.vecSplit`), the launch element (the handshakes' rounds, the TensorCore pipeline's
  staging rounds, the copies' counters), @main on the TensorCore (`Main.hmain`), and how the final memory
  reads the claim: both arguments unchanged, the pooled array `KV.pooled` of the first, the pooled mask
  `KV.maskVal` of the second.
-/
import proofs.«217849_g24850680775158_cont_8to1_1955_33_alg».proof.Proof.BitsPay

noncomputable section

namespace Cert.Kernel.Launch

open Cert.Kernel Cert.Kernel.Gen Cert.Kernel.Setup
open Cert.Kernel.Pay (P)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ) (ρ : Dev nD → PrngReg)

/-! ## The launch element -/

/-- The pipeline's staging rounds on device `d`: what @main's proof enters the pallas_call with. -/
abbrev G (d : Dev nD) : sProp 𝕄 := iprop(Pipeline.cellsGhost cfgs EP 0 d ∗ Pipeline.toksInit cfgs EP 0 d)

/-- The handshakes' rounds at the library's cells, the pipeline's at its staging cells, the counters at one. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  have hfund : (BI.own (((Emb.inl : Emb UP (UP × Counters)).trans embR)
        (initOf (Pipeline.cells (nD := nD) (τ := τ) cfgs cellOf_inj) (Pipeline.launchToks (nD := nD) (τ := τ) cfgs cellOf_inj))) : sProp 𝕄)
      ⊢ iprop(|==> ((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄)))) :=
    Pipeline.fund_ghost cfgs (EP (F := F)) cellOf_inj
  imod hfund $$ HP with ⟨Hg, Ht⟩
  imodintro
  isplitl [HH]; · iexact HH
  isplitl [Hg Ht]
  · rw [bigSep_sep']
    isplitl [Hg]
    · iapply (Entails.of_eq (bigSep_congr (s := (Finset.univ : Finset (Dev nD))) fun d _ =>
        (bigSep_univ_of_subsingleton (Φ := fun p : Fin 1 => Pipeline.cellsGhost cfgs (EP (F := F)) p d) (0 : Fin 1)))); iexact Hg
    · iapply (Entails.of_eq (bigSep_congr (s := (Finset.univ : Finset (Dev nD))) fun d _ =>
        (bigSep_univ_of_subsingleton (Φ := fun p : Fin 1 => (Pipeline.toksInit cfgs (EP (F := F)) p d : sProp 𝕄)) (0 : Fin 1)))); iexact Ht
  have hx : ∀ (q : Fin 1) (thr : Thread nD τ), (P m).x q thr = (iprop(emp) : sProp 𝕄) := fun _ _ => rfl
  rw [show (bigSep Finset.univ fun thr : Thread nD τ => bigSep Finset.univ fun q : Fin 1 => (P m).x q thr) = (iprop(emp) : sProp 𝕄) from by
    simp only [hx]
    rw [bigSep_congr (Ψ := fun _ => (iprop(emp) : sProp 𝕄)) fun thr _ => bigSep_emp' _, bigSep_emp']]
  iempintro

/-! ## What @main leaves the claim, and how the final memory reads it -/

abbrev a0Loc (d : Dev nD) : Loc nD τ sig := (SparseCore.T d).loc main_arg0
abbrev a1Loc (d : Dev nD) : Loc nD τ sig := (SparseCore.T d).loc main_arg1
abbrev v5Loc (d : Dev nD) : Loc nD τ sig := (SparseCore.T d).loc main_v5
abbrev v9Loc (d : Dev nD) : Loc nD τ sig := (SparseCore.T d).loc main_v9

variable [FloatOps F]

/-- The pooled array and the pooled mask of the launch memory's arguments. -/
def pooledOf (d : Dev nD) : Buf (Elt F) (v5Loc d) := KV.pooled (F := F) (show Vec F S4x4096x1024 .f32 from m (a0Loc d))
def maskOf (d : Dev nD) : Buf (Elt F) (v9Loc d) := KV.maskVal (show IVec S4x4096 1 from m (a1Loc d))

/-- What @main leaves: both arguments at their launch contents, the two results at the kernel's functions of them. -/
def FIN (d : Dev nD) : sProp 𝕄 :=
  iprop((a0Loc d ↦{fullShare} m (a0Loc d)) ∗ (a1Loc d ↦{fullShare} m (a1Loc d))
    ∗ (v5Loc d ↦{fullShare} pooledOf m d) ∗ (v9Loc d ↦{fullShare} maskOf m d))

def fq (d : Dev nD) (s' : Phys nD τ sig (Elt F)) : Prop :=
  s'.mem.mem (v5Loc d) = pooledOf m d ∧ s'.mem.mem (v9Loc d) = maskOf m d
    ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  unfold FIN
  iintro ⟨⟨H0, H1, H5, H9⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := v5Loc d) (I := Finset.univ) (q := fullShare) (f := pooledOf m d))) $$ [HSI H5]
  · isplitl [HSI] <;> iassumption
  icases H with ⟨%h5, HSI, -⟩
  ihave H := (SI_pointsTo_agree (st := s') (ℓ := v9Loc d) (I := Finset.univ) (q := fullShare) (f := maskOf m d)) $$ [HSI H9]
  · isplitl [HSI] <;> iassumption
  icases H with %h9
  ipureintro
  exact ⟨funext fun i => h5 i (Finset.mem_univ i), funext fun i => h9 i (Finset.mem_univ i),
    funext fun i => h0 i (Finset.mem_univ i), funext fun i => h1 i (Finset.mem_univ i)⟩

/-- The physical post: on every device the results hold the kernel's functions of the arguments, which are unchanged. -/
def QC : PUnit × MemSt nD τ sig (Elt F) → Prop := fun r => ∀ c : Dev nD,
  r.2.mem (v5Loc c) = pooledOf m c ∧ r.2.mem (v9Loc c) = maskOf m c ∧ r.2.mem (a0Loc c) = m (a0Loc c) ∧ r.2.mem (a1Loc c) = m (a1Loc c)

/-- The run, from @main's proof. -/
theorem run_of [∀ e, Nonempty (Elt F e)]
    (hmain : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => Pay.tileObl m facts)
    (fun q _ => match q with | 0 => SparseCore.Cfg.VecSplit.of_plain (Pay.vecSplit m))
    m ρ main (G (F := F)) (FIN m) (u₀ (F := F)) (sep_elim_left.trans (hu₀ m)) hmain (fq m) (hfin m) (QC m) (fun _ h => h)

end Cert.Kernel.Launch

end
-- ==== Proof.BitsTcBody.lean ====
/-
  The pallas_call's body on the TensorCore, run once on whole staging buffers.

  The body loads its input buffer whole (one batch: 4096 rows of 1024 features), forms the 1024 pooled rows
  `((x[4r] + x[4r+1]) + (x[4r+2] + x[4r+3])) * 0.25` as one pure term of what it loaded (the skeleton's
  payload `k1_pay1`), loads the output buffer (a value it never uses) and stores the pooled rows over the
  whole output buffer. So whatever the output buffer held, after the body it holds the payload of the input
  buffer's contents, and the input buffer is as it was: `bodyOut` names those contents as the canonical
  reading of the body's one covering store, and `sound_kernel` is the body's triple, at any float instance.
-/
import proofs.«217849_g24850680775158_cont_8to1_1955_33_alg».proof.Proof.BitsSetup
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen Cert.Kernel.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The zero offsets of the body's two accesses, as a constant function. -/
theorem hz3 : (![0, 0, 0] : Fin 3 → Nat) = fun _ => 0 := funext fun a => by fin_cases a <;> rfl

/-- The rectangle the body loads its input buffer through: the whole block. -/
abbrev rIn : Rect S1x4096x1024 := Rect.unit (s := S1x4096x1024) ![0, 0, 0] S1x4096x1024.size inb_S1x4096x1024_S1x4096x1024_0_0_0
/-- The rectangle it stores its output buffer through: the whole block. -/
abbrev rOut : Rect S1x1024x1024 := Rect.unit (s := S1x1024x1024) ![0, 0, 0] S1x1024x1024.size inb_S1x1024x1024_S1x1024x1024_0_0_0

/-- What the body leaves in the output buffer, from the input buffer's contents: its one store, as a piece. -/
def bodyOut (x0 : Vec F S1x4096x1024 .f32) : Vec F S1x1024x1024 .f32 :=
  View.canon [⟨rOut, k1_pay1 (View.ld x0 rIn)⟩]

/-- The store covers the buffer: its rectangle is the whole block. -/
theorem bodyOut_cover (p0 : Vec F S1x1024x1024 .f32) (y : S1x1024x1024.Idx) :
    ∃ pc ∈ ([⟨rOut, p0⟩] : List (View.Piece (Elt F) S1x1024x1024 .f32)), y ∈ pc.1.set :=
  ⟨_, List.mem_singleton_self _, View.mem_set_unit_zero hz3 inb_S1x1024x1024_S1x1024x1024_0_0_0 y⟩

/-- So the output buffer ends holding the payload of the input buffer's contents. -/
theorem bodyOut_eq (x0 : Vec F S1x4096x1024 .f32) : bodyOut x0 = k1_pay1 x0 := by
  unfold bodyOut
  rw [View.canon_unit_zero hz3, View.ld_unit_zero (S := S1x4096x1024) hz3]

set_option maxHeartbeats 1000000 in
/-- The body on whole staging memrefs, the input's at read contents `x0` and the output's at anything, runs to
    the continuation holding the input's as it was and the output's at `bodyOut x0`. -/
theorem sound_kernel (c : Dev nD) (E : Set ℕ) (i : grid1.Coords)
    (arg2 : Memref sig .tc .vmem S1x4096x1024 .f32) (harg2 : arg2.IsWhole)
    (arg3 : Memref sig .tc .vmem S1x1024x1024 .f32) (harg3 : arg3.IsWhole)
    (x0 : Vec F S1x4096x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (bodyOut x0)) -∗ K ⟨⟩))
      ⊢ wp frame (wpE (defs₀ (F := F)) Variants.none c none) E (cc1__tc_body i arg2 harg2 arg3 harg3) K := by
  simp only [cc1__tc_body_eq_skeleton]; unfold cc1__tc_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (bodyOut_cover _)

end Cert.Kernel.Tc

end
-- ==== Proof.BitsTcData.lean ====
/-
  The pipeline's proof data on the TensorCore, and the body obligation.

  The pallas_call is a pipeline over a grid of four points, one per batch, with two windows: window 0 stages
  the input array's block at the point (one batch, 4096 rows) and window 1 the result's (one batch, 1024 rows).
  The proof data say, for arrays found at any contents `V` when the region is entered: the input window's
  buffer holds its array's block at the point, fetched there or not, and the body leaves it so; the output
  window's buffer holds, after the body, the body's function `bodyOut` of that block. Between points the body
  keeps nothing: the invariant is the scoped buffers that are no staging buffer (there are none). The core
  owes nothing, and the pairs its waits have recorded stay at or below the level the region was entered under.
-/
import proofs.«217849_g24850680775158_cont_8to1_1955_33_alg».proof.Proof.BitsTcBody

set_option maxRecDepth 16384

noncomputable section

namespace Cert.Kernel.Tc

open Cert.Kernel Cert.Kernel.Gen Cert.Kernel.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : (c : Dev nD) → (b : Ref sig .tc) → Buf (Elt F) ((c.tc : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The proof data -/

/-- The (own cell, index) pairs the core's waits may have recorded when the region is entered, and after it:
    those at or below level 8. -/
def recd (F : FTy → Type) (c : Dev nD) : Set (SemLoc sig × HIx 1) := {p | (K (F := F)).lev ((c.tc : Thread nD τ), p.1) p.2 ≤ 8}

/-- The proof data of the one pipeline on core `c`: the arrays as the region finds them; after the body at point `t`
    the input's buffer at its block and the output's at `bodyOut` of that block; the invariant the scoped buffers
    that are no staging buffer; nothing owed, the recorded pairs at or below level 8; full shares. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => bodyOut (iblk V c 0 t)
  Φ _ := Pipeline.scopedRest (Ix := HIx 1) (Name := ℕ) (U := UU) (Lvl := ℕ) (Val := Elt F) spec1 c
  q _ := fullShare
  owed _ := 0
  recorded _ := recd F c

/-- The proof data's arrays are the region-entry contents. -/
theorem A_eq (c : Dev nD) (w : Fin cfg1.W) : (dats V 0 c).A w = V c (Pipeline.arrRef spec1 w) := by
  dsimp only [dats]

/-- What the body leaves, window by window. -/
theorem after1_0 (c : Dev nD) (t : Fin cfg1.N) : (dats V 0 c).after 0 t = iblk V c 0 t := by dsimp only [dats]
theorem after1_1 (c : Dev nD) (t : Fin cfg1.N) : (dats V 0 c).after 1 t = bodyOut (iblk V c 0 t) := by dsimp only [dats]

/-- The input's current staging buffer holds its block at every point, fetched there or not. -/
theorem before1_0 (c : Dev nD) (t : Fin cfg1.N) (d) : (dats V 0 c).before 0 t d = iblk V c 0 t :=
  ((dats V 0 c).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d)))

/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t))

/-- The body at any point: the input's memref holds its block, so `sound_kernel` applies; the invariant and the
    core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0]
  rw [show (dats V 0 c).Φ t.succ = (dats V 0 c).Φ t.castSucc from rfl,
    show (dats V 0 c).owesAt none t.succ = (dats V 0 c).owesAt none t.castSucc from rfl,
    after1_0, after1_1]
  iintro ⟨HΦ, Ho, ⟨%d0, H0⟩, ⟨%d1, H1⟩⟩
  iapply (sound_kernel c Set.univ _ _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) V 0 c) (defs₀ (F := F)) Variants.none none Set.univ := fun t => by
  rw [bigSep_W1, bigSep_W1]
  exact sound_body V c t

end Cert.Kernel.Tc

end
-- ==== Proof.BitsTcValue.lean ====
/-
  The value of the pallas_call: the result array after the region is the pooled input.

  Grid point `t` is batch `t`: the input window's block there is batch `t` of the input array (all 4096
  rows and 1024 features of it) and the output window's block is batch `t` of the result (all 1024 rows). What
  point `t` writes back is the body's payload of the input block, and `KV.pooled` is, batch by batch, that
  payload of the batch's slab: so what point `t` writes back is block `t` of `KV.pooled` of the input array.
  The four output blocks tile the result array (an index lies in the block of its batch), so after the last
  point the result array is `KV.pooled` of the input array; the input array is never written back.
-/
import proofs.«217849_g24850680775158_cont_8to1_1955_33_alg».proof.Proof.BitsTcData
import proofs.«217849_g24850680775158_cont_8to1_1955_33_alg».proof.Proof.BitsKV
import Idealize.ShloMosaic.Lib.Pipeline.Value

set_option maxRecDepth 16384

noncomputable section

namespace Cert.Kernel.Tc

open Cert.Kernel Cert.Kernel.Gen Cert.Kernel.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

open Idealize.ShloMosaic.ValueIdx

variable (V : (c : Dev nD) → (b : Ref sig .tc) → Buf (Elt F) ((c.tc : Thread nD τ).loc b))

/-- What point `t` writes back to the result array: the body's result, read through the window's block. -/
theorem flushed1 (c : Dev nD) (t : Fin cfg1.N) :
    (dats V 0 c).flushed 1 t = (cfg1.win 1).cut (grid1.coords t) (bodyOut (iblk V c 0 t)) := by
  show (cfg1.win 1).cut (grid1.coords t) ((dats V 0 c).after 1 t) = _
  rw [after1_1]

/-- The printed index maps, decided over the grid: both windows' blocks sit at the same batch, at row block and
    feature block zero, and the batch is one of the four. -/
theorem idx_facts : ∀ t : Fin cfg1.N, win1_0.index t (0 : Fin 3) = win1_1.index t (0 : Fin 3)
    ∧ win1_0.index t (1 : Fin 3) = 0 ∧ win1_0.index t (2 : Fin 3) = 0
    ∧ win1_1.index t (1 : Fin 3) = 0 ∧ win1_1.index t (2 : Fin 3) = 0
    ∧ win1_1.index t (0 : Fin 3) ≤ 3 :=
  (by decide +kernel : ∀ t : Fin grid1.N, _)

/-- Every batch is some point's. -/
theorem idx_onto : ∀ (q : Fin 4), ∃ t : Fin cfg1.N, win1_1.index t = ![q.val, 0, 0] :=
  (by decide +kernel : ∀ (q : Fin 4), ∃ t : Fin grid1.N, win1_1.index t = ![q.val, 0, 0])

/-- WHAT POINT `t` WRITES BACK is block `t` of the pooled input array. -/
theorem flushed_eq (c : Dev nD) (t : Fin cfg1.N) :
    (dats V 0 c).flushed 1 t = ((cfg1.win 1).blk t).view.read (Elt F) (KV.pooled (V c main_arg0)) := by
  rw [flushed1, bodyOut_eq]
  obtain ⟨e0, e1, e2, e3, e4, e5⟩ := idx_facts t
  funext j
  show k1_pay1 (iblk V c 0 t) j = KV.pooled (V c main_arg0) (((cfg1.win 1).blk t).view.emb j)
  unfold KV.pooled
  have hj0 : (j 0).val < 1 := (j 0).isLt
  have hs : (iblk V c 0 t : Vec F S1x4096x1024 .f32) = KV.slab (V c main_arg0) ((((cfg1.win 1).blk t).view.emb j) 0) := by
    funext y
    have hy0 : (y 0).val < 1 := (y 0).isLt
    show V c main_arg0 (((cfg1.win 0).blk t).view.emb y) = V c main_arg0 (ix3 ((((cfg1.win 1).blk t).view.emb j) 0) (y 1) (y 2))
    refine congrArg _ ?_
    funext a; apply Fin.ext
    match a with
    | ⟨0, _⟩ => show win1_0.index t (0 : Fin 3) * 1 + 1 * (y 0).val = win1_1.index t (0 : Fin 3) * 1 + 1 * (j 0).val; omega
    | ⟨1, _⟩ => show win1_0.index t (1 : Fin 3) * 4096 + 1 * (y 1).val = (y 1).val; omega
    | ⟨2, _⟩ => show win1_0.index t (2 : Fin 3) * 1024 + 1 * (y 2).val = (y 2).val; omega
  have hj : j = ix3 (0 : Fin 1) ((((cfg1.win 1).blk t).view.emb j) 1) ((((cfg1.win 1).blk t).view.emb j) 2) := by
    funext a; apply Fin.ext
    match a with
    | ⟨0, _⟩ => show (j 0).val = 0; omega
    | ⟨1, _⟩ => show (j 1).val = win1_1.index t (1 : Fin 3) * 1024 + 1 * (j 1).val; omega
    | ⟨2, _⟩ => show (j 2).val = win1_1.index t (2 : Fin 3) * 1024 + 1 * (j 2).val; omega
  rw [hs]
  exact congrArg _ hj

/-- An index of the result array is in point `t`'s block iff each coordinate is in the block's range on its axis. -/
theorem mem_blk (t : Fin cfg1.N) (i : S4x1024x1024.Idx) :
    i ∈ ((cfg1.win 1).blk t).view.set ↔ ∀ a : Fin 3, win1_1.index t a * S1x1024x1024.size a ≤ (i a).val ∧ (i a).val < win1_1.index t a * S1x1024x1024.size a + S1x1024x1024.size a := by
  show i ∈ ((View.whole main_v5).slice (win1_1.rect t)).set ↔ _
  rw [View.set_slice_whole, Rect.mem_set_unit]
  exact Iff.rfl

/-- The blocks tile the result array: an index lies in the block of the point of its batch. -/
theorem cover (i : S4x1024x1024.Idx) : ∃ t : Fin cfg1.N, (cfg1.win 1).flush t = true ∧ i ∈ ((cfg1.win 1).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩
  have q0 : win1_1.index t (0 : Fin 3) = (i 0).val := congrFun ht 0
  have q1 : win1_1.index t (1 : Fin 3) = 0 := congrFun ht 1
  have q2 : win1_1.index t (2 : Fin 3) = 0 := congrFun ht 2
  refine ⟨t, flush1_1 t, ?_⟩
  rw [mem_blk]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 1024 ≤ (i 1).val ∧ (i 1).val < win1_1.index t (1 : Fin 3) * 1024 + 1024; omega
  | ⟨2, _⟩ => show win1_1.index t (2 : Fin 3) * 1024 ≤ (i 2).val ∧ (i 2).val < win1_1.index t (2 : Fin 3) * 1024 + 1024; omega

/-- THE RESULT ARRAY after the region: the pooled input array. -/
theorem pooled_final (c : Dev nD) : (dats V 0 c).arrAt 1 cfg1.N = KV.pooled (V c main_arg0) :=
  (dats V 0 c).arrAt_eq_of_cover 1 _ (fun t _ => flushed_eq V c t) cover

/-- The input array is only staged, never written back: it is as the region found it, at every point. -/
theorem kept_input (c : Dev nD) (n : Nat) : (dats V 0 c).arrAt 0 n = V c main_arg0 :=
  ((dats V 0 c).arrAt_in 0 rfl n).trans (A_eq V c 0)

end Cert.Kernel.Tc

end
-- ==== Proof.BitsTcRegion.lean ====
/-
  The pallas_call as a region of @main.

  The region is entered holding the TensorCore's unscoped arrays at some contents `V`, the core owing nothing
  with its recorded waits at or below level 8, and the generator register; it is left holding the arrays at the
  same contents except the result array, which holds the pooled input, the core again owing nothing under the
  same bound, and the register untouched. Inside: the two windows' arrays (input and result) go to the pipeline,
  every other array and the register bypass it; the pipeline's own waits are recorded at the index of a
  kernel's own waits, whose level is zero, so the bound on the recorded waits is kept. The theorem
  `tc_region` states this for the program point `customCall (entry 0)` under any continuation.
-/
import proofs.«217849_g24850680775158_cont_8to1_1955_33_alg».proof.Proof.BitsTcValue

set_option maxRecDepth 16384

noncomputable section

namespace Cert.Kernel.Tc

open Cert.Kernel Cert.Kernel.Gen Cert.Kernel.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The prefetched tables' admissible contents: the pipeline has no table. -/
abbrev adm : (p : Fin 1) → (pcfgs (F := F) p).Adm := fun p => (cfgs p).toPCfg_adm

/-- The levels the launch assigns: every index of every cell, at the handshakes' levels. -/
abbrev LL : GSem nD τ sig → Finset (HIx 1) := (K (F := F)).L
abbrev lv : GSem nD τ sig → HIx 1 → ℕ := (K (F := F)).lev

variable (V : (c : Dev nD) → (b : Ref sig .tc) → Buf (Elt F) ((c.tc : Thread nD τ).loc b)) (G : Dev nD → PrngReg)

/-! ## The core's `owes` at the region's ends -/

/-- Entering: the core owes nothing and its recorded pairs are at or below level 8, which is the proof data's bound. -/
theorem owesAt_intro (c : Dev nD) (t : Fin (cfg1.N + 1)) : (tcOwes c : sProp 𝕄) ⊢ (dats V 0 c).owesAt none t := by
  unfold tcOwes Pipeline.Dat.owesAt Pipeline.owesWithin Pipeline.Dat.bound
  rw [show (dats V 0 c).owed t = 0 from rfl, show (dats V 0 c).recorded t = recd F c from rfl]
  iintro ⟨%W, %hW, HO⟩
  iexists W
  isplitr
  · ipureintro; exact fun p hp => Or.inl (hW p (Finset.mem_coe.mp hp))
  iexact HO

/-- Leaving: a recorded pair is one recorded before, or one of the pipeline's own waits, at the index of a kernel's own
    waits, whose level is zero. -/
theorem owesAt_elim (c : Dev nD) (t : Fin (cfg1.N + 1)) : ((dats V 0 c).owesAt none t : sProp 𝕄) ⊢ tcOwes c := by
  unfold tcOwes Pipeline.Dat.owesAt Pipeline.owesWithin Pipeline.Dat.bound
  rw [show (dats V 0 c).owed t = 0 from rfl, show (dats V 0 c).recorded t = recd F c from rfl]
  iintro ⟨%W, %hW, HO⟩
  iexists W
  isplitr
  · ipureintro
    intro p hp
    rcases hW (Finset.mem_coe.mpr hp) with h | ⟨w, s, rfl⟩
    · exact h
    · exact Nat.zero_le _
  iexact HO

/-! ## The arrays at the region's exit -/

/-- The windows' arrays at their final contents and the other arrays as found are the unscoped arrays at the
    contents found with the result array at the pooled input. -/
theorem rebuild (c : Dev nD) :
    iprop((dats V 0 c).arrays ((dats V 0 c).arrAt · cfg1.N) ∗ Pipeline.unscopedRest (Ix := HIx 1) (Name := ℕ) (U := UU) (Lvl := ℕ) spec1 c (V c))
      ⊢ (unscopedBufs c (afterPool c (V c)) : sProp 𝕄) := by
  rw [Pipeline.unscopedBufs_split (Pipeline.pin (pcfgs (F := F)) adm) 0 launch1.win.arr_unscoped launch1.win.arr_inj c (afterPool c (V c)),
    Pipeline.arrays_eq (Pipeline.pin (pcfgs (F := F)) adm) (dats V) 0 c launch1.arr_whole ((dats V 0 c).share_full fun _ => rfl)]
  refine sep_mono (Entails.of_eq (bigSep_congr fun w _ => ?_)) (Entails.of_eq ?_)
  · match w with
    | ⟨0, _⟩ =>
      show ((((c.tc : Thread nD τ).loc main_arg0) ↦{fullShare} (dats V 0 c).arrAt 0 cfg1.N : sProp 𝕄)) = (((c.tc : Thread nD τ).loc main_arg0) ↦{fullShare} afterPool c (V c) main_arg0)
      rw [kept_input V c, show afterPool c (V c) main_arg0 = V c main_arg0 from Function.update_of_ne (by decide) _ _]
    | ⟨1, _⟩ =>
      show ((((c.tc : Thread nD τ).loc main_v5) ↦{fullShare} (dats V 0 c).arrAt 1 cfg1.N : sProp 𝕄)) = (((c.tc : Thread nD τ).loc main_v5) ↦{fullShare} afterPool c (V c) main_v5)
      rw [pooled_final V c, show afterPool c (V c) main_v5 = KV.pooled (V c main_arg0) from Function.update_self _ _ _]
  · unfold Pipeline.unscopedRest
    exact bigSep_congr fun b hb => by
      rw [show afterPool c (V c) b = V c b from Function.update_of_ne
        (fun h => (Finset.mem_sdiff.mp hb).2 (Finset.mem_image.mpr ⟨1, Finset.mem_univ _, h.symm⟩)) _ _]

/-! ## The region -/

set_option backward.isDefEq.respectTransparency.types false in
/-- THE REGION: the launch's layout, no semaphore of the kernel's own, the body obligation; entered from the
    unscoped arrays at `V` — the input and result arrays into the pipeline, everything else bypassing —, left with
    the result array at the pooled input. -/
def reg : Pipeline.RegionSeg (pcfgs (F := F)) adm (dats V) none defs₀ 𝒱₀ (LL (F := F)) (lv (F := F)) 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (LL (F := F)) (lv (F := F)) 0 fun _ _ => rfl
  pre c := iprop(unscopedBufs c (V c) ∗ tcOwes c ∗ prngReg c (G c))
  post c := iprop(unscopedBufs c (afterPool c (V c)) ∗ tcOwes c ∗ prngReg c (G c))
  X _ := iprop(emp)
  Y _ := iprop(emp)
  Z c := iprop(Pipeline.unscopedRest (Ix := HIx 1) (Name := ℕ) (U := UU) (Lvl := ℕ) spec1 c (V c) ∗ prngReg c (G c))
  hentry c := by
    rw [Pipeline.ownSems0_none]
    have hsplit := Pipeline.arrays_of_unscopedBufs (pcfgs (F := F)) adm (dats V) launch1.win launch1.arr_whole c
      ((dats V 0 c).share_full fun _ => rfl) (V c) fun _ => rfl
    iintro ⟨⟨Hub, HO, Hg⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iapply (owesAt_intro V c 0); iexact HO
    isplitr; · iempintro
    isplitl [Hr]; · iexact Hr
    iexact Hg
  hin c := by
    rw [show (dats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (dats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, Hr, Hg⟩
    imodintro
    isplitl [Ha Hr]
    · iapply (rebuild V c); isplitl [Ha] <;> iassumption
    isplitl [HO]; · iapply (owesAt_elim V c _); iexact HO
    iexact Hg

/-! ## The region under any continuation -/

/-- The valuations of every core that are `Vm` on core `c` (the mesh has one device). -/
def famV (c : Dev nD) (Vm : (b : Ref sig .tc) → Buf (Elt F) ((c.tc : Thread nD τ).loc b)) :
    (c' : Dev nD) → (b : Ref sig .tc) → Buf (Elt F) ((c'.tc : Thread nD τ).loc b) :=
  fun c' => (Subsingleton.elim c c' : c = c') ▸ Vm

theorem famV_self (c : Dev nD) (Vm : (b : Ref sig .tc) → Buf (Elt F) ((c.tc : Thread nD τ).loc b)) : famV c Vm c = Vm := rfl

set_option backward.isDefEq.respectTransparency.types false in
/-- THE REGION under any continuation: from the region boundary, the unscoped arrays at `Vm`, the core owing nothing under
    the bound, the generator register, the level facts and the pipeline's ghost state, `customCall (entry 0)` runs to the
    continuation, which is handed the boundary, the arrays at `Vm` with the result array at the pooled input, the core
    owing nothing under the same bound and the register. -/
theorem tc_region (c : Dev nD)
    (Vm : (b : Ref sig .tc) → Buf (Elt F) ((c.tc : Thread nD τ).loc b)) (g : PrngReg)
    {α : Type} (k : PUnit → Prog (TpuEff nD τ sig (Elt F) (ΛP (F := F)) .tc) α) (Q : α → sProp (MM F)) :
    iprop((iprop(boundary (c.tc : Thread nD τ) ∗ unscopedBufs c (afterPool c Vm) ∗ tcOwes c ∗ prngReg c g)
            -∗ wp frame (wpE (D (F := F)) 𝒱 (c.tc : Thread nD τ) none) Set.univ (k ⟨⟩) Q)
        ∗ boundary (c.tc : Thread nD τ) ∗ unscopedBufs c Vm ∗ tcOwes c ∗ prngReg c g
        ∗ levAts (K (F := F)).L (K (F := F)).lev
        ∗ Pipeline.cellsGhost cfgs EP 0 c ∗ Pipeline.toksInit cfgs EP 0 c)
      ⊢ wp frame (wpE (D (F := F)) 𝒱 (c.tc : Thread nD τ) none) Set.univ (.op (.customCall (Pipeline.entry 0) ()) k) Q := by
  have h := Pipeline.RegionSeg.wp (pcfgs (F := F)) adm (dats (famV c Vm)) none cellOf_inj EP defs₀ 𝒱₀ (LL (F := F)) (lv (F := F))
    (reg (famV c Vm) (fun _ => g)) c none (fun _ h => nomatch h) k Q
  rw [show (reg (famV c Vm) (fun _ => g)).pre c = iprop(unscopedBufs c Vm ∗ tcOwes c ∗ prngReg c g) from rfl,
    show (reg (famV c Vm) (fun _ => g)).post c = iprop(unscopedBufs c (afterPool c Vm) ∗ tcOwes c ∗ prngReg c g) from rfl] at h
  iintro ⟨Hk, Hb, Hub, HO, Hg, Hl, Hc, Ht⟩
  iapply h
  isplitl [Hk]
  · iintro ⟨Hb, Hub, HO, Hg⟩
    iapply Hk
    isplitl [Hb]; · iexact Hb
    isplitl [Hub]; · iexact Hub
    isplitl [HO] <;> iassumption
  isplitl [Hb]; · iexact Hb
  isplitl [Hub HO Hg]
  · isplitl [Hub]; · iexact Hub
    isplitl [HO] <;> iassumption
  isplitl [Hl]; · iexact Hl
  isplitl [Hc] <;> iassumption

/-- info: 'Cert.Kernel.Tc.tc_region' depends on axioms: [propext, Classical.choice, Quot.sound] -/
#guard_msgs in #print axioms tc_region

end Cert.Kernel.Tc

end
-- ==== Proof.BitsHost.lean ====
/-
  @main's host operations, as two lists, and what they compute.

  Before the SparseCore call the host lays the mask out as words: the mask's bits regrouped as 4096 windows of
  four, widened to 32-bit words, transposed to group position major and flattened — `KV.maskWords` of the
  mask. After the pallas_call it reshapes the 4096 minima to batch by window, compares them with zero and
  converts — `KV.maskOut` of the minima. Neither stretch writes an argument array, the minima or the pooled
  array before its own part.
-/
import proofs.«217849_g24850680775158_cont_8to1_1955_33_alg».proof.Proof.BitsSetup
import proofs.«217849_g24850680775158_cont_8to1_1955_33_alg».proof.Proof.BitsKV
import Idealize.ShloMosaic.Lib.Pipeline.Frame

noncomputable section

namespace Cert.Kernel.Host

open Cert.Kernel Cert.Kernel.Gen Cert.Kernel.Setup
open Idealize.ShloMosaic Idealize.ShloMosaic.TcCoe Idealize.SL.Sem Idealize.ShloMosaic.StableHlo

variable {F : FTy → Type} [FloatOps F]

/-- The four operations before the SparseCore call, in order. -/
abbrev preOps : List (HloOp τ sig (Elt F)) :=
  [ reshape main_arg1 main_v0 rfl shapeCasts_S4x4096_S4096x4,
    unary main_v0 main_v1 ((extui 32 · natLt_1_32) : (⟨S4096x4, .i1⟩ : BufTy).Contents (Elt F) → (⟨S4096x4, .i32⟩ : BufTy).Contents (Elt F)),
    unary main_v1 main_v2 ((transpose S4x4096 [1, 0] · transposes_S4096x4_S4x4096_1_0) : (⟨S4096x4, .i32⟩ : BufTy).Contents (Elt F) → (⟨S4x4096, .i32⟩ : BufTy).Contents (Elt F)),
    reshape main_v2 main_v3 rfl shapeCasts_S4x4096_S16384 ]

/-- The five operations after the pallas_call, in order. -/
abbrev postOps : List (HloOp τ sig (Elt F)) :=
  [ reshape main_v4 main_v6 rfl shapeCasts_S4096_S4x1024,
    nullary main_c (constantI S_ 32 0#32),
    unary main_c main_v7 (broadcastInDim S4x1024 ![] bcast_S_S4x1024 : (⟨S_, .i32⟩ : BufTy).Contents (Elt F) → (⟨S4x1024, .i32⟩ : BufTy).Contents (Elt F)),
    binary main_v6 main_v7 main_v8 (cmpi .ne : (⟨S4x1024, .i32⟩ : BufTy).Contents (Elt F) → (⟨S4x1024, .i32⟩ : BufTy).Contents (Elt F) → (⟨S4x1024, .i1⟩ : BufTy).Contents (Elt F)),
    unary main_v8 main_v9 (id : (⟨S4x1024, .i1⟩ : BufTy).Contents (Elt F) → (⟨S4x1024, .i1⟩ : BufTy).Contents (Elt F)) ]

/-- @main is the first stretch, the SparseCore call, the pallas_call, the second stretch. -/
theorem main_eq (d : Dev nD) : main (F := F) d
    = (seq preOps >>= fun _ => (sc (F := F)).run d 0 >>= fun _ =>
        Prog.lift (.customCall (SparseCore.inner (Pipeline.entry 0)) ()) >>= fun _ => seq postOps) := rfl

/-! ## The stretches touch unscoped TensorCore arrays only, and write nothing at contents of the machine's choosing -/

theorem pre_tc : (preOps : List (HloOp τ sig (Elt F))).Forall fun op => op.bufs ⊆ tcRefs τ sig :=
  ⟨reshape_bufs_sub .., unary_bufs_sub .., unary_bufs_sub .., reshape_bufs_sub ..⟩
theorem post_tc : (postOps : List (HloOp τ sig (Elt F))).Forall fun op => op.bufs ⊆ tcRefs τ sig :=
  ⟨reshape_bufs_sub .., nullary_bufs_sub .., unary_bufs_sub .., binary_bufs_sub .., unary_bufs_sub ..⟩

theorem pre_sub : ∀ op ∈ (preOps : List (HloOp τ sig (Elt F))), op.bufs ⊆ Pipeline.ucRefs τ sig :=
  fun op h => Pipeline.sub_ucRefs op ((List.forall_iff_forall_mem.mp pre_tc) op h)
theorem post_sub : ∀ op ∈ (postOps : List (HloOp τ sig (Elt F))), op.bufs ⊆ Pipeline.ucRefs τ sig :=
  fun op h => Pipeline.sub_ucRefs op ((List.forall_iff_forall_mem.mp post_tc) op h)

theorem pre_fresh : ∀ op ∈ (preOps : List (HloOp τ sig (Elt F))), op.fresh = ∅ := by
  intro _ h; (repeat (cases h with | head => rfl | tail _ h => ?_)); exact nomatch h
theorem post_fresh : ∀ op ∈ (postOps : List (HloOp τ sig (Elt F))), op.fresh = ∅ := by
  intro _ h; (repeat (cases h with | head => rfl | tail _ h => ?_)); exact nomatch h

/-! ## What the stretches compute -/

/-- The arrays the claim and the two kernels speak of, as device buffers. -/
abbrev a0' : DevRef τ sig := Proc.devRef .tc main_arg0
abbrev a1' : DevRef τ sig := Proc.devRef .tc main_arg1
abbrev v3' : DevRef τ sig := Proc.devRef .tc main_v3
abbrev v4' : DevRef τ sig := Proc.devRef .tc main_v4
abbrev v5' : DevRef τ sig := Proc.devRef .tc main_v5
abbrev v9' : DevRef τ sig := Proc.devRef .tc main_v9

/-- The first stretch writes `main_v0` … `main_v3` and nothing else. -/
theorem pre_not_written (b : Ref sig .tc) (hb : b ≠ main_v0 ∧ b ≠ main_v1 ∧ b ≠ main_v2 ∧ b ≠ main_v3) :
    ∀ op ∈ (preOps (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [unary_writes, reshape_writes, Finset.mem_singleton] <;>
    exact devRef_ne_of_ne ‹_›

/-- The second stretch writes `main_v6`, `main_c`, `main_v7`, `main_v8`, `main_v9` and nothing else. -/
theorem post_not_written (b : Ref sig .tc) (hb : b ≠ main_v6 ∧ b ≠ main_c ∧ b ≠ main_v7 ∧ b ≠ main_v8 ∧ b ≠ main_v9) :
    ∀ op ∈ (postOps (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [unary_writes, binary_writes, nullary_writes, reshape_writes, Finset.mem_singleton] <;>
    exact devRef_ne_of_ne ‹_›

/-- After the first stretch the word array holds the mask's words, group position major. -/
theorem pre_v3 (W : Valuation τ sig (Elt F)) :
    after preOps W v3' = KV.maskWords (show IVec S4x4096 1 from W a1') := by
  after_results <;> rfl

/-- The first stretch leaves the arguments, the minima and the pooled array as they were. -/
theorem pre_a0 (W : Valuation τ sig (Elt F)) : after preOps W a0' = W a0' :=
  after_of_forall_not_mem _ _ (pre_not_written main_arg0 (by decide))
theorem pre_a1 (W : Valuation τ sig (Elt F)) : after preOps W a1' = W a1' :=
  after_of_forall_not_mem _ _ (pre_not_written main_arg1 (by decide))
theorem pre_v4 (W : Valuation τ sig (Elt F)) : after preOps W v4' = W v4' :=
  after_of_forall_not_mem _ _ (pre_not_written main_v4 (by decide))
theorem pre_v5 (W : Valuation τ sig (Elt F)) : after preOps W v5' = W v5' :=
  after_of_forall_not_mem _ _ (pre_not_written main_v5 (by decide))

theorem pre_keep (W : Valuation τ sig (Elt F)) {b : DevRef τ sig} (hb : b ∈ ({a0', a1', v4', v5'} : Finset (DevRef τ sig))) :
    after preOps W b = W b := by
  simp only [Finset.mem_insert, Finset.mem_singleton] at hb
  rcases hb with rfl | rfl | rfl | rfl
  · exact pre_a0 W
  · exact pre_a1 W
  · exact pre_v4 W
  · exact pre_v5 W

/-- After the second stretch the result mask is the minima compared with zero, batch by window. -/
theorem post_v9 (W : Valuation τ sig (Elt F)) :
    after postOps W v9' = KV.maskOut (show IVec S4096 32 from W v4') := by
  after_results <;> rfl

/-- The second stretch leaves the arguments and the pooled array as they were. -/
theorem post_a0 (W : Valuation τ sig (Elt F)) : after postOps W a0' = W a0' :=
  after_of_forall_not_mem _ _ (post_not_written main_arg0 (by decide))
theorem post_a1 (W : Valuation τ sig (Elt F)) : after postOps W a1' = W a1' :=
  after_of_forall_not_mem _ _ (post_not_written main_arg1 (by decide))
theorem post_v5 (W : Valuation τ sig (Elt F)) : after postOps W v5' = W v5' :=
  after_of_forall_not_mem _ _ (post_not_written main_v5 (by decide))

theorem post_keep (W : Valuation τ sig (Elt F)) {b : DevRef τ sig} (hb : b ∈ ({a0', a1', v5'} : Finset (DevRef τ sig))) :
    after postOps W b = W b := by
  simp only [Finset.mem_insert, Finset.mem_singleton] at hb
  rcases hb with rfl | rfl | rfl
  · exact post_a0 W
  · exact post_a1 W
  · exact post_v5 W

end Cert.Kernel.Host

end
-- ==== Proof.BitsSplit.lean ====
/-
  The word array and the result, dealt to the 2 × 16 tasks of the SparseCore call and gathered back.

  Task `(c, s)` reads, for each group position `k < 4`, the 128 words from `4096 k + 256 s + 128 c` of the word
  array and writes the 128 words from `256 s + 128 c` of the result. The 128 source rectangles are pairwise
  disjoint and cover the 16384 words, the 32 target rectangles the 4096: so the whole word array, held at the
  words, is the tasks' source slices held at their parts of the words, and the whole result is the tasks' target
  slices. An array in HBM is the same location for every thread of the device, so one cut of the whole array
  yields every task's pieces. Going out, a task's target slice is held at any contents; coming back, each is held at
  its part of the four-fold minimum of the words, and together they are the whole result at that minimum.
-/
import proofs.«217849_g24850680775158_cont_8to1_1955_33_alg».proof.Proof.BitsPay
import proofs.«217849_g24850680775158_cont_8to1_1955_33_alg».proof.Proof.BitsParts
import Idealize.ShloMosaic.Lib.Memref

noncomputable section

namespace Cert.Kernel.Split

open Cert.Kernel Cert.Kernel.Gen Cert.Kernel.Setup
open Cert.Kernel.Parts (coordsV srcRect dstRect r3 r4 T3 T4 r3_disjoint r3_cover r4_disjoint r4_cover)
open Cert.Kernel.Tile (words srcSl dstSl cV jV srcRes goRes tdRes)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

local notation "wW" => (Memref.whole Cert.Kernel.main_v3_scv : Memref Cert.Kernel.sig Kind.scVector Space.hbm Cert.Kernel.S16384 EltTy.i32)
local notation "oW" => (Memref.whole Cert.Kernel.main_v4_scv : Memref Cert.Kernel.sig Kind.scVector Space.hbm Cert.Kernel.S4096 EltTy.i32)

variable (m : (ℓ : Loc nD τ sig) → Buf (Elt F) ℓ) (d : Dev nD)

/-- One vector subcore of the device, through whose memrefs the whole arrays are cut. -/
abbrev thr0 : Thread nD τ := V d ⟨0, by decide⟩ ⟨0, by decide⟩

/-- A conjunction over four indices, written out. -/
theorem bigSep_four {M : Type} [URA M] (Ψ : Fin 4 → sProp M) : bigSep Finset.univ Ψ = iprop(Ψ 0 ∗ Ψ 1 ∗ Ψ 2 ∗ Ψ 3) := by
  rw [show (Finset.univ : Finset (Fin 4)) = {0, 1, 2, 3} from by decide, bigSep_insert (by decide), bigSep_insert (by decide),
    bigSep_insert (by decide), bigSep_singleton]
  rfl

/-! ## The word array -/

/-- Task `(t.1, t.2.1)`'s source slice at group position `t.2.2`, held at its part of `X`. -/
abbrev srcPiece (X : S16384.Idx → Elt F .i32) (t : T3) : sProp 𝕄 :=
  owns (V d (cV (coordsV t.1 t.2.1)) (jV (coordsV t.1 t.2.1))) (srcSl (coordsV t.1 t.2.1) t.2.2) fullShare (fun j => X ((r3 t).emb j))

/-- The source slices grouped by task are each task's four. -/
theorem src_group : (bigSep Finset.univ fun t : T3 => srcPiece d (words m d) t)
    = bigSep Finset.univ fun c : Fin (grid0.bound 0) => bigSep Finset.univ fun s : Fin (grid0.bound 1) => srcRes m d (coordsV c s) := by
  rw [bigSep_univ_prod]
  refine bigSep_congr fun c _ => ?_
  rw [bigSep_univ_prod]
  refine bigSep_congr fun s _ => ?_
  rw [bigSep_four]
  rfl

/-- The whole word array at the words is every task's source slices at their parts of the words, -/
theorem src_split : (((T d : Thread nD τ).loc main_v3 ↦{fullShare} (words m d : Buf (Elt F) _)) : sProp 𝕄)
    ⊢ bigSep Finset.univ fun c : Fin (grid0.bound 0) => bigSep Finset.univ fun s : Fin (grid0.bound 1) => srcRes m d (coordsV c s) := by
  have h1 : (((T d : Thread nD τ).loc main_v3 ↦{fullShare} (words m d : Buf (Elt F) _)) : sProp 𝕄) ⊢ owns (Val := Elt F) (thr0 d) wW fullShare (words m d) :=
    Entails.of_eq (owns_whole (Val := Elt F) (thr0 d) main_v3_scv fullShare (words m d)).symm
  have h2 : (owns (Val := Elt F) (thr0 d) wW fullShare (words m d) : sProp 𝕄) ⊢ bigSep Finset.univ fun t : T3 => srcPiece d (words m d) t :=
    owns_rects (Val := Elt F) (thr0 d) wW fullShare r3 (fun _ _ => rfl) r3_disjoint r3_cover (words m d)
  exact h1.trans (h2.trans (Entails.of_eq (src_group m d)))

/-- and back. -/
theorem src_join [∀ e, Nonempty (Elt F e)] :
    (bigSep Finset.univ fun c : Fin (grid0.bound 0) => bigSep Finset.univ fun s : Fin (grid0.bound 1) => srcRes m d (coordsV c s))
      ⊢ (((T d : Thread nD τ).loc main_v3 ↦{fullShare} (words m d : Buf (Elt F) _)) : sProp 𝕄) := by
  have h1 : (owns (Val := Elt F) (thr0 d) wW fullShare (words m d) : sProp 𝕄) ⊢ ((T d : Thread nD τ).loc main_v3 ↦{fullShare} (words m d : Buf (Elt F) _)) :=
    Entails.of_eq (owns_whole (Val := Elt F) (thr0 d) main_v3_scv fullShare (words m d))
  have h2 : (bigSep Finset.univ fun t : T3 => srcPiece d (words m d) t) ⊢ (owns (Val := Elt F) (thr0 d) wW fullShare (words m d) : sProp 𝕄) :=
    owns_of_rects (Val := Elt F) (thr0 d) wW fullShare r3 (fun _ _ => rfl) r3_disjoint r3_cover (words m d)
  exact (Entails.of_eq (src_group m d).symm).trans (h2.trans h1)

/-! ## The result -/

/-- Task `t`'s target slice, held at its part of `X`. -/
abbrev dstPiece (X : S4096.Idx → Elt F .i32) (t : T4) : sProp 𝕄 :=
  owns (V d (cV (coordsV t.1 t.2)) (jV (coordsV t.1 t.2))) (dstSl (coordsV t.1 t.2)) fullShare (fun j => X ((r4 t).emb j))

/-- The whole result at `X` is every task's target slice at its part of `X`, -/
theorem dst_split (X : Buf (Elt F) ((T d : Thread nD τ).loc main_v4)) :
    (((T d : Thread nD τ).loc main_v4 ↦{fullShare} X) : sProp 𝕄)
      ⊢ bigSep Finset.univ fun c : Fin (grid0.bound 0) => bigSep Finset.univ fun s : Fin (grid0.bound 1) => dstPiece d X (c, s) := by
  have h1 : (((T d : Thread nD τ).loc main_v4 ↦{fullShare} X) : sProp 𝕄) ⊢ owns (Val := Elt F) (thr0 d) oW fullShare X :=
    Entails.of_eq (owns_whole (Val := Elt F) (thr0 d) main_v4_scv fullShare X).symm
  have h2 : (owns (Val := Elt F) (thr0 d) oW fullShare X : sProp 𝕄) ⊢ bigSep Finset.univ fun t : T4 => dstPiece d X t :=
    owns_rects (Val := Elt F) (thr0 d) oW fullShare r4 (fun _ _ => rfl) r4_disjoint r4_cover X
  exact h1.trans (h2.trans (Entails.of_eq (bigSep_univ_prod (fun t : T4 => dstPiece d X t))))

/-- and back. -/
theorem dst_join [∀ e, Nonempty (Elt F e)] (X : Buf (Elt F) ((T d : Thread nD τ).loc main_v4)) :
    (bigSep Finset.univ fun c : Fin (grid0.bound 0) => bigSep Finset.univ fun s : Fin (grid0.bound 1) => dstPiece d X (c, s))
      ⊢ (((T d : Thread nD τ).loc main_v4 ↦{fullShare} X) : sProp 𝕄) := by
  have h1 : (owns (Val := Elt F) (thr0 d) oW fullShare X : sProp 𝕄) ⊢ ((T d : Thread nD τ).loc main_v4 ↦{fullShare} X) :=
    Entails.of_eq (owns_whole (Val := Elt F) (thr0 d) main_v4_scv fullShare X)
  have h2 : (bigSep Finset.univ fun t : T4 => dstPiece d X t) ⊢ (owns (Val := Elt F) (thr0 d) oW fullShare X : sProp 𝕄) :=
    owns_of_rects (Val := Elt F) (thr0 d) oW fullShare r4 (fun _ _ => rfl) r4_disjoint r4_cover X
  exact (Entails.of_eq (bigSep_univ_prod (fun t : T4 => dstPiece d X t)).symm).trans (h2.trans h1)

/-- A target slice held at its part of some contents is held at some contents. -/
theorem dst_any (c : Fin (grid0.bound 0)) (s : Fin (grid0.bound 1)) (X : S4096.Idx → Elt F .i32) :
    (dstPiece d X (c, s) : sProp 𝕄) ⊢ iprop(∃ X', owns (V d (cV (coordsV c s)) (jV (coordsV c s))) (dstSl (coordsV c s)) fullShare X') := by
  iintro H; iexists _; iexact H

/-! ## Both arrays, task by task over the grid -/

theorem split_grid (f4 : Buf (Elt F) ((T d : Thread nD τ).loc main_v4)) :
    iprop(((T d : Thread nD τ).loc main_v3 ↦{fullShare} (words m d : Buf (Elt F) _)) ∗ ((T d : Thread nD τ).loc main_v4 ↦{fullShare} f4))
      ⊢ (bigSep Finset.univ fun c : Fin (grid0.bound 0) => bigSep Finset.univ fun s : Fin (grid0.bound 1) => goRes m d (coordsV c s) : sProp 𝕄) := by
  refine (BIClass.sep_mono (src_split m d) (dst_split d f4)).trans ?_
  rw [← bigSep_sep']
  refine bigSep_mono fun c _ => ?_
  rw [← bigSep_sep']
  refine bigSep_mono fun s _ => ?_
  unfold Tile.goRes
  exact BI.sep_mono (BI.Entails.refl _) (dst_any d c s f4)

theorem join_grid [∀ e, Nonempty (Elt F e)] :
    (bigSep Finset.univ fun c : Fin (grid0.bound 0) => bigSep Finset.univ fun s : Fin (grid0.bound 1) => tdRes m d (coordsV c s) : sProp 𝕄)
      ⊢ iprop(((T d : Thread nD τ).loc main_v3 ↦{fullShare} (words m d : Buf (Elt F) _))
          ∗ ((T d : Thread nD τ).loc main_v4 ↦{fullShare} (KV.min4 (words m d) : Buf (Elt F) _))) := by
  have h : iprop((bigSep Finset.univ fun c : Fin (grid0.bound 0) => bigSep Finset.univ fun s : Fin (grid0.bound 1) => srcRes m d (coordsV c s))
        ∗ (bigSep Finset.univ fun c : Fin (grid0.bound 0) => bigSep Finset.univ fun s : Fin (grid0.bound 1) =>
            dstPiece d (KV.min4 (words m d) : Buf (Elt F) ((T d : Thread nD τ).loc main_v4)) (c, s)))
      ⊢ iprop(((T d : Thread nD τ).loc main_v3 ↦{fullShare} (words m d : Buf (Elt F) _))
          ∗ ((T d : Thread nD τ).loc main_v4 ↦{fullShare} (KV.min4 (words m d) : Buf (Elt F) _)) : sProp 𝕄) :=
    BIClass.sep_mono (src_join m d) (dst_join d _)
  refine BI.Entails.trans ?_ h
  rw [← bigSep_sep']
  refine bigSep_mono fun c _ => ?_
  rw [← bigSep_sep']
  refine bigSep_mono fun s _ => ?_
  unfold Tile.tdRes
  exact BI.Entails.refl _

/-! ## The same, indexed by the call's SparseCores and tasks -/

/-- THE WAY OUT: the word array at the words and the result at anything are what the TensorCore hands the call's SparseCores. -/
theorem split_in (f4 : Buf (Elt F) ((T d : Thread nD τ).loc main_v4)) :
    iprop(((T d : Thread nD τ).loc main_v3 ↦{fullShare} (words m d : Buf (Elt F) _)) ∗ ((T d : Thread nD τ).loc main_v4 ↦{fullShare} f4))
      ⊢ (bigSep Finset.univ fun c : Fin ((K (F := F)).nCore 0) => (Pay.P m).st 0 d c : sProp 𝕄) := by
  simp only [Pay.P_st]
  refine (split_grid m d f4).trans (Entails.of_eq ?_)
  rw [bigSep_univ_equiv (finCongr (Pay.nCore_eq (F := F) 0))
    (fun c : Fin (grid0.bound 0) => (bigSep Finset.univ fun s : Fin (grid0.bound 1) => goRes m d (coordsV c s) : sProp 𝕄))]
  refine bigSep_congr fun c _ => ?_
  rw [bigSep_univ_equiv (finCongr (Pay.nSub_eq (F := F) 0))
    (fun s : Fin (grid0.bound 1) => (goRes m d (coordsV (finCongr (Pay.nCore_eq (F := F) 0) c) s) : sProp 𝕄))]
  rfl

/-- THE WAY BACK: what the call's SparseCores hand back is the word array at the words and the result at the four-fold
    minimum of the words. -/
theorem join_out [∀ e, Nonempty (Elt F e)] :
    (bigSep Finset.univ fun c : Fin ((K (F := F)).nCore 0) => (Pay.P m).dn 0 d c : sProp 𝕄)
      ⊢ iprop(((T d : Thread nD τ).loc main_v3 ↦{fullShare} (words m d : Buf (Elt F) _))
          ∗ ((T d : Thread nD τ).loc main_v4 ↦{fullShare} (KV.min4 (words m d) : Buf (Elt F) _))) := by
  simp only [Pay.P_dn]
  have e : (bigSep Finset.univ fun c : Fin (grid0.bound 0) => bigSep Finset.univ fun s : Fin (grid0.bound 1) => tdRes m d (coordsV c s) : sProp 𝕄)
      = bigSep Finset.univ fun c : Fin ((K (F := F)).nCore 0) => bigSep Finset.univ fun i : Fin ((K (F := F)).nSub 0) => tdRes m d (Pay.coords 0 c i) := by
    rw [bigSep_univ_equiv (finCongr (Pay.nCore_eq (F := F) 0))
      (fun c : Fin (grid0.bound 0) => (bigSep Finset.univ fun s : Fin (grid0.bound 1) => tdRes m d (coordsV c s) : sProp 𝕄))]
    refine bigSep_congr fun c _ => ?_
    rw [bigSep_univ_equiv (finCongr (Pay.nSub_eq (F := F) 0))
      (fun s : Fin (grid0.bound 1) => (tdRes m d (coordsV (finCongr (Pay.nCore_eq (F := F) 0) c) s) : sProp 𝕄))]
    rfl
  exact (Entails.of_eq e.symm).trans (join_grid m d)

/-- info: 'Cert.Kernel.Split.split_in' depends on axioms: [propext, Classical.choice, Quot.sound] -/
#guard_msgs in #print axioms split_in
/-- info: 'Cert.Kernel.Split.join_out' depends on axioms: [propext, Classical.choice, Quot.sound] -/
#guard_msgs in #print axioms join_out

end Cert.Kernel.Split

end
-- ==== Proof.BitsMain.lean ====
/-
  @main on the TensorCore. The four host operations before the SparseCore call lay the mask out as words
  (`Host.pre_v3`); the call takes the word array and the result dealt to the tasks (`Split.split_in`) and
  brings them back with the result at the four-fold minimum (`Split.join_out`); the pallas_call is a
  pipeline region entered below the SparseCore layer (`Tc.tc_region`), leaving the pooled array; the five
  host operations after it compare the minima with zero (`Host.post_v9`). The arrays are followed through
  five valuations `V0 … V4`.
-/
import proofs.«217849_g24850680775158_cont_8to1_1955_33_alg».proof.Proof.BitsLaunch
import proofs.«217849_g24850680775158_cont_8to1_1955_33_alg».proof.Proof.BitsTcRegion
import proofs.«217849_g24850680775158_cont_8to1_1955_33_alg».proof.Proof.BitsHost
import proofs.«217849_g24850680775158_cont_8to1_1955_33_alg».proof.Proof.BitsSplit

noncomputable section

namespace Cert.Kernel.Main

open Cert.Kernel Cert.Kernel.Gen Cert.Kernel.Setup
open Cert.Kernel.Pay (P)
open Cert.Kernel.Launch (G FIN a0Loc a1Loc v5Loc v9Loc pooledOf maskOf)
open Cert.Kernel.Host (preOps postOps a0' a1' v3' v4' v5' v9')

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type} [FloatOps F]

local notation "𝕄" => MM F

variable (m : (ℓ : Loc nD τ sig) → Buf (Elt F) ℓ) (ρ : Dev nD → PrngReg)

/-! ## The arrays' contents along @main -/

/-- As launched; -/
def V0 (d : Dev nD) : Valuation τ sig (Elt F) := fun b => m (d, b)
/-- after the host operations before the call; -/
def V1 (d : Dev nD) : Valuation τ sig (Elt F) := StableHlo.after preOps (V0 m d)
/-- after the call: the result at the four-fold minimum of the words; -/
def V2 (d : Dev nD) : Valuation τ sig (Elt F) := Function.update (V1 m d) v4' (KV.min4 (Tile.words m d))
/-- after the pallas_call: the pooled array; -/
def V3 (d : Dev nD) : Valuation τ sig (Elt F) :=
  Function.update (V2 m d) v5' (KV.pooled (F := F) (show Vec F S4x4096x1024 .f32 from V2 m d a0'))
/-- after the host operations that follow. -/
def V4 (d : Dev nD) : Valuation τ sig (Elt F) := StableHlo.after postOps (V3 m d)

theorem V1_v3 (d : Dev nD) : V1 m d v3' = Tile.words m d := Host.pre_v3 (V0 m d)
theorem V1_a0 (d : Dev nD) : V1 m d a0' = m (a0Loc d) := Host.pre_keep (V0 m d) (by decide)
theorem V1_a1 (d : Dev nD) : V1 m d a1' = m (a1Loc d) := Host.pre_keep (V0 m d) (by decide)
theorem V2_v4 (d : Dev nD) : V2 m d v4' = KV.min4 (Tile.words m d) := Function.update_self _ _ _
theorem V2_of_ne (d : Dev nD) {b : DevRef τ sig} (h : b ≠ v4') : V2 m d b = V1 m d b := Function.update_of_ne h _ _
theorem V3_v5 (d : Dev nD) : V3 m d v5' = KV.pooled (F := F) (show Vec F S4x4096x1024 .f32 from V2 m d a0') := Function.update_self _ _ _
theorem V3_of_ne (d : Dev nD) {b : DevRef τ sig} (h : b ≠ v5') : V3 m d b = V2 m d b := Function.update_of_ne h _ _

theorem V4_a0 (d : Dev nD) : V4 m d a0' = m (a0Loc d) := by
  unfold V4; rw [Host.post_keep (V3 m d) (by decide), V3_of_ne m d (by decide), V2_of_ne m d (by decide), V1_a0]
theorem V4_a1 (d : Dev nD) : V4 m d a1' = m (a1Loc d) := by
  unfold V4; rw [Host.post_keep (V3 m d) (by decide), V3_of_ne m d (by decide), V2_of_ne m d (by decide), V1_a1]
theorem V4_v5 (d : Dev nD) : V4 m d v5' = pooledOf m d := by
  unfold V4; rw [Host.post_keep (V3 m d) (by decide), V3_v5, V2_of_ne m d (by decide), V1_a0]; rfl
theorem V4_v9 (d : Dev nD) : V4 m d v9' = maskOf m d := by
  unfold V4; rw [Host.post_v9 (V3 m d), V3_of_ne m d (by decide), V2_v4]; rfl

/-- The valuation after the pallas_call, read at the TensorCore's references, is the pipeline's. -/
theorem V3_afterPool (d : Dev nD) :
    (fun b : Ref sig .tc => V3 m d (Proc.devRef .tc b)) = afterPool d (fun b : Ref sig .tc => V2 m d (Proc.devRef .tc b)) := by
  funext b
  show Function.update (V2 m d) v5' (KV.pooled (F := F) (show Vec F S4x4096x1024 .f32 from V2 m d a0')) (Proc.devRef .tc b)
    = Function.update (fun b : Ref sig .tc => V2 m d (Proc.devRef .tc b)) main_v5
        (KV.pooled (F := F) (show Vec F S4x4096x1024 .f32 from V2 m d (Proc.devRef .tc main_arg0))) b
  by_cases h : b = main_v5
  · subst h; rw [Function.update_self, Function.update_self]
  · rw [Function.update_of_ne h, Function.update_of_ne (StableHlo.devRef_ne_of_ne h)]

/-! ## The held set, with the word array and the result taken out -/

theorem sub34 : ({v3', v4'} : Finset (DevRef τ sig)) ⊆ Pipeline.ucRefs τ sig := by decide
theorem subFin : ({a0', a1', v5', v9'} : Finset (DevRef τ sig)) ⊆ Pipeline.ucRefs τ sig := by decide

omit [FloatOps F] in
theorem held_pair (d : Dev nD) (W : Valuation τ sig (Elt F)) :
    (held (SparseCore.T d) ({v3', v4'} : Finset (DevRef τ sig)) W : sProp 𝕄)
      = iprop((((d, v3') : Loc nD τ sig) ↦{fullShare} W v3') ∗ (((d, v4') : Loc nD τ sig) ↦{fullShare} W v4')) := by
  unfold held
  rw [SparseCore.bigSep_insert' (by decide), bigSep_singleton]

theorem held_rest (d : Dev nD) :
    (held (SparseCore.T d) (Pipeline.ucRefs τ sig \ {v3', v4'}) (V2 m d) : sProp 𝕄)
      = held (SparseCore.T d) (Pipeline.ucRefs τ sig \ {v3', v4'}) (V1 m d) :=
  held_congr (SparseCore.T d) fun b hb => V2_of_ne m d fun e => by
    rw [e] at hb; exact (Finset.mem_sdiff.mp hb).2 (by decide)

omit [FloatOps F] in
theorem held_fin (d : Dev nD) (W : Valuation τ sig (Elt F)) :
    (held (SparseCore.T d) ({a0', a1', v5', v9'} : Finset (DevRef τ sig)) W : sProp 𝕄)
      = iprop((a0Loc d ↦{fullShare} W a0') ∗ (a1Loc d ↦{fullShare} W a1') ∗ (v5Loc d ↦{fullShare} W v5') ∗ (v9Loc d ↦{fullShare} W v9')) := by
  unfold held
  rw [SparseCore.bigSep_insert' (by decide), SparseCore.bigSep_insert' (by decide), SparseCore.bigSep_insert' (by decide), bigSep_singleton]

/-! ## The TensorCore's handshake state once the call has returned -/

/-- What the handshake state holds beside the core's debts. -/
def stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_one (d : Dev nD) : ((K (F := F)).tcSt EH d ((0 : Fin 1).val + 1) : sProp 𝕄) = iprop(tcOwes d ∗ stRest d) := by
  have h1 : ((0 : Fin 1).val + 1) = 1 := rfl
  rw [h1]
  unfold SparseCore.Cfg.tcSt tcOwes stRest
  rw [(K (F := F)).Otc_end d (le_refl 1)]

omit [FloatOps F] in
theorem tcSt_one' (d : Dev nD) : ((K (F := F)).tcSt EH d 1 : sProp 𝕄) = iprop(tcOwes d ∗ stRest d) := tcSt_one d

/-- The arrays after the call, in one held set: the word array as it was, the result at the minima, the rest untouched. -/
theorem held_after_call (d : Dev nD) :
    (held (SparseCore.T d) (Pipeline.ucRefs τ sig) (V2 m d) : sProp 𝕄)
      = iprop(((((d, v3') : Loc nD τ sig) ↦{fullShare} Tile.words m d) ∗ (((d, v4') : Loc nD τ sig) ↦{fullShare} KV.min4 (Tile.words m d)))
          ∗ held (SparseCore.T d) (Pipeline.ucRefs τ sig \ {v3', v4'}) (V1 m d)) := by
  rw [held_sub_split (SparseCore.T d) sub34 (V2 m d), held_pair, held_rest, V2_of_ne m d (show v3' ≠ v4' by decide), V1_v3, V2_v4]

/-! ## The pallas_call below the SparseCore layer -/

/-- The pallas_call's line of @main as a program of the layer below the SparseCore calls. -/
def regionProg (F : FTy → Type) : Prog (TpuEff nD τ sig (Elt F) (ΛP (F := F)) Proc.tc) PUnit :=
  Prog.op (.customCall (Pipeline.entry 0) ()) fun _ => Prog.ret ⟨⟩

omit [FloatOps F] in
/-- Lifted to the SparseCore layer it is @main's line. -/
theorem lift_eq :
    (SparseCore.liftProg (Q := 1) (regionProg F) : Prog (TpuEff nD τ sig (Elt F) (SparseCore.Sig (ΛP (F := F)) 1) Proc.tc) PUnit)
      = Prog.lift (.customCall (SparseCore.inner (Pipeline.entry 0)) ()) := by
  rfl

theorem lifted (d : Dev nD) (Φ : PUnit → sProp 𝕄) :
    wp frame (wpE (D (F := F)) 𝒱 (d.tc : Thread nD τ) none) Set.univ (regionProg F) Φ
      ⊢ wp frame (wpE ((K (F := F)).defs (D (F := F))) 𝒱 (d.tc : Thread nD τ) none) Set.univ
          (SparseCore.liftProg (Q := 1) (regionProg F)) Φ :=
  (K (F := F)).wp_liftProg (D (F := F)) 𝒱 (d.tc : Thread nD τ) Set.univ none (regionProg F) Φ

set_option backward.isDefEq.respectTransparency.types false in
/-- The pallas_call's line of @main: the pipeline region of the program below the SparseCore layer, lifted. -/
theorem region_step (d : Dev nD) (Vm : (b : Ref sig .tc) → Buf (Elt F) ((d.tc : Thread nD τ).loc b)) (g : PrngReg) (Φ : PUnit → sProp 𝕄) :
    iprop((iprop(boundary (d.tc : Thread nD τ) ∗ unscopedBufs d (afterPool d Vm) ∗ tcOwes d ∗ prngReg d g) -∗ Φ ⟨⟩)
        ∗ boundary (d.tc : Thread nD τ) ∗ unscopedBufs d Vm ∗ tcOwes d ∗ prngReg d g
        ∗ levAts (K (F := F)).L (K (F := F)).lev
        ∗ Pipeline.cellsGhost cfgs EP 0 d ∗ Pipeline.toksInit cfgs EP 0 d)
      ⊢ wp frame (wpE ((K (F := F)).defs (D (F := F))) 𝒱 (d.tc : Thread nD τ) none) Set.univ
          (Prog.lift (.customCall (SparseCore.inner (Pipeline.entry 0)) ())) Φ := by
  have h1 := Tc.tc_region (F := F) d Vm g (fun _ => Prog.ret ⟨⟩) Φ
  have h2 := lifted d Φ
  rw [lift_eq] at h2
  have hpre : iprop((iprop(boundary (d.tc : Thread nD τ) ∗ unscopedBufs d (afterPool d Vm) ∗ tcOwes d ∗ prngReg d g) -∗ Φ ⟨⟩)
        ∗ boundary (d.tc : Thread nD τ) ∗ unscopedBufs d Vm ∗ tcOwes d ∗ prngReg d g
        ∗ levAts (K (F := F)).L (K (F := F)).lev
        ∗ Pipeline.cellsGhost cfgs EP 0 d ∗ Pipeline.toksInit cfgs EP 0 d)
      ⊢ iprop((iprop(boundary (d.tc : Thread nD τ) ∗ unscopedBufs d (afterPool d Vm) ∗ tcOwes d ∗ prngReg d g)
            -∗ wp frame (wpE (D (F := F)) 𝒱 (d.tc : Thread nD τ) none) Set.univ (Prog.ret PUnit.unit) Φ)
        ∗ boundary (d.tc : Thread nD τ) ∗ unscopedBufs d Vm ∗ tcOwes d ∗ prngReg d g
        ∗ levAts (K (F := F)).L (K (F := F)).lev
        ∗ Pipeline.cellsGhost cfgs EP 0 d ∗ Pipeline.toksInit cfgs EP 0 d) := by
    iintro ⟨Hk, Hrest⟩
    isplitl [Hk]
    · iintro H
      rw [wp_ret]; imodintro
      iapply Hk; iexact H
    · iexact Hrest
  exact (hpre.trans h1).trans h2

/-! ## @main -/

set_option backward.isDefEq.respectTransparency.types false in
set_option maxHeartbeats 2000000 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (SparseCore.T d) (Pipeline.ucRefs τ sig) (V0 m d) from
      Pipeline.unscopedBufs_held (Ix := HIx 1) (Name := ℕ) (U := UU) (Lvl := ℕ) d (V0 m d), Host.main_eq]
  iintro ⟨#Hctx, Hst, ⟨Hb, Hheld, -, Hprng⟩, ⟨Hcg, Htk⟩⟩
  -- the host operations before the call
  iapply (StableHlo.wp_seq 𝒱 none Set.univ d (Pipeline.ucRefs τ sig) _ preOps Host.pre_sub Host.pre_fresh (V0 m d)) $$ [Hb Hheld]
  · isplitl [Hb] <;> iassumption
  iintro ⟨Hb, Hheld⟩
  -- the word array and the result out of the held set
  ihave Hheld := (Entails.of_eq (show (held (d.tc : Thread nD τ) (Pipeline.ucRefs τ sig) (StableHlo.after preOps (V0 m d)) : sProp 𝕄)
      = held (SparseCore.T d) (Pipeline.ucRefs τ sig) (V1 m d) from rfl)) $$ Hheld
  ihave Hh := (Entails.of_eq ((held_sub_split (SparseCore.T d) sub34 (V1 m d)).trans (congrArg (fun X => iprop(X ∗ _)) (held_pair d (V1 m d))))) $$ Hheld
  icases Hh with ⟨⟨H3, H4⟩, Hrest⟩
  rw [V1_v3]
  -- the call
  rw [wp_bind]
  iapply ((K (F := F)).wp_run (D (F := F)) 𝒱 (EH := EH) (P := P m) κ d 0) $$ [Hst H3 H4 Hb Hrest Hprng Hcg Htk]
  isplitr; · iexact Hctx
  isplitl [Hst]; · iexact Hst
  isplitl [H3 H4]
  · iapply (Split.split_in m d _); isplitl [H3] <;> iassumption
  iintro ⟨Hst, Hdn⟩
  ihave Hdn' := (Split.join_out m d) $$ Hdn
  icases Hdn' with ⟨H3, H4⟩
  -- the arrays back in one held set, the result at the minima
  ihave Hheld := (Entails.of_eq (held_after_call m d).symm) $$ [H3 H4 Hrest]
  · isplitl [H3 H4]
    · isplitl [H3] <;> iassumption
    · iexact Hrest
  ihave Hu := (Entails.of_eq (Pipeline.unscopedBufs_held (Ix := HIx 1) (Name := ℕ) (U := UU) (Lvl := ℕ) d (V2 m d)).symm) $$ Hheld
  ihave Hst' := (Entails.of_eq (tcSt_one d)) $$ Hst
  icases Hst' with ⟨Ho, Hsr⟩
  -- the pallas_call: a pipeline region below the SparseCore layer
  rw [wp_bind]
  iapply (region_step d (fun b : Ref sig .tc => V2 m d (Proc.devRef .tc b)) (ρ d) _) $$ [Hb Hu Ho Hprng Hcg Htk Hsr]
  isplitl [Hsr]
  · iintro ⟨Hb, Hu, Ho, Hprng⟩
    -- the host operations after it
    ihave Hheld := (Entails.of_eq ((congrArg (unscopedBufs d) (V3_afterPool m d).symm).trans
      (Pipeline.unscopedBufs_held (Ix := HIx 1) (Name := ℕ) (U := UU) (Lvl := ℕ) d (V3 m d)))) $$ Hu
    rw [← bind_pure (StableHlo.seq postOps)]
    iapply (StableHlo.wp_seq 𝒱 none Set.univ d (Pipeline.ucRefs τ sig) _ postOps Host.post_sub Host.post_fresh (V3 m d)) $$ [Hb Hheld]
    · isplitl [Hb] <;> iassumption
    iintro ⟨Hb, Hheld⟩
    ihave Hheld := (Entails.of_eq (show (held (d.tc : Thread nD τ) (Pipeline.ucRefs τ sig) (StableHlo.after postOps (V3 m d)) : sProp 𝕄)
        = held (SparseCore.T d) (Pipeline.ucRefs τ sig) (V4 m d) from rfl)) $$ Hheld
    ihave Hf := (Entails.of_eq ((held_sub_split (SparseCore.T d) subFin (V4 m d)).trans (congrArg (fun X => iprop(X ∗ _)) (held_fin d (V4 m d))))) $$ Hheld
    icases Hf with ⟨⟨H0, H1, H5, H9⟩, -⟩
    rw [V4_a0, V4_a1, V4_v5, V4_v9, wp_pure]
    imodintro
    isplitl [Ho Hsr]
    · iapply (Entails.of_eq (tcSt_one' d).symm)
      isplitl [Ho] <;> iassumption
    unfold Launch.FIN
    isplitl [H0]; · iexact H0
    isplitl [H1]; · iexact H1
    isplitl [H5]; · iexact H5
    iexact H9
  isplitl [Hb]; · iexact Hb
  isplitl [Hu]; · iexact Hu
  isplitl [Ho]; · iexact Ho
  isplitl [Hprng]; · iexact Hprng
  isplitr; · iapply (SparseCore.Cfg.ctx_levAts κ); iexact Hctx
  isplitl [Hcg] <;> iassumption

end Cert.Kernel.Main

end
-- ==== Proof.BitsRun.lean ====
/-
  The program's run at any float instance: every weakly fair execution of @main on the TensorCore and of the
  mask kernel on the thirty-two vector subcores terminates, nothing faulting, with both arguments unchanged,
  the first result the pooled array and the second the pooled mask of the arguments.
-/
import proofs.«217849_g24850680775158_cont_8to1_1955_33_alg».proof.Proof.BitsMain

noncomputable section

namespace Cert.Kernel.Run

open Cert.Kernel Cert.Kernel.Setup
open Idealize.ShloMosaic Idealize.SL.Sem

variable {F : FTy → Type} [FloatOps F]

theorem run_main [∀ e, Nonempty (Elt F e)] (m : (ℓ : Loc nD τ sig) → Buf (Elt F) ℓ) (ρ : Dev nD → PrngReg) :
    θ_run (Cert.Kernel.defs (F := F)) (Cert.Kernel.threads (F := F)) ⟨m, fun _ => 0, ρ⟩ (Launch.QC m) :=
  Launch.run_of m ρ (Main.hmain m ρ)

end Cert.Kernel.Run

end
-- ==== Proof.RefGen.lean ====
/-
  The reference's run and its operations read at an index: the generated modules, gathered for the modules
  that state the reference's results.
-/
import proofs.«217849_g24850680775158_cont_8to1_1955_33_alg».proof.Proof.Gen.ReferenceIdeal.Run
import proofs.«217849_g24850680775158_cont_8to1_1955_33_alg».proof.Proof.Gen.ReferenceIdeal.Read
-- ==== Proof.RefConsts.lean ====
/-
  The float words of the pooling as the extended reals they denote, and the law that joins the two sides of the
  pooled mean: a sum of four terms taken from zero and divided by 4 is the sum of the two pairs scaled by 1/4,
  on every extended real (the quotient by a nonzero real is the product with its reciprocal, at the infinities
  too; addition associates there).
-/
import Idealize.ShloMosaic.PureOps.Ideal
import Idealize.ShloMosaic.PureOps.Ideal.Laws

noncomputable section

namespace Cert.RefBridge

open Idealize.ShloMosaic

/-- The word `4.0` denotes the real 4. -/
theorem ofBits_four : Ideal.ofBits .f32 0x40800000#32 = ((4 : ℝ) : EReal) := by
  simp [Ideal.ofBits, Ideal.ieee, -EReal.coe_mul]; norm_num

/-- The word `0.25` denotes the real 1/4. -/
theorem ofBits_quarter : Ideal.ofBits .f32 0x3E800000#32 = ((1 / 4 : ℝ) : EReal) := by
  simp [Ideal.ofBits, Ideal.ieee, -EReal.coe_mul]; norm_num

/-- Four terms summed from the zero word and divided by the word `4.0` are the two pairs' sum times the word `0.25`. -/
theorem mean4 (a b c d : EReal) :
    Ideal.div (Ideal.ofBits .f32 0x00000000#32 + (a + b + c + d)) (Ideal.ofBits .f32 0x40800000#32)
      = ((a + b) + (c + d)) * Ideal.ofBits .f32 0x3E800000#32 := by
  rw [Ideal.ofBits_zero_f32, zero_add, ofBits_four, ofBits_quarter, Ideal.div_coe (by norm_num), add_assoc (a + b) c d]

end Cert.RefBridge

end
-- ==== Proof.RefPoolKernel.lean ====
/-
  The pooling body read at an index. The body views its block of 4096 rows as 2048 pairs of rows, adds the two
  rows of each pair, views the 2048 sums as 1024 pairs, adds again and scales by the word `0.25`: at row `r` and
  feature `f` of its result it holds `((x[4r] + x[4r+1]) + (x[4r+2] + x[4r+3])) * 0.25` at `f`. Every step is a
  change of layout read at an index — a view of `[2n, m]` as `[n, 2, m]` reads row `2r + e`, the slice that keeps
  one row of each pair reads that row, the unit axis it leaves is dropped — or an elementwise operation.
-/
import proofs.«217849_g24850680775158_cont_8to1_1955_33_alg».proof.Proof.KV
import Idealize.ShloMosaic.Lib.ValueLayout

noncomputable section

namespace Cert.RefBridge

open Idealize.ShloMosaic Idealize.ShloMosaic.ValueIdx Cert.KernelIdeal Cert.KernelIdeal.Gen

section Layout
variable {α : Type}

/-- A `[N, m]` array viewed as `[n, 2, m]` reads, at `(r, e, f)`, row `2r + e`. -/
theorem pairs_apply {n m N : ℕ} (x : (⟨2, ![N, m]⟩ : Shape).Idx → α)
    (h : (⟨2, ![N, m]⟩ : Shape).ShapeCasts ⟨3, ![n, 2, m]⟩) (r : Fin n) (e : Fin 2) (f : Fin m) (k : Fin N)
    (hk : k.val = 2 * r.val + e.val) : shapeCast ⟨3, ![n, 2, m]⟩ x h (ix3 r e f) = x (ix2 k f) :=
  shapeCast_apply x h _ _ (by
    rw [Shape.rowMajor_val_two, Shape.rowMajor_val_three]
    show k.val * m + f.val = (r.val * 2 + e.val) * m + f.val
    rw [hk, Nat.mul_comm 2 r.val])

/-- An `[n, 1, m]` array viewed as `[n, m]` reads, at `(r, f)`, the operand at `(r, 0, f)`. -/
theorem dropMid_apply {n m : ℕ} (x : (⟨3, ![n, 1, m]⟩ : Shape).Idx → α)
    (h : (⟨3, ![n, 1, m]⟩ : Shape).ShapeCasts ⟨2, ![n, m]⟩) (r : Fin n) (f : Fin m) :
    shapeCast ⟨2, ![n, m]⟩ x h (ix2 r f) = x (ix3 r (0 : Fin 1) f) :=
  shapeCast_apply x h _ _ (by
    rw [Shape.rowMajor_val_three, Shape.rowMajor_val_two]
    show (r.val * 1 + 0) * m + f.val = r.val * m + f.val
    rw [Nat.mul_one, Nat.add_zero])

/-- Row `e` of every pair: the slice of `[n, 2, m]` at offset `e` on the middle axis, its unit axis dropped, reads
    at `(r, f)` the operand at `(r, e, f)`. -/
theorem pickRow_apply {n m : ℕ} (o : ℕ) (x : (⟨3, ![n, 2, m]⟩ : Shape).Idx → α)
    (hs : (⟨3, ![n, 2, m]⟩ : Shape).Slices ![0, o, 0] ⟨3, ![n, 1, m]⟩)
    (hc : (⟨3, ![n, 1, m]⟩ : Shape).ShapeCasts ⟨2, ![n, m]⟩) (r : Fin n) (f : Fin m) (e : Fin 2) (he : e.val = o) :
    shapeCast ⟨2, ![n, m]⟩ (extractStridedSlice ⟨3, ![n, 1, m]⟩ ![0, o, 0] x hs) hc (ix2 r f) = x (ix3 r e f) := by
  rw [dropMid_apply]
  exact slice3_axis1_apply o x hs r (0 : Fin 1) f e (by rw [he]; rfl)

end Layout

variable {F : FTy → Type} [FloatOps F]

/-- ONE ROUND OF PAIRING: the rows of a `[N, m]` array viewed as `[n, 2, m]`, the two rows of each pair added. At
    `(q, f)` it holds row `2q` plus row `2q + 1` at `f`. -/
theorem pairSum_apply {n m N : ℕ} (w : FVec F ⟨2, ![N, m]⟩ .f32)
    (hc : (⟨2, ![N, m]⟩ : Shape).ShapeCasts ⟨3, ![n, 2, m]⟩)
    (hs0 : (⟨3, ![n, 2, m]⟩ : Shape).Slices ![0, 0, 0] ⟨3, ![n, 1, m]⟩)
    (hs1 : (⟨3, ![n, 2, m]⟩ : Shape).Slices ![0, 1, 0] ⟨3, ![n, 1, m]⟩)
    (hd : (⟨3, ![n, 1, m]⟩ : Shape).ShapeCasts ⟨2, ![n, m]⟩) (q : Fin n) (f : Fin m) (k0 k1 : Fin N)
    (h0 : k0.val = 2 * q.val) (h1 : k1.val = 2 * q.val + 1) :
    addf (shapeCast ⟨2, ![n, m]⟩ (extractStridedSlice ⟨3, ![n, 1, m]⟩ ![0, 0, 0] (shapeCast ⟨3, ![n, 2, m]⟩ w hc) hs0) hd)
        (shapeCast ⟨2, ![n, m]⟩ (extractStridedSlice ⟨3, ![n, 1, m]⟩ ![0, 1, 0] (shapeCast ⟨3, ![n, 2, m]⟩ w hc) hs1) hd)
        (ix2 q f)
      = FloatOps.addf (w (ix2 k0 f)) (w (ix2 k1 f)) := by
  show FloatOps.addf _ _ = _
  refine congrArg₂ FloatOps.addf ?_ ?_
  · exact (pickRow_apply 0 _ hs0 hd q f (0 : Fin 2) rfl).trans (pairs_apply w hc q 0 f k0 h0)
  · exact (pickRow_apply 1 _ hs1 hd q f (1 : Fin 2) rfl).trans (pairs_apply w hc q 1 f k1 h1)

/-- Row `4r + j` of a block of 4096 rows. -/
abbrev row4 (r : Fin 1024) (j : Fin 4) : Fin 4096 := ⟨4 * r.val + j.val, by have := r.isLt; have := j.isLt; omega⟩

/-- Row `2r + e` of the 2048 sums of pairs. -/
abbrev row2 (r : Fin 1024) (e : Fin 2) : Fin 2048 := ⟨2 * r.val + e.val, by have := r.isLt; have := e.isLt; omega⟩

/-- THE BODY AT AN INDEX: row `r`, feature `f` of the body's result is the sum of the two pairs of rows
    `4r, 4r+1` and `4r+2, 4r+3` at `f`, times the word `0.25`. -/
theorem pay_apply (v : Vec F S1x4096x1024 .f32) (r : Fin 1024) (f : Fin 1024) :
    k1_pay1 v (ix3 (0 : Fin 1) r f)
      = FloatOps.mulf
          (FloatOps.addf (FloatOps.addf (v (ix3 (0 : Fin 1) (row4 r 0) f)) (v (ix3 (0 : Fin 1) (row4 r 1) f)))
            (FloatOps.addf (v (ix3 (0 : Fin 1) (row4 r 2) f)) (v (ix3 (0 : Fin 1) (row4 r 3) f))))
          (Scalar.ofBits .f32 0x3E800000#32) := by
  unfold k1_pay1
  refine (shapeCast_ab_1ab_apply _ _ (0 : Fin 1) r f).trans ?_
  show FloatOps.mulf _ _ = _
  refine congrArg₂ FloatOps.mulf ?_ rfl
  refine (pairSum_apply (n := 1024) (m := 1024) (N := 2048) _ _ _ _ _ r f (row2 r 0) (row2 r 1) rfl rfl).trans ?_
  refine congrArg₂ FloatOps.addf ?_ ?_
  · refine (pairSum_apply (n := 2048) (m := 1024) (N := 4096) _ _ _ _ _ (row2 r 0) f (row4 r 0) (row4 r 1)
      (by show 4 * r.val + 0 = 2 * (2 * r.val + 0); omega) (by show 4 * r.val + 1 = 2 * (2 * r.val + 0) + 1; omega)).trans ?_
    exact congrArg₂ FloatOps.addf (shapeCast_1ab_ab_apply _ _ _ _) (shapeCast_1ab_ab_apply _ _ _ _)
  · refine (pairSum_apply (n := 2048) (m := 1024) (N := 4096) _ _ _ _ _ (row2 r 1) f (row4 r 2) (row4 r 3)
      (by show 4 * r.val + 2 = 2 * (2 * r.val + 1); omega) (by show 4 * r.val + 3 = 2 * (2 * r.val + 1) + 1; omega)).trans ?_
    exact congrArg₂ FloatOps.addf (shapeCast_1ab_ab_apply _ _ _ _) (shapeCast_1ab_ab_apply _ _ _ _)

end Cert.RefBridge

end
-- ==== Proof.RefPool.lean ====
/-
  The pooled array: the reference's mean over each group of four rows is the kernel's function of the input.
  The reference views the input `[4, 4096, 1024]` as `[4, 1024, 4, 1024]` (member `k` of group `r` of batch `b` is
  row `4r + k` of that batch), sums over the members from the zero word and divides by the word `4.0`. The kernel
  adds the rows `4r, 4r+1` and `4r+2, 4r+3`, adds the two sums and multiplies by the word `0.25`. On the extended
  reals the two are one value at every input, the infinities included: the sum associates, and the quotient by 4
  is the product with 1/4.
-/
import proofs.«217849_g24850680775158_cont_8to1_1955_33_alg».proof.Proof.KV
import proofs.«217849_g24850680775158_cont_8to1_1955_33_alg».proof.Proof.RefGen
import proofs.«217849_g24850680775158_cont_8to1_1955_33_alg».proof.Proof.RefConsts
import proofs.«217849_g24850680775158_cont_8to1_1955_33_alg».proof.Proof.RefPoolKernel

noncomputable section

namespace Cert.RefBridge

open Idealize.ShloMosaic Idealize.ShloMosaic.ValueIdx
open Cert.ReferenceIdeal Cert.ReferenceIdeal.Gen Cert.ReferenceIdeal.Read

/-- Member `k` of group `(b, r)` at feature `f`, through the reference's two index maps (the sum's, then the
    view's), is the input at batch `b`, row `4r + k`, feature `f`. -/
theorem idx_member (b : Fin 4) (r : Fin 1024) (f : Fin 1024) (k : Fin 4) :
    idx_main_v0 (idx_main_v2 (ix3 b r f) k) = ix3 b (row4 r k) f := by
  have hb := b.isLt; have hr := r.isLt; have hf := f.isLt; have hk := k.isLt
  funext a
  match a with
  | ⟨0, _⟩ =>
    exact Fin.ext (by show (((b.val * 1024 + r.val) * 4 + k.val) * 1024 + f.val) / 4194304 = b.val; omega)
  | ⟨1, _⟩ =>
    exact Fin.ext (by show (((b.val * 1024 + r.val) * 4 + k.val) * 1024 + f.val) / 1024 % 4096 = 4 * r.val + k.val; omega)
  | ⟨2, _⟩ =>
    exact Fin.ext (by show (((b.val * 1024 + r.val) * 4 + k.val) * 1024 + f.val) % 1024 = f.val; omega)

/-- THE REFERENCE'S POOLED ARRAY AT AN INDEX: the group's four rows summed from the zero word, over the word `4.0`. -/
theorem refPool_apply (x : FVec Ideal S4x4096x1024 .f32) (b : Fin 4) (r : Fin 1024) (f : Fin 1024) :
    val_main_v4 (F := Ideal) x (ix3 b r f)
      = Ideal.div (Ideal.ofBits .f32 0x00000000#32
          + (x (ix3 b (row4 r 0) f) + x (ix3 b (row4 r 1) f) + x (ix3 b (row4 r 2) f) + x (ix3 b (row4 r 3) f)))
          (Ideal.ofBits .f32 0x40800000#32) := by
  rw [val_main_v4_apply, val_main_v2_apply, val_main_v3_apply, val_main_cst_0_apply, val_main_cst_apply,
    Fin.sum_univ_four]
  simp only [val_main_v0_apply, idx_member]
  rfl

/-- THE KERNEL'S POOLED ARRAY AT AN INDEX: the two pairs of rows summed, times the word `0.25`. -/
theorem pooled_apply (x : FVec Ideal S4x4096x1024 .f32) (b : Fin 4) (r : Fin 1024) (f : Fin 1024) :
    Cert.KernelIdeal.KV.pooled (F := Ideal) x (ix3 b r f)
      = ((x (ix3 b (row4 r 0) f) + x (ix3 b (row4 r 1) f)) + (x (ix3 b (row4 r 2) f) + x (ix3 b (row4 r 3) f)))
          * Ideal.ofBits .f32 0x3E800000#32 := by
  unfold Cert.KernelIdeal.KV.pooled
  exact pay_apply (F := Ideal) (Cert.KernelIdeal.KV.slab x b) r f

/-- THE POOLED ARRAYS AGREE. -/
theorem pool_eq (x : FVec Ideal S4x4096x1024 .f32) :
    Host.divf (Host.reduceAdd (shapeCast _ x shapeCasts_S4x4096x1024_S4x1024x4x1024) (constant S_ .f32 0x00000000#32)
        reducesTo_S4x1024x4x1024_S4x1024x1024_d2 h_S_)
        (broadcastInDim S4x1024x1024 ![] bcast_S_S4x1024x1024 (constant S_ .f32 0x40800000#32))
      = Cert.KernelIdeal.KV.pooled (F := Ideal) x := by
  rw [val_main_v4_eq]
  funext i
  obtain ⟨b, r, f, rfl⟩ : ∃ (b : Fin 4) (r : Fin 1024) (f : Fin 1024), i = ix3 b r f := ⟨i 0, i 1, i 2, eq_ix3 i⟩
  rw [refPool_apply, pooled_apply]
  exact mean4 _ _ _ _

end Cert.RefBridge

end
-- ==== Proof.RefMaskBits.lean ====
/-
  The pooled mask's arithmetic on four one-bit words. The reference takes the conjunction of a group's four bits
  (a fold of `and` from the bit 1); the kernel widens each bit to a 32-bit word by zero extension, takes the
  signed minimum of the four words and compares it with zero. A zero-extended bit is the word 0 or the word 1,
  both non-negative, so the minimum of the four is 1 exactly when every bit is 1 and 0 otherwise: it differs from
  zero exactly when the conjunction is 1. There are sixteen cases.
-/
import Idealize.ShloMosaic.PureOps.Reduce

namespace Cert.RefBridge

open Idealize.ShloMosaic

/-- A fold of a commutative, associative operation over the four coordinates of an axis of extent 4, written out. -/
theorem fold_univ_fin4 {α : Type} (op : α → α → α) [Std.Commutative op] [Std.Associative op] (b : α) (g : Fin 4 → α) :
    (Finset.univ : Finset (Fin 4)).fold op b g = op (g 0) (op (g 1) (op (g 2) (op (g 3) b))) := by
  have hu : (Finset.univ : Finset (Fin 4)) = {0, 1, 2, 3} := by decide
  rw [hu, Finset.fold_insert (by decide), Finset.fold_insert (by decide), Finset.fold_insert (by decide),
    Finset.fold_singleton]

/-- The conjunction of four bits is the bit "the signed minimum of the four zero-extended bits is not zero". -/
theorem and4_eq_min4_ne_zero (p q r s : BitVec 1) :
    IntOp.andi p (IntOp.andi q (IntOp.andi r (IntOp.andi s 1#1)))
      = IntOp.cmpi .ne
          (IntOp.minsi (IntOp.minsi (IntOp.minsi (p.setWidth 32) (q.setWidth 32)) (r.setWidth 32)) (s.setWidth 32))
          0#32 := by
  revert p q r s
  decide

end Cert.RefBridge
-- ==== Proof.RefMask.lean ====
/-
  The pooled mask: the reference's conjunction over each group of four bits is the kernel's function of the mask.
  The kernel lays the bits out as 32-bit words, group position major: word `4096 k + n` is bit `4 n + k` of the
  flattened mask, so for window `n = 1024 b + w` it is the bit at batch `b`, position `4 w + k`. The four words
  of a window are therefore the window's four bits, zero-extended; their signed minimum is compared with zero.
  The reference folds `and` from the bit 1 over the same four bits. The two agree by the sixteen cases of four bits.
-/
import proofs.«217849_g24850680775158_cont_8to1_1955_33_alg».proof.Proof.KV
import proofs.«217849_g24850680775158_cont_8to1_1955_33_alg».proof.Proof.RefGen
import proofs.«217849_g24850680775158_cont_8to1_1955_33_alg».proof.Proof.RefMaskBits
import Idealize.ShloMosaic.Lib.ValueLayout

noncomputable section

namespace Cert.RefBridge

open Idealize.ShloMosaic Idealize.ShloMosaic.ValueIdx

/-- Window `1024 b + w` of the 4096 windows. -/
abbrev win (b : Fin 4) (w : Fin 1024) : Fin 4096 := ⟨1024 * b.val + w.val, by have := b.isLt; have := w.isLt; omega⟩

/-- Position `4 w + k` of a batch's 4096 positions: member `k` of group `w`. -/
abbrev pos4 (w : Fin 1024) (k : Fin 4) : Fin 4096 := ⟨4 * w.val + k.val, by have := w.isLt; have := k.isLt; omega⟩

section Kernel

open Cert.KernelIdeal Cert.KernelIdeal.Gen Cert.KernelIdeal.KV

/-- The word at group position `k` of window `(b, w)` is the mask's bit at batch `b`, position `4 w + k`, zero-extended. -/
theorem wordAt_maskWords (a : IVec S4x4096 1) (k : Fin 4) (b : Fin 4) (w : Fin 1024) :
    wordAt (maskWords a) k (win b w) = (a (ix2 b (pos4 w k))).setWidth 32 := by
  have hk := k.isLt; have hb := b.isLt; have hw := w.isLt
  unfold wordAt maskWords
  refine (shapeCast_apply _ _ _ (ix2 k (win b w)) ?_).trans ?_
  · rw [Shape.rowMajor_val_two, Shape.rowMajor_val_one]
    show k.val * 4096 + (1024 * b.val + w.val) = 4096 * k.val + (1024 * b.val + w.val)
    omega
  refine (transpose_ix2_apply _ _ k (win b w)).trans ?_
  show (shapeCast S4096x4 a shapeCasts_S4x4096_S4096x4 (ix2 (win b w) k)).setWidth 32 = _
  refine congrArg (fun z : BitVec 1 => z.setWidth 32) ?_
  refine shapeCast_apply a _ _ (ix2 b (pos4 w k)) ?_
  rw [Shape.rowMajor_val_two, Shape.rowMajor_val_two]
  show b.val * 4096 + (4 * w.val + k.val) = (1024 * b.val + w.val) * 4 + k.val
  omega

/-- THE KERNEL'S MASK AT AN INDEX: at batch `b`, window `w`, the bit "the signed minimum of the group's four
    zero-extended bits is not zero". -/
theorem maskVal_apply (a : IVec S4x4096 1) (b : Fin 4) (w : Fin 1024) :
    maskVal a (ix2 b w)
      = IntOp.cmpi .ne
          (IntOp.minsi (IntOp.minsi (IntOp.minsi ((a (ix2 b (pos4 w 0))).setWidth 32) ((a (ix2 b (pos4 w 1))).setWidth 32))
            ((a (ix2 b (pos4 w 2))).setWidth 32)) ((a (ix2 b (pos4 w 3))).setWidth 32))
          0#32 := by
  have hb := b.isLt; have hw := w.isLt
  unfold maskVal maskOut
  show IntOp.cmpi .ne (shapeCast S4x1024 (min4 (maskWords a)) shapeCasts_S4096_S4x1024 (ix2 b w)) 0#32 = _
  refine congrArg (fun z : BitVec 32 => IntOp.cmpi .ne z 0#32) ?_
  refine (shapeCast_apply _ _ (ix2 b w) (ix1 (win b w)) ?_).trans ?_
  · rw [Shape.rowMajor_val_one, Shape.rowMajor_val_two]
    show 1024 * b.val + w.val = b.val * 1024 + w.val
    omega
  show IntOp.minsi (IntOp.minsi (IntOp.minsi (wordAt (maskWords a) 0 (win b w)) (wordAt (maskWords a) 1 (win b w)))
      (wordAt (maskWords a) 2 (win b w))) (wordAt (maskWords a) 3 (win b w)) = _
  rw [wordAt_maskWords, wordAt_maskWords, wordAt_maskWords, wordAt_maskWords]

end Kernel

section Reference

open Cert.ReferenceIdeal Cert.ReferenceIdeal.Gen

/-- The shape fact that names a group's members: the mask viewed `[4, 1024, 4]` reduces along its last axis. -/
theorem reduces_groups : S4x1024x4.Reduces [2] S4x1024 := by decide

/-- Member `k` of group `(b, w)` of the mask viewed `[4, 1024, 4]` is the bit at batch `b`, position `4 w + k`. -/
theorem group_apply (a : IVec S4x4096 1) (b : Fin 4) (w : Fin 1024) (k : Fin 4) :
    shapeCast S4x1024x4 a shapeCasts_S4x4096_S4x1024x4 (reduces_groups.lift (ix2 b w) k) = a (ix2 b (pos4 w k)) := by
  have hk := k.isLt; have hb := b.isLt; have hw := w.isLt
  refine shapeCast_apply a _ _ _ ?_
  rw [Shape.rowMajor_val_two, Shape.rowMajor_val_three]
  show b.val * 4096 + (4 * w.val + k.val) = (b.val * 1024 + w.val) * 4 + k.val
  omega

/-- THE REFERENCE'S MASK AT AN INDEX: the conjunction, from the bit 1, of the group's four bits. -/
theorem refMask_apply (a : IVec S4x4096 1) (b : Fin 4) (w : Fin 1024) :
    Host.reduce IntOp.andi (shapeCast _ a shapeCasts_S4x4096_S4x1024x4) (constantI S_ 1 1#1) reducesTo_S4x1024x4_S4x1024_d2 h_S_
        (ix2 b w)
      = IntOp.andi (a (ix2 b (pos4 w 0))) (IntOp.andi (a (ix2 b (pos4 w 1))) (IntOp.andi (a (ix2 b (pos4 w 2)))
          (IntOp.andi (a (ix2 b (pos4 w 3))) 1#1))) := by
  rw [Host.reduce_eq_fold_single IntOp.andi _ _ reducesTo_S4x1024x4_S4x1024_d2 reduces_groups h_S_ (ix2 b w)]
  refine (fold_univ_fin4 IntOp.andi (1#1 : BitVec 1)
    (fun k : Fin 4 => shapeCast S4x1024x4 a shapeCasts_S4x4096_S4x1024x4 (reduces_groups.lift (ix2 b w) k))).trans ?_
  simp only [group_apply]

/-- THE MASKS AGREE: the reference's conjunction over groups of four is the kernel's function of the mask. -/
theorem mask_eq (a : IVec S4x4096 1) :
    Host.reduce IntOp.andi (shapeCast _ a shapeCasts_S4x4096_S4x1024x4) (constantI S_ 1 1#1) reducesTo_S4x1024x4_S4x1024_d2 h_S_
      = Cert.KernelIdeal.KV.maskVal a := by
  funext i
  obtain ⟨b, w, rfl⟩ : ∃ (b : Fin 4) (w : Fin 1024), i = ix2 b w := ⟨i 0, i 1, eq_ix2 i⟩
  rw [refMask_apply, maskVal_apply]
  exact and4_eq_min4_ne_zero _ _ _ _

end Reference

end Cert.RefBridge

end
-- ==== Proof.RefBridge.lean ====
/-
  The reference's run with each result stated as the kernel's function of the arguments. The reference is a
  straight line of host operations; every execution of it terminates with the two results at the operations'
  composed terms of the arguments and the arguments unchanged. Those two terms are the pooled array and the pooled
  mask as the kernel computes them (the group mean as pairwise sums times 1/4; the conjunction as a signed
  minimum of zero-extended bits compared with zero), so the run ends with the results at the kernel's functions.
  The reference's frame is the same run with the results forgotten.
-/
import proofs.«217849_g24850680775158_cont_8to1_1955_33_alg».proof.Defs
import proofs.«217849_g24850680775158_cont_8to1_1955_33_alg».proof.Proof.Gen.ReferenceIdeal
import proofs.«217849_g24850680775158_cont_8to1_1955_33_alg».proof.Proof.Gen.Pre_finite_inputs
import proofs.«217849_g24850680775158_cont_8to1_1955_33_alg».proof.Proof.KV
import proofs.«217849_g24850680775158_cont_8to1_1955_33_alg».proof.Proof.RefGen
import proofs.«217849_g24850680775158_cont_8to1_1955_33_alg».proof.Proof.RefPool
import proofs.«217849_g24850680775158_cont_8to1_1955_33_alg».proof.Proof.RefMask

noncomputable section

namespace Cert.RefBridge

open Idealize.ShloMosaic Idealize.ShloMosaic.TcCoe Idealize.SL.Sem

/-- THE REFERENCE'S RUN: every weakly fair execution terminates with the pooled array and the pooled mask at the
    kernel's functions of the arguments, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v4)
            = Cert.KernelIdeal.KV.pooled (F := Ideal)
                (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v5)
            = Cert.KernelIdeal.KV.maskVal
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run Cert.ReferenceIdeal.defs _ _).mono
    (fun _ h c => ⟨(h c).1.trans (pool_eq _), (h c).2.1.trans (mask_eq _), (h c).2.2.1, (h c).2.2.2⟩)
    (Cert.ReferenceIdeal.Value.run (F := Ideal) m' ρ')

/-- THE REFERENCE'S FRAME: it runs to the end, faults nowhere and leaves its arguments unchanged, on every input. -/
theorem ref_frame : Cert.frame_ReferenceIdeal := fun m ρ _ =>
  (θ_run Cert.ReferenceIdeal.defs _ _).mono (fun _ h c => (h c).2.2) (Cert.ReferenceIdeal.Value.run (F := Ideal) m ρ)

end Cert.RefBridge

end
-- ==== Proof.lean ====
/-
  The five claims. The word-level kernel and its idealization are one text read at two float instances: each
  runs to its end, faulting nowhere, and leaves its arguments unchanged (`Run.run_main`, the launch of a
  SparseCore program with a TensorCore pallas_call inside it); the ideal pass rewrote nothing, so
  `preserves` has no conjunct. At the ideal instance the kernel's results are `KV.pooled` of the first
  argument — in every batch, row `r` is `((x[4r] + x[4r+1]) + (x[4r+2] + x[4r+3])) · 0.25` — and
  `KV.maskVal` of the second — bit `w` is set exactly when the signed minimum of the group's four
  zero-extended bits is not zero —, and the reference's results are the same two functions: its sum over the
  group divided by `4` is that product on the extended reals (addition there is commutative and associative,
  and dividing by `4` is multiplying by `0.25` at every extended real), and its conjunction over the group
  holds exactly when all four bits are set (`RefBridge.ref_run`).
-/
import proofs.«217849_g24850680775158_cont_8to1_1955_33_alg».proof.Defs
import proofs.«217849_g24850680775158_cont_8to1_1955_33_alg».proof.Proof.Gen.Kernel
import proofs.«217849_g24850680775158_cont_8to1_1955_33_alg».proof.Proof.Gen.KernelIdeal
import proofs.«217849_g24850680775158_cont_8to1_1955_33_alg».proof.Proof.Gen.ReferenceIdeal
import proofs.«217849_g24850680775158_cont_8to1_1955_33_alg».proof.Proof.Gen.Pre_finite_inputs
import proofs.«217849_g24850680775158_cont_8to1_1955_33_alg».proof.Proof.Run
import proofs.«217849_g24850680775158_cont_8to1_1955_33_alg».proof.Proof.BitsRun
import proofs.«217849_g24850680775158_cont_8to1_1955_33_alg».proof.Proof.RefBridge

noncomputable section

namespace Cert.Proof

open Idealize.ShloMosaic Idealize.SL.Sem

theorem frame_k : Cert.frame_Kernel := fun m ρ _ =>
  (θ_run Cert.Kernel.defs _ _).mono (fun _ h c => ⟨(h c).2.2.1, (h c).2.2.2⟩) (Cert.Kernel.Run.run_main (F := Bits) m ρ)

theorem frame_ki : Cert.frame_KernelIdeal := fun m ρ _ =>
  (θ_run Cert.KernelIdeal.defs _ _).mono (fun _ h c => ⟨(h c).2.2.1, (h c).2.2.2⟩) (Cert.KernelIdeal.Run.run_main (F := Ideal) m ρ)

/-- Both runs end at the same two functions of arguments that agree. -/
theorem algebraic : Cert.algebraic_KernelIdeal_ReferenceIdeal := by
  intro m ρ m' ρ' _ hagree
  refine ⟨fun c => Cert.KernelIdeal.Launch.pooledOf m c, fun c => Cert.KernelIdeal.Launch.maskOf m c,
    (θ_run Cert.KernelIdeal.defs _ _).mono (fun _ h c => ⟨(h c).1, (h c).2.1, (h c).2.2.1, (h c).2.2.2⟩)
      (Cert.KernelIdeal.Run.run_main (F := Ideal) m ρ), ?_⟩
  refine (θ_run Cert.ReferenceIdeal.defs _ _).mono (fun _ h c => ?_) (Cert.RefBridge.ref_run m' ρ')
  obtain ⟨h4, h5, ha0, ha1⟩ := h c
  refine ⟨h4.trans ?_, h5.trans ?_, ha0, ha1⟩
  · rw [(hagree c).1]; rfl
  · rw [(hagree c).2]; rfl

theorem claim : Cert.Claim :=
  ⟨Cert.Kernel.Gen.facts, Cert.KernelIdeal.Gen.facts, Cert.ReferenceIdeal.Gen.facts, Cert.Pre_finite_inputs.Gen.facts,
    frame_k, frame_ki, Cert.RefBridge.ref_frame, trivial, algebraic⟩

end Cert.Proof

end
